-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v459) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x2 : Shape := ⟨2, ![524288, 2]⟩
abbrev S2x64 : Shape := ⟨2, ![2, 64]⟩
abbrev S64 : Shape := ⟨1, ![64]⟩
abbrev S64x16 : Shape := ⟨2, ![64, 16]⟩
abbrev S16 : Shape := ⟨1, ![16]⟩
abbrev S16x4 : Shape := ⟨2, ![16, 4]⟩
abbrev S4 : Shape := ⟨1, ![4]⟩
abbrev S2x4 : Shape := ⟨2, ![2, 4]⟩
abbrev S4x32 : Shape := ⟨2, ![4, 32]⟩
abbrev S32 : Shape := ⟨1, ![32]⟩
abbrev S32x4 : Shape := ⟨2, ![32, 4]⟩
abbrev S_ : Shape := ⟨0, ![]⟩

class Facts : Prop where
  bcast_S_S524288x2 : S_.BroadcastsInDim S524288x2 (![] : Fin 0 → Fin S524288x2.rank)
  reducesTo_S524288x2_S_d0_1 : S524288x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S2x4 : S_.BroadcastsInDim S2x4 (![] : Fin 0 → Fin S2x4.rank)
  reducesTo_S2x4_S_d0_1 : S2x4.ReducesTo [0, 1] S_
  bcast_S_S4x32 : S_.BroadcastsInDim S4x32 (![] : Fin 0 → Fin S4x32.rank)
  reducesTo_S4x32_S_d0_1 : S4x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_

variable [Facts]

def fn_part3 {F : FTy → Type} [FloatOps F] (main_arg11 : FVec F S4 .f32) (main_v48 : IVec S_ 1) (main_v49 : FVec F S32x4 .f32) (main_v50 : FVec F S32x4 .f32) : IVec S_ 1 :=
  let main_v51 : IVec S32x4 1 := cmpf .olt main_v49 main_v50
  let main_c_19 : IVec S_ 1 := constantI S_ 1 1#1
  let main_v52 : IVec S_ 1 := (fun x v => Host.reduce IntOp.andi x v reducesTo_S32x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg7 : FVec F S2x4 .f32) (main_arg8 : FVec F S4x32 .f32) (main_arg9 : FVec F S32 .f32) (main_arg10 : FVec F S32x4 .f32) (main_arg11 : FVec F S4 .f32) (main_v33 : IVec S_ 1) : IVec S_ 1 :=
  let main_v34 : FVec F S2x4 .f32 := Host.absf main_arg7
  let main_cst_12 : FVec F S_ .f32 := constant S_ .f32 0x7F800000#32
  let main_v35 : FVec F S2x4 .f32 := broadcastInDim S2x4 ![] bcast_S_S2x4 main_cst_12
  let main_v36 : IVec S2x4 1 := cmpf .olt main_v34 main_v35
  let main_c_13 : IVec S_ 1 := constantI S_ 1 1#1
  let main_v37 : IVec S_ 1 := (fun x v => Host.reduce IntOp.andi x v reducesTo_S2x4_S_d0_1 h_S_) main_v36 main_c_13
  let main_v38 : IVec S_ 1 := andi main_v33 main_v37
  let main_v39 : FVec F S4x32 .f32 := Host.absf main_arg8
  let main_cst_14 : FVec F S_ .f32 := constant S_ .f32 0x7F800000#32
  let main_v40 : FVec F S4x32 .f32 := broadcastInDim S4x32 ![] bcast_S_S4x32 main_cst_14
  let main_v41 : IVec S4x32 1 := cmpf .olt main_v39 main_v40
  let main_c_15 : IVec S_ 1 := constantI S_ 1 1#1
  let main_v42 : IVec S_ 1 := (fun x v => Host.reduce IntOp.andi x v reducesTo_S4x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x4 .f32 := Host.absf main_arg10
  let main_cst_18 : FVec F S_ .f32 := constant S_ .f32 0x7F800000#32
  let main_v50 : FVec F S32x4 .f32 := broadcastInDim S32x4 ![] bcast_S_S32x4 main_cst_18
  fn_part3 (F := F) main_arg11 main_v48 main_v49 main_v50

def fn_part1 {F : FTy → Type} [FloatOps F] (main_arg4 : FVec F S16 .f32) (main_arg5 : FVec F S16x4 .f32) (main_arg6 : FVec F S4 .f32) (main_arg7 : FVec F S2x4 .f32) (main_arg8 : FVec F S4x32 .f32) (main_arg9 : FVec F S32 .f32) (main_arg10 : FVec F S32x4 .f32) (main_arg11 : FVec F S4 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x4 .f32 := Host.absf main_arg5
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S524288x2 .f32) (main_arg1 : FVec F S2x64 .f32) (main_arg2 : FVec F S64 .f32) (main_arg3 : FVec F S64x16 .f32) (main_arg4 : FVec F S16 .f32) (main_arg5 : FVec F S16x4 .f32) (main_arg6 : FVec F S4 .f32) (main_arg7 : FVec F S2x4 .f32) (main_arg8 : FVec F S4x32 .f32) (main_arg9 : FVec F S32 .f32) (main_arg10 : FVec F S32x4 .f32) (main_arg11 : FVec F S4 .f32) : IVec S_ 1 :=
  let main_v0 : FVec F S524288x2 .f32 := Host.absf main_arg0
  let main_cst : FVec F S_ .f32 := constant S_ .f32 0x7F800000#32
  let main_v1 : FVec F S524288x2 .f32 := broadcastInDim S524288x2 ![] bcast_S_S524288x2 main_cst
  let main_v2 : IVec S524288x2 1 := cmpf .olt main_v0 main_v1
  let main_c : IVec S_ 1 := constantI S_ 1 1#1
  let main_v3 : IVec S_ 1 := (fun x v => Host.reduce IntOp.andi x v reducesTo_S524288x2_S_d0_1 h_S_) main_v2 main_c
  let main_v4 : FVec F S2x64 .f32 := Host.absf main_arg1
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg7 main_arg8 main_arg9 main_arg10 main_arg11 main_v13 main_v16
-- ==== Kernel.lean ====
abbrev S524288x2 : Shape := ⟨2, ![524288, 2]⟩
abbrev S2x64 : Shape := ⟨2, ![2, 64]⟩
abbrev S64 : Shape := ⟨1, ![64]⟩
abbrev S64x16 : Shape := ⟨2, ![64, 16]⟩
abbrev S16 : Shape := ⟨1, ![16]⟩
abbrev S16x4 : Shape := ⟨2, ![16, 4]⟩
abbrev S4 : Shape := ⟨1, ![4]⟩
abbrev S2x4 : Shape := ⟨2, ![2, 4]⟩
abbrev S4x32 : Shape := ⟨2, ![4, 32]⟩
abbrev S32 : Shape := ⟨1, ![32]⟩
abbrev S32x4 : Shape := ⟨2, ![32, 4]⟩
abbrev S2x524288 : Shape := ⟨2, ![2, 524288]⟩
abbrev S64x2 : Shape := ⟨2, ![64, 2]⟩
abbrev S64x1 : Shape := ⟨2, ![64, 1]⟩
abbrev S16x64 : Shape := ⟨2, ![16, 64]⟩
abbrev S16x1 : Shape := ⟨2, ![16, 1]⟩
abbrev S4x16 : Shape := ⟨2, ![4, 16]⟩
abbrev S4x1 : Shape := ⟨2, ![4, 1]⟩
abbrev S_ : Shape := ⟨0, ![]⟩
abbrev S32x1 : Shape := ⟨2, ![32, 1]⟩
abbrev S4x524288 : Shape := ⟨2, ![4, 524288]⟩
abbrev S2x8192 : Shape := ⟨2, ![2, 8192]⟩
abbrev S4x8192 : Shape := ⟨2, ![4, 8192]⟩
abbrev S64x8192 : Shape := ⟨2, ![64, 8192]⟩
abbrev S16x8192 : Shape := ⟨2, ![16, 8192]⟩
abbrev S4x1024 : Shape := ⟨2, ![4, 1024]⟩
abbrev S1024 : Shape := ⟨1, ![1024]⟩
abbrev S1x1024 : Shape := ⟨2, ![1, 1024]⟩
abbrev S1x1 : Shape := ⟨2, ![1, 1]⟩
abbrev S32x8192 : Shape := ⟨2, ![32, 8192]⟩
abbrev S524288x4 : Shape := ⟨2, ![524288, 4]⟩

abbrev nBuf : Space → Nat
  | .hbm => 33
  | .vmem => 18
  | .smem => 0
  | _ => 0

abbrev bufTy : (tb : Table) → Fin (tcTables nBuf tb) → BufTy
  | .hbm, ⟨0, _⟩ => ⟨S524288x2, .f32⟩
  | .hbm, ⟨1, _⟩ => ⟨S2x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x4, .f32⟩
  | .hbm, ⟨6, _⟩ => ⟨S4, .f32⟩
  | .hbm, ⟨7, _⟩ => ⟨S2x4, .f32⟩
  | .hbm, ⟨8, _⟩ => ⟨S4x32, .f32⟩
  | .hbm, ⟨9, _⟩ => ⟨S32, .f32⟩
  | .hbm, ⟨10, _⟩ => ⟨S32x4, .f32⟩
  | .hbm, ⟨11, _⟩ => ⟨S4, .f32⟩
  | .hbm, ⟨12, _⟩ => ⟨S2x524288, .f32⟩
  | .hbm, ⟨13, _⟩ => ⟨S64x2, .f32⟩
  | .hbm, ⟨14, _⟩ => ⟨S64x1, .f32⟩
  | .hbm, ⟨15, _⟩ => ⟨S16x64, .f32⟩
  | .hbm, ⟨16, _⟩ => ⟨S16x1, .f32⟩
  | .hbm, ⟨17, _⟩ => ⟨S4x16, .f32⟩
  | .hbm, ⟨18, _⟩ => ⟨S4x1, .f32⟩
  | .hbm, ⟨19, _⟩ => ⟨S_, .f32⟩
  | .hbm, ⟨20, _⟩ => ⟨S2x4, .f32⟩
  | .hbm, ⟨21, _⟩ => ⟨S2x4, .f32⟩
  | .hbm, ⟨22, _⟩ => ⟨S2x4, .f32⟩
  | .hbm, ⟨23, _⟩ => ⟨S_, .f32⟩
  | .hbm, ⟨24, _⟩ => ⟨S2x4, .f32⟩
  | .hbm, ⟨25, _⟩ => ⟨S2x4, .f32⟩
  | .hbm, ⟨26, _⟩ => ⟨S2x4, .f32⟩
  | .hbm, ⟨27, _⟩ => ⟨S32x4, .f32⟩
  | .hbm, ⟨28, _⟩ => ⟨S32x1, .f32⟩
  | .hbm, ⟨29, _⟩ => ⟨S4x32, .f32⟩
  | .hbm, ⟨30, _⟩ => ⟨S4x1, .f32⟩
  | .hbm, ⟨31, _⟩ => ⟨S4x524288, .f32⟩
  | .hbm, ⟨32, _⟩ => ⟨S524288x4, .f32⟩
  | .local _ .vmem, ⟨0, _⟩ => ⟨S2x8192, .f32⟩
  | .local _ .vmem, ⟨1, _⟩ => ⟨S2x8192, .f32⟩
  | .local _ .vmem, ⟨2, _⟩ => ⟨S64x2, .f32⟩
  | .local _ .vmem, ⟨3, _⟩ => ⟨S64x1, .f32⟩
  | .local _ .vmem, ⟨4, _⟩ => ⟨S16x64, .f32⟩
  | .local _ .vmem, ⟨5, _⟩ => ⟨S16x1, .f32⟩
  | .local _ .vmem, ⟨6, _⟩ => ⟨S4x16, .f32⟩
  | .local _ .vmem, ⟨7, _⟩ => ⟨S4x1, .f32⟩
  | .local _ .vmem, ⟨8, _⟩ => ⟨S2x4, .f32⟩
  | .local _ .vmem, ⟨9, _⟩ => ⟨S2x4, .f32⟩
  | .local _ .vmem, ⟨10, _⟩ => ⟨S32x4, .f32⟩
  | .local _ .vmem, ⟨11, _⟩ => ⟨S32x1, .f32⟩
  | .local _ .vmem, ⟨12, _⟩ => ⟨S4x32, .f32⟩
  | .local _ .vmem, ⟨13, _⟩ => ⟨S4x1, .f32⟩
  | .local _ .vmem, ⟨14, _⟩ => ⟨S4x8192, .f32⟩
  | .local _ .vmem, ⟨15, _⟩ => ⟨S4x8192, .f32⟩
  | .local _ .vmem, ⟨16, _⟩ => ⟨S4x8192, .f32⟩
  | .local _ .vmem, ⟨17, _⟩ => ⟨S4x8192, .f32⟩
  | _, _ => ⟨S524288x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v46 : BitVec 32 := Scalar.addi c0_i32 c8_i32
  let c1_i32 : BitVec 32 := 1#32
  ⟨c0_i32, v46, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c1024_i32 : BitVec 32 := 1024#32
  let v60 : BitVec 32 := Scalar.muli arg17 c1024_i32
  v60
def k0_off1 (k0_t1 : Fin k0_t1_loop.trips) : Fin 2 → Nat :=
  let c0_36 : Index := 0#32
  let c0_i32 : BitVec 32 := 0#32
  let c1_i32 : BitVec 32 := 1#32
  let arg17 : BitVec 32 := Scf.iv c0_i32 c1_i32 k0_t1
  let c1024_i32 : BitVec 32 := 1024#32
  let v60 : BitVec 32 := Scalar.muli arg17 c1024_i32
  let v61 : BitVec 32 := v60
  let v62 : Index := Scalar.indexCast v61
  ![0, v62.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x8192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S524288x2_S2x524288_1_0 : S524288x2.Transposes [1, 0] S2x524288
  transposes_S2x64_S64x2_1_0 : S2x64.Transposes [1, 0] S64x2
  shapeCasts_S64_S64x1 : S64.ShapeCasts S64x1
  transposes_S64x16_S16x64_1_0 : S64x16.Transposes [1, 0] S16x64
  shapeCasts_S16_S16x1 : S16.ShapeCasts S16x1
  transposes_S16x4_S4x16_1_0 : S16x4.Transposes [1, 0] S4x16
  shapeCasts_S4_S4x1 : S4.ShapeCasts S4x1
  bcast_S_S2x4 : S_.BroadcastsInDim S2x4 (![] : Fin 0 → Fin S2x4.rank)
  transposes_S4x32_S32x4_1_0 : S4x32.Transposes [1, 0] S32x4
  shapeCasts_S32_S32x1 : S32.ShapeCasts S32x1
  transposes_S32x4_S4x32_1_0 : S32x4.Transposes [1, 0] S4x32
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S4x16_S4x16_0_0 : ∀ a, (![0, 0] : Fin 2 → Nat) a + S4x16.size a ≤ S4x16.size a
  h_S4x16 : 0 < S4x16.numel
  shapeCasts_S4x16_S4x16 : S4x16.ShapeCasts S4x16
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S2x4_S2x4_0_0 : ∀ a, (![0, 0] : Fin 2 → Nat) a + S2x4.size a ≤ S2x4.size a
  h_S2x4 : 0 < S2x4.numel
  shapeCasts_S2x4_S2x4 : S2x4.ShapeCasts S2x4
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S4x32_S4x32_0_0 : ∀ a, (![0, 0] : Fin 2 → Nat) a + S4x32.size a ≤ S4x32.size a
  h_S4x32 : 0 < S4x32.numel
  shapeCasts_S4x32_S4x32 : S4x32.ShapeCasts S4x32
  bitsLt_bf16_f32 : FTy.bits .bf16 < FTy.bits .f32
  broadcasts_S64x1_S64x8192 : S64x1.Broadcasts S64x8192
  broadcasts_S16x1_S16x8192 : S16x1.Broadcasts S16x8192
  broadcasts_S4x1_S4x8192 : S4x1.Broadcasts S4x8192
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  h_S4x1024 : 0 < S4x1024.numel
  slices_S4x1024_o0_0_S1x1024 : S4x1024.Slices ![0, 0] S1x1024
  shapeCasts_S1x1024_S1024 : S1x1024.ShapeCasts S1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  slices_S2x4_o0_0_S1x1 : S2x4.Slices ![0, 0] S1x1
  inpos_S1x1_p0_0 : ∀ a, (![0, 0] : Fin 2 → Nat) a < S1x1.size a
  slices_S2x4_o0_1_S1x1 : S2x4.Slices ![0, 1] S1x1
  slices_S2x4_o0_2_S1x1 : S2x4.Slices ![0, 2] S1x1
  slices_S2x4_o0_3_S1x1 : S2x4.Slices ![0, 3] S1x1
  slices_S2x4_o1_0_S1x1 : S2x4.Slices ![1, 0] S1x1
  slices_S2x4_o1_1_S1x1 : S2x4.Slices ![1, 1] S1x1
  slices_S2x4_o1_2_S1x1 : S2x4.Slices ![1, 2] S1x1
  slices_S2x4_o1_3_S1x1 : S2x4.Slices ![1, 3] S1x1
  shapeCasts_S1024_S1x1024 : S1024.ShapeCasts S1x1024
  concatenates_S1x1024_S1x1024_S1x1024_S1x1024_S4x1024_d0 : Shape.Concatenates [S1x1024, S1x1024, S1x1024, S1x1024] S4x1024 0
  shapeCasts_S4x1024_S4x1024 : S4x1024.ShapeCasts S4x1024
  broadcasts_S32x1_S32x8192 : S32x1.Broadcasts S32x8192
  transposes_S4x524288_S524288x4_1_0 : S4x524288.Transposes [1, 0] S524288x4
  dot_S64x2_S2x8192_S64x8192_1_0_0_1_n_n_wf : DotDims.WF S64x2 S2x8192 S64x8192 [1] [0] [0] [1] [] []
  dot_S16x64_S64x8192_S16x8192_1_0_0_1_n_n_wf : DotDims.WF S16x64 S64x8192 S16x8192 [1] [0] [0] [1] [] []
  dot_S4x16_S16x8192_S4x8192_1_0_0_1_n_n_wf : DotDims.WF S4x16 S16x8192 S4x8192 [1] [0] [0] [1] [] []
  dot_S32x4_S4x8192_S32x8192_1_0_0_1_n_n_wf : DotDims.WF S32x4 S4x8192 S32x8192 [1] [0] [0] [1] [] []
  dot_S4x32_S32x8192_S4x8192_1_0_0_1_n_n_wf : DotDims.WF S4x32 S32x8192 S4x8192 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S4x1024.size a ≤ S4x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192.size a ≤ S2x524288.size a
  hwx0_0 : ∀ i : grid0.Coords, EltTy.bits .f32 = 32 ∨ (Rect.block (s := S2x524288) S2x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2.size a ≤ S64x2.size a
  hwx0_1 : ∀ i : grid0.Coords, EltTy.bits .f32 = 32 ∨ (Rect.block (s := S64x2) S64x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x16.size a ≤ S4x16.size a
  hwx0_5 : ∀ i : grid0.Coords, EltTy.bits .f32 = 32 ∨ (Rect.block (s := S4x16) S4x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1.size a ≤ S4x1.size a
  hwx0_6 : ∀ i : grid0.Coords, EltTy.bits .f32 = 32 ∨ (Rect.block (s := S4x1) S4x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x4.size a ≤ S2x4.size a
  hwx0_7 : ∀ i : grid0.Coords, EltTy.bits .f32 = 32 ∨ (Rect.block (s := S2x4) S2x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x4.size a ≤ S2x4.size a
  hwx0_8 : ∀ i : grid0.Coords, EltTy.bits .f32 = 32 ∨ (Rect.block (s := S2x4) S2x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x4.size a ≤ S32x4.size a
  hwx0_9 : ∀ i : grid0.Coords, EltTy.bits .f32 = 32 ∨ (Rect.block (s := S32x4) S32x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1.size a ≤ S32x1.size a
  hwx0_10 : ∀ i : grid0.Coords, EltTy.bits .f32 = 32 ∨ (Rect.block (s := S32x1) S32x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x32.size a ≤ S4x32.size a
  hwx0_11 : ∀ i : grid0.Coords, EltTy.bits .f32 = 32 ∨ (Rect.block (s := S4x32) S4x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x1.size a ≤ S4x1.size a
  hwx0_12 : ∀ i : grid0.Coords, EltTy.bits .f32 = 32 ∨ (Rect.block (s := S4x1) S4x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x8192.size a ≤ S4x524288.size a
  hwx0_13 : ∀ i : grid0.Coords, EltTy.bits .f32 = 32 ∨ (Rect.block (s := S4x524288) S4x8192.size (cc0_transform_13 i) (hinb0_13 i)).WholeWords (EltTy.packing .f32)

variable [Facts₀]

def dot_S64x2_S2x8192_S64x8192_1_0_0_1_n_n : DotDims S64x2 S2x8192 S64x8192 where
  lhsContracting := [1]
  rhsContracting := [0]
  lhsNonContracting := [0]
  rhsNonContracting := [1]
  lhsBatch := []
  rhsBatch := []
  wf := dot_S64x2_S2x8192_S64x8192_1_0_0_1_n_n_wf
def dot_S16x64_S64x8192_S16x8192_1_0_0_1_n_n : DotDims S16x64 S64x8192 S16x8192 where
  lhsContracting := [1]
  rhsContracting := [0]
  lhsNonContracting := [0]
  rhsNonContracting := [1]
  lhsBatch := []
  rhsBatch := []
  wf := dot_S16x64_S64x8192_S16x8192_1_0_0_1_n_n_wf
def dot_S4x16_S16x8192_S4x8192_1_0_0_1_n_n : DotDims S4x16 S16x8192 S4x8192 where
  lhsContracting := [1]
  rhsContracting := [0]
  lhsNonContracting := [0]
  rhsNonContracting := [1]
  lhsBatch := []
  rhsBatch := []
  wf := dot_S4x16_S16x8192_S4x8192_1_0_0_1_n_n_wf
def dot_S32x4_S4x8192_S32x8192_1_0_0_1_n_n : DotDims S32x4 S4x8192 S32x8192 where
  lhsContracting := [1]
  rhsContracting := [0]
  lhsNonContracting := [0]
  rhsNonContracting := [1]
  lhsBatch := []
  rhsBatch := []
  wf := dot_S32x4_S4x8192_S32x8192_1_0_0_1_n_n_wf
def dot_S4x32_S32x8192_S4x8192_1_0_0_1_n_n : DotDims S4x32 S32x8192 S4x8192 where
  lhsContracting := [1]
  rhsContracting := [0]
  lhsNonContracting := [0]
  rhsNonContracting := [1]
  lhsBatch := []
  rhsBatch := []
  wf := dot_S4x32_S32x8192_S4x8192_1_0_0_1_n_n_wf

abbrev win0_0 : Pipeline.Window sig grid0 :=
  Pipeline.Window.ofSpec (Memref.whole main_v0) S2x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S4x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S2x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S32x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S32x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S4x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S4x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S4x8192.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S524288x2 : Shape := ⟨2, ![524288, 2]⟩
abbrev S2x64 : Shape := ⟨2, ![2, 64]⟩
abbrev S64 : Shape := ⟨1, ![64]⟩
abbrev S64x16 : Shape := ⟨2, ![64, 16]⟩
abbrev S16 : Shape := ⟨1, ![16]⟩
abbrev S16x4 : Shape := ⟨2, ![16, 4]⟩
abbrev S4 : Shape := ⟨1, ![4]⟩
abbrev S2x4 : Shape := ⟨2, ![2, 4]⟩
abbrev S4x32 : Shape := ⟨2, ![4, 32]⟩
abbrev S32 : Shape := ⟨1, ![32]⟩
abbrev S32x4 : Shape := ⟨2, ![32, 4]⟩
abbrev S524288x64 : Shape := ⟨2, ![524288, 64]⟩
abbrev S1x64 : Shape := ⟨2, ![1, 64]⟩
abbrev S524288x16 : Shape := ⟨2, ![524288, 16]⟩
abbrev S1x16 : Shape := ⟨2, ![1, 16]⟩
abbrev S524288x4 : Shape := ⟨2, ![524288, 4]⟩
abbrev S1x4 : Shape := ⟨2, ![1, 4]⟩
abbrev S_ : Shape := ⟨0, ![]⟩
abbrev S1 : Shape := ⟨1, ![1]⟩
abbrev S524288 : Shape := ⟨1, ![524288]⟩
abbrev S524288x2x2x2x2 : Shape := ⟨5, ![524288, 2, 2, 2, 2]⟩
abbrev S524288x1 : Shape := ⟨2, ![524288, 1]⟩
abbrev S524288x1x1x1 : Shape := ⟨4, ![524288, 1, 1, 1]⟩
abbrev S524288x2x2x2x1 : Shape := ⟨5, ![524288, 2, 2, 2, 1]⟩
abbrev S524288x2x2x2 : Shape := ⟨4, ![524288, 2, 2, 2]⟩
abbrev S1x1 : Shape := ⟨2, ![1, 1]⟩
abbrev S524288x2x2x1x2 : Shape := ⟨5, ![524288, 2, 2, 1, 2]⟩
abbrev S524288x32 : Shape := ⟨2, ![524288, 32]⟩
abbrev S1x32 : Shape := ⟨2, ![1, 32]⟩

abbrev nBuf : Space → Nat
  | .hbm => 503
  | .vmem => 0
  | .smem => 0
  | _ => 0

abbrev hbmTy0_0 (i : Nat) : BufTy := match i % 128 with
  | 0 => ⟨S524288x2, .f32⟩
  | 1 => ⟨S2x64, .f32⟩
  | 2 => ⟨S64, .f32⟩
  | 3 => ⟨S64x16, .f32⟩
  | 4 => ⟨S16, .f32⟩
  | 5 => ⟨S16x4, .f32⟩
  | 6 => ⟨S4, .f32⟩
  | 7 => ⟨S2x4, .f32⟩
  | 8 => ⟨S4x32, .f32⟩
  | 9 => ⟨S32, .f32⟩
  | 10 => ⟨S32x4, .f32⟩
  | 11 => ⟨S4, .f32⟩
  | 12 => ⟨S524288x64, .f32⟩
  | 13 => ⟨S1x64, .f32⟩
  | 14 => ⟨S524288x64, .f32⟩
  | 15 => ⟨S524288x64, .f32⟩
  | 16 => ⟨S524288x64, .f32⟩
  | 17 => ⟨S524288x16, .f32⟩
  | 18 => ⟨S1x16, .f32⟩
  | 19 => ⟨S524288x16, .f32⟩
  | 20 => ⟨S524288x16, .f32⟩
  | 21 => ⟨S524288x16, .f32⟩
  | 22 => ⟨S524288x4, .f32⟩
  | 23 => ⟨S1x4, .f32⟩
  | 24 => ⟨S524288x4, .f32⟩
  | 25 => ⟨S524288x4, .f32⟩
  | 26 => ⟨S_, .f32⟩
  | 27 => ⟨S524288x16, .f32⟩
  | 28 => ⟨S_, .i32⟩
  | 29 => ⟨S1, .i32⟩
  | 30 => ⟨S_, .f32⟩
  | 31 => ⟨S524288, .f32⟩
  | 32 => ⟨S524288x16, .f32⟩
  | 33 => ⟨S524288x2x2x2x2, .f32⟩
  | 34 => ⟨S524288x1, .f32⟩
  | 35 => ⟨S524288, .f32⟩
  | 36 => ⟨S_, .f32⟩
  | 37 => ⟨S524288, .f32⟩
  | 38 => ⟨S524288, .f32⟩
  | 39 => ⟨S524288, .f32⟩
  | 40 => ⟨S_, .f32⟩
  | 41 => ⟨S524288, .f32⟩
  | 42 => ⟨S524288, .f32⟩
  | 43 => ⟨S524288, .f32⟩
  | 44 => ⟨S524288x1x1x1, .f32⟩
  | 45 => ⟨S524288x1x1x1, .f32⟩
  | 46 => ⟨S524288x2x2x2x2, .f32⟩
  | 47 => ⟨S524288x2x2x2x1, .f32⟩
  | 48 => ⟨S524288x2x2x2, .f32⟩
  | 49 => ⟨S524288x2x2x2, .f32⟩
  | 50 => ⟨S524288x2x2x2, .f32⟩
  | 51 => ⟨S524288x2x2x2x1, .f32⟩
  | 52 => ⟨S524288x2x2x2, .f32⟩
  | 53 => ⟨S524288x2x2x2, .f32⟩
  | 54 => ⟨S524288x2x2x2, .f32⟩
  | 55 => ⟨S524288x2x2x2, .f32⟩
  | 56 => ⟨S524288x2x2x2x1, .f32⟩
  | 57 => ⟨S524288x2x2x2, .f32⟩
  | 58 => ⟨S524288x2x2x2, .f32⟩
  | 59 => ⟨S524288x2x2x2, .f32⟩
  | 60 => ⟨S524288x2x2x2x1, .f32⟩
  | 61 => ⟨S524288x2x2x2, .f32⟩
  | 62 => ⟨S524288x2x2x2, .f32⟩
  | 63 => ⟨S524288x2x2x2, .f32⟩
  | 64 => ⟨S524288x2x2x2, .f32⟩
  | 65 => ⟨S524288x2x2x2x1, .f32⟩
  | 66 => ⟨S524288x2x2x2x1, .f32⟩
  | 67 => ⟨S524288x2x2x2x2, .f32⟩
  | 68 => ⟨S524288x2x2x2x2, .f32⟩
  | 69 => ⟨S524288x1, .f32⟩
  | 70 => ⟨S524288, .f32⟩
  | 71 => ⟨S_, .f32⟩
  | 72 => ⟨S524288, .f32⟩
  | 73 => ⟨S524288, .f32⟩
  | 74 => ⟨S524288, .f32⟩
  | 75 => ⟨S_, .f32⟩
  | 76 => ⟨S524288, .f32⟩
  | 77 => ⟨S524288, .f32⟩
  | 78 => ⟨S524288, .f32⟩
  | 79 => ⟨S524288x1x1x1, .f32⟩
  | 80 => ⟨S524288x1x1x1, .f32⟩
  | 81 => ⟨S524288x2x2x2x2, .f32⟩
  | 82 => ⟨S524288x2x2x2x1, .f32⟩
  | 83 => ⟨S524288x2x2x2, .f32⟩
  | 84 => ⟨S524288x2x2x2, .f32⟩
  | 85 => ⟨S524288x2x2x2, .f32⟩
  | 86 => ⟨S524288x2x2x2x1, .f32⟩
  | 87 => ⟨S524288x2x2x2, .f32⟩
  | 88 => ⟨S524288x2x2x2, .f32⟩
  | 89 => ⟨S524288x2x2x2, .f32⟩
  | 90 => ⟨S524288x2x2x2, .f32⟩
  | 91 => ⟨S524288x2x2x2x1, .f32⟩
  | 92 => ⟨S524288x2x2x2, .f32⟩
  | 93 => ⟨S524288x2x2x2, .f32⟩
  | 94 => ⟨S524288x2x2x2, .f32⟩
  | 95 => ⟨S524288x2x2x2x1, .f32⟩
  | 96 => ⟨S524288x2x2x2, .f32⟩
  | 97 => ⟨S524288x2x2x2, .f32⟩
  | 98 => ⟨S524288x2x2x2, .f32⟩
  | 99 => ⟨S524288x2x2x2, .f32⟩
  | 100 => ⟨S524288x2x2x2x1, .f32⟩
  | 101 => ⟨S524288x2x2x2x1, .f32⟩
  | 102 => ⟨S524288x2x2x2x2, .f32⟩
  | 103 => ⟨S524288x2x2x2x2, .f32⟩
  | 104 => ⟨S524288x1, .f32⟩
  | 105 => ⟨S524288, .f32⟩
  | 106 => ⟨S_, .f32⟩
  | 107 => ⟨S524288, .f32⟩
  | 108 => ⟨S524288, .f32⟩
  | 109 => ⟨S524288, .f32⟩
  | 110 => ⟨S_, .f32⟩
  | 111 => ⟨S524288, .f32⟩
  | 112 => ⟨S524288, .f32⟩
  | 113 => ⟨S524288, .f32⟩
  | 114 => ⟨S524288x1x1x1, .f32⟩
  | 115 => ⟨S524288x1x1x1, .f32⟩
  | 116 => ⟨S524288x2x2x2x2, .f32⟩
  | 117 => ⟨S524288x2x2x2x1, .f32⟩
  | 118 => ⟨S524288x2x2x2, .f32⟩
  | 119 => ⟨S524288x2x2x2, .f32⟩
  | 120 => ⟨S524288x2x2x2, .f32⟩
  | 121 => ⟨S524288x2x2x2x1, .f32⟩
  | 122 => ⟨S524288x2x2x2, .f32⟩
  | 123 => ⟨S524288x2x2x2, .f32⟩
  | 124 => ⟨S524288x2x2x2, .f32⟩
  | 125 => ⟨S524288x2x2x2, .f32⟩
  | 126 => ⟨S524288x2x2x2x1, .f32⟩
  | 127 => ⟨S524288x2x2x2, .f32⟩
  | _ => ⟨S524288x2, .f32⟩

abbrev hbmTy0_1 (i : Nat) : BufTy := match i % 128 with
  | 0 => ⟨S524288x2x2x2, .f32⟩
  | 1 => ⟨S524288x2x2x2, .f32⟩
  | 2 => ⟨S524288x2x2x2x1, .f32⟩
  | 3 => ⟨S524288x2x2x2, .f32⟩
  | 4 => ⟨S524288x2x2x2, .f32⟩
  | 5 => ⟨S524288x2x2x2, .f32⟩
  | 6 => ⟨S524288x2x2x2, .f32⟩
  | 7 => ⟨S524288x2x2x2x1, .f32⟩
  | 8 => ⟨S524288x2x2x2x1, .f32⟩
  | 9 => ⟨S524288x2x2x2x2, .f32⟩
  | 10 => ⟨S524288x2x2x2x2, .f32⟩
  | 11 => ⟨S524288x1, .f32⟩
  | 12 => ⟨S524288, .f32⟩
  | 13 => ⟨S_, .f32⟩
  | 14 => ⟨S524288, .f32⟩
  | 15 => ⟨S524288, .f32⟩
  | 16 => ⟨S524288, .f32⟩
  | 17 => ⟨S_, .f32⟩
  | 18 => ⟨S524288, .f32⟩
  | 19 => ⟨S524288, .f32⟩
  | 20 => ⟨S524288, .f32⟩
  | 21 => ⟨S524288x1x1x1, .f32⟩
  | 22 => ⟨S524288x1x1x1, .f32⟩
  | 23 => ⟨S524288x2x2x2x1, .f32⟩
  | 24 => ⟨S524288x2x2x2, .f32⟩
  | 25 => ⟨S524288x2x2x2, .f32⟩
  | 26 => ⟨S524288x2x2x2, .f32⟩
  | 27 => ⟨S524288x2x2x2x1, .f32⟩
  | 28 => ⟨S524288x2x2x2, .f32⟩
  | 29 => ⟨S524288x2x2x2, .f32⟩
  | 30 => ⟨S524288x2x2x2, .f32⟩
  | 31 => ⟨S524288x2x2x2, .f32⟩
  | 32 => ⟨S524288x2x2x2x1, .f32⟩
  | 33 => ⟨S524288x2x2x2, .f32⟩
  | 34 => ⟨S524288x2x2x2, .f32⟩
  | 35 => ⟨S524288x2x2x2, .f32⟩
  | 36 => ⟨S524288x2x2x2x1, .f32⟩
  | 37 => ⟨S524288x2x2x2, .f32⟩
  | 38 => ⟨S524288x2x2x2, .f32⟩
  | 39 => ⟨S524288x2x2x2, .f32⟩
  | 40 => ⟨S524288x2x2x2, .f32⟩
  | 41 => ⟨S524288x2x2x2x1, .f32⟩
  | 42 => ⟨S524288x2x2x2x1, .f32⟩
  | 43 => ⟨S524288x2x2x2x2, .f32⟩
  | 44 => ⟨S1x1, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S524288x2x2x2x2, .f32⟩
  | 53 => ⟨S524288x2x2x2x1, .f32⟩
  | 54 => ⟨S524288x2x2x2, .f32⟩
  | 55 => ⟨S524288x2x2x2, .f32⟩
  | 56 => ⟨S524288x2x2x2, .f32⟩
  | 57 => ⟨S524288x2x2x2x1, .f32⟩
  | 58 => ⟨S524288x2x2x2, .f32⟩
  | 59 => ⟨S524288x2x2x2, .f32⟩
  | 60 => ⟨S524288x2x2x2, .f32⟩
  | 61 => ⟨S524288x2x2x2, .f32⟩
  | 62 => ⟨S524288x2x2x2x1, .f32⟩
  | 63 => ⟨S524288x2x2x2, .f32⟩
  | 64 => ⟨S524288x2x2x2, .f32⟩
  | 65 => ⟨S524288x2x2x2, .f32⟩
  | 66 => ⟨S524288x2x2x2x1, .f32⟩
  | 67 => ⟨S524288x2x2x2, .f32⟩
  | 68 => ⟨S524288x2x2x2, .f32⟩
  | 69 => ⟨S524288x2x2x2, .f32⟩
  | 70 => ⟨S524288x2x2x2, .f32⟩
  | 71 => ⟨S524288x2x2x2x1, .f32⟩
  | 72 => ⟨S524288x2x2x2x1, .f32⟩
  | 73 => ⟨S524288x2x2x2x2, .f32⟩
  | 74 => ⟨S524288x2x2x2x2, .f32⟩
  | 75 => ⟨S1x1, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S524288x2x2x2x2, .f32⟩
  | 84 => ⟨S524288x2x2x2x1, .f32⟩
  | 85 => ⟨S524288x2x2x2, .f32⟩
  | 86 => ⟨S524288x2x2x2, .f32⟩
  | 87 => ⟨S524288x2x2x2, .f32⟩
  | 88 => ⟨S524288x2x2x2x1, .f32⟩
  | 89 => ⟨S524288x2x2x2, .f32⟩
  | 90 => ⟨S524288x2x2x2, .f32⟩
  | 91 => ⟨S524288x2x2x2, .f32⟩
  | 92 => ⟨S524288x2x2x2, .f32⟩
  | 93 => ⟨S524288x2x2x2x1, .f32⟩
  | 94 => ⟨S524288x2x2x2, .f32⟩
  | 95 => ⟨S524288x2x2x2, .f32⟩
  | 96 => ⟨S524288x2x2x2, .f32⟩
  | 97 => ⟨S524288x2x2x2x1, .f32⟩
  | 98 => ⟨S524288x2x2x2, .f32⟩
  | 99 => ⟨S524288x2x2x2, .f32⟩
  | 100 => ⟨S524288x2x2x2, .f32⟩
  | 101 => ⟨S524288x2x2x2, .f32⟩
  | 102 => ⟨S524288x2x2x2x1, .f32⟩
  | 103 => ⟨S524288x2x2x2x1, .f32⟩
  | 104 => ⟨S524288x2x2x2x2, .f32⟩
  | 105 => ⟨S524288x2x2x2x2, .f32⟩
  | 106 => ⟨S1x1, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S524288x2x2x2x2, .f32⟩
  | 115 => ⟨S524288x2x2x2x1, .f32⟩
  | 116 => ⟨S524288x2x2x2, .f32⟩
  | 117 => ⟨S524288x2x2x2, .f32⟩
  | 118 => ⟨S524288x2x2x2, .f32⟩
  | 119 => ⟨S524288x2x2x2x1, .f32⟩
  | 120 => ⟨S524288x2x2x2, .f32⟩
  | 121 => ⟨S524288x2x2x2, .f32⟩
  | 122 => ⟨S524288x2x2x2, .f32⟩
  | 123 => ⟨S524288x2x2x2, .f32⟩
  | 124 => ⟨S524288x2x2x2x1, .f32⟩
  | 125 => ⟨S524288x2x2x2, .f32⟩
  | 126 => ⟨S524288x2x2x2, .f32⟩
  | 127 => ⟨S524288x2x2x2, .f32⟩
  | _ => ⟨S524288x2, .f32⟩

abbrev hbmTy0_2 (i : Nat) : BufTy := match i % 128 with
  | 0 => ⟨S524288x2x2x2x1, .f32⟩
  | 1 => ⟨S524288x2x2x2, .f32⟩
  | 2 => ⟨S524288x2x2x2, .f32⟩
  | 3 => ⟨S524288x2x2x2, .f32⟩
  | 4 => ⟨S524288x2x2x2, .f32⟩
  | 5 => ⟨S524288x2x2x2x1, .f32⟩
  | 6 => ⟨S524288x2x2x2x1, .f32⟩
  | 7 => ⟨S524288x2x2x2x2, .f32⟩
  | 8 => ⟨S524288x2x2x2x2, .f32⟩
  | 9 => ⟨S1x1, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S524288x2x2x2x1, .f32⟩
  | 18 => ⟨S524288x2x2x2, .f32⟩
  | 19 => ⟨S524288x2x2x2, .f32⟩
  | 20 => ⟨S524288x2x2x2, .f32⟩
  | 21 => ⟨S524288x2x2x2x1, .f32⟩
  | 22 => ⟨S524288x2x2x2, .f32⟩
  | 23 => ⟨S524288x2x2x2, .f32⟩
  | 24 => ⟨S524288x2x2x2, .f32⟩
  | 25 => ⟨S524288x2x2x2, .f32⟩
  | 26 => ⟨S524288x2x2x2x1, .f32⟩
  | 27 => ⟨S524288x2x2x2, .f32⟩
  | 28 => ⟨S524288x2x2x2, .f32⟩
  | 29 => ⟨S524288x2x2x2, .f32⟩
  | 30 => ⟨S524288x2x2x2x1, .f32⟩
  | 31 => ⟨S524288x2x2x2, .f32⟩
  | 32 => ⟨S524288x2x2x2, .f32⟩
  | 33 => ⟨S524288x2x2x2, .f32⟩
  | 34 => ⟨S524288x2x2x2, .f32⟩
  | 35 => ⟨S524288x2x2x2x1, .f32⟩
  | 36 => ⟨S524288x2x2x2x1, .f32⟩
  | 37 => ⟨S524288x2x2x2x2, .f32⟩
  | 38 => ⟨S524288x2x2x2x2, .f32⟩
  | 39 => ⟨S524288x2x2x1x2, .f32⟩
  | 40 => ⟨S524288x2x2x1x2, .f32⟩
  | 41 => ⟨S524288x2x2x1x2, .f32⟩
  | 42 => ⟨S524288x2x2x2x2, .f32⟩
  | 43 => ⟨S524288x2x2x2x2, .f32⟩
  | 44 => ⟨S524288x2x2x2x2, .f32⟩
  | 45 => ⟨S524288x2x2x1x2, .f32⟩
  | 46 => ⟨S524288x2x2x1x2, .f32⟩
  | 47 => ⟨S524288x2x2x1x2, .f32⟩
  | 48 => ⟨S524288x2x2x2x2, .f32⟩
  | 49 => ⟨S524288x2x2x2x2, .f32⟩
  | 50 => ⟨S524288x2x2x1x2, .f32⟩
  | 51 => ⟨S524288x2x2x1x2, .f32⟩
  | 52 => ⟨S524288x2x2x1x2, .f32⟩
  | 53 => ⟨S524288x2x2x2x2, .f32⟩
  | 54 => ⟨S524288x2x2x2x2, .f32⟩
  | 55 => ⟨S524288x2x2x1x2, .f32⟩
  | 56 => ⟨S524288x2x2x1x2, .f32⟩
  | 57 => ⟨S524288x2x2x1x2, .f32⟩
  | 58 => ⟨S524288x2x2x2x2, .f32⟩
  | 59 => ⟨S524288x2x2x2x2, .f32⟩
  | 60 => ⟨S1x1, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S524288x2x2x2x2, .f32⟩
  | 69 => ⟨S524288x2x2x2x1, .f32⟩
  | 70 => ⟨S524288x2x2x2, .f32⟩
  | 71 => ⟨S524288x2x2x2, .f32⟩
  | 72 => ⟨S524288x2x2x2, .f32⟩
  | 73 => ⟨S524288x2x2x2x1, .f32⟩
  | 74 => ⟨S524288x2x2x2, .f32⟩
  | 75 => ⟨S524288x2x2x2, .f32⟩
  | 76 => ⟨S524288x2x2x2, .f32⟩
  | 77 => ⟨S524288x2x2x2, .f32⟩
  | 78 => ⟨S524288x2x2x2x1, .f32⟩
  | 79 => ⟨S524288x2x2x2, .f32⟩
  | 80 => ⟨S524288x2x2x2, .f32⟩
  | 81 => ⟨S524288x2x2x2, .f32⟩
  | 82 => ⟨S524288x2x2x2x1, .f32⟩
  | 83 => ⟨S524288x2x2x2, .f32⟩
  | 84 => ⟨S524288x2x2x2, .f32⟩
  | 85 => ⟨S524288x2x2x2, .f32⟩
  | 86 => ⟨S524288x2x2x2, .f32⟩
  | 87 => ⟨S524288x2x2x2x1, .f32⟩
  | 88 => ⟨S524288x2x2x2x1, .f32⟩
  | 89 => ⟨S524288x2x2x2x2, .f32⟩
  | 90 => ⟨S524288x2x2x2x2, .f32⟩
  | 91 => ⟨S1x1, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S524288x2x2x2x2, .f32⟩
  | 100 => ⟨S524288x2x2x2x1, .f32⟩
  | 101 => ⟨S524288x2x2x2, .f32⟩
  | 102 => ⟨S524288x2x2x2, .f32⟩
  | 103 => ⟨S524288x2x2x2, .f32⟩
  | 104 => ⟨S524288x2x2x2x1, .f32⟩
  | 105 => ⟨S524288x2x2x2, .f32⟩
  | 106 => ⟨S524288x2x2x2, .f32⟩
  | 107 => ⟨S524288x2x2x2, .f32⟩
  | 108 => ⟨S524288x2x2x2, .f32⟩
  | 109 => ⟨S524288x2x2x2x1, .f32⟩
  | 110 => ⟨S524288x2x2x2, .f32⟩
  | 111 => ⟨S524288x2x2x2, .f32⟩
  | 112 => ⟨S524288x2x2x2, .f32⟩
  | 113 => ⟨S524288x2x2x2x1, .f32⟩
  | 114 => ⟨S524288x2x2x2, .f32⟩
  | 115 => ⟨S524288x2x2x2, .f32⟩
  | 116 => ⟨S524288x2x2x2, .f32⟩
  | 117 => ⟨S524288x2x2x2, .f32⟩
  | 118 => ⟨S524288x2x2x2x1, .f32⟩
  | 119 => ⟨S524288x2x2x2x1, .f32⟩
  | 120 => ⟨S524288x2x2x2x2, .f32⟩
  | 121 => ⟨S524288x2x2x2x2, .f32⟩
  | 122 => ⟨S1x1, .f32⟩
  | 123 => ⟨S_, .f32⟩
  | 124 => ⟨S_, .f32⟩
  | 125 => ⟨S_, .f32⟩
  | 126 => ⟨S_, .f32⟩
  | 127 => ⟨S_, .f32⟩
  | _ => ⟨S524288x2, .f32⟩

abbrev hbmTy0_3 (i : Nat) : BufTy := match i % 128 with
  | 0 => ⟨S_, .f32⟩
  | 1 => ⟨S_, .f32⟩
  | 2 => ⟨S524288x2x2x2x2, .f32⟩
  | 3 => ⟨S524288x2x2x2x1, .f32⟩
  | 4 => ⟨S524288x2x2x2, .f32⟩
  | 5 => ⟨S524288x2x2x2, .f32⟩
  | 6 => ⟨S524288x2x2x2, .f32⟩
  | 7 => ⟨S524288x2x2x2x1, .f32⟩
  | 8 => ⟨S524288x2x2x2, .f32⟩
  | 9 => ⟨S524288x2x2x2, .f32⟩
  | 10 => ⟨S524288x2x2x2, .f32⟩
  | 11 => ⟨S524288x2x2x2, .f32⟩
  | 12 => ⟨S524288x2x2x2x1, .f32⟩
  | 13 => ⟨S524288x2x2x2, .f32⟩
  | 14 => ⟨S524288x2x2x2, .f32⟩
  | 15 => ⟨S524288x2x2x2, .f32⟩
  | 16 => ⟨S524288x2x2x2x1, .f32⟩
  | 17 => ⟨S524288x2x2x2, .f32⟩
  | 18 => ⟨S524288x2x2x2, .f32⟩
  | 19 => ⟨S524288x2x2x2, .f32⟩
  | 20 => ⟨S524288x2x2x2, .f32⟩
  | 21 => ⟨S524288x2x2x2x1, .f32⟩
  | 22 => ⟨S524288x2x2x2x1, .f32⟩
  | 23 => ⟨S524288x2x2x2x2, .f32⟩
  | 24 => ⟨S524288x2x2x2x2, .f32⟩
  | 25 => ⟨S1x1, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S524288x2x2x2x1, .f32⟩
  | 34 => ⟨S524288x2x2x2, .f32⟩
  | 35 => ⟨S524288x2x2x2, .f32⟩
  | 36 => ⟨S524288x2x2x2, .f32⟩
  | 37 => ⟨S524288x2x2x2x1, .f32⟩
  | 38 => ⟨S524288x2x2x2, .f32⟩
  | 39 => ⟨S524288x2x2x2, .f32⟩
  | 40 => ⟨S524288x2x2x2, .f32⟩
  | 41 => ⟨S524288x2x2x2, .f32⟩
  | 42 => ⟨S524288x2x2x2x1, .f32⟩
  | 43 => ⟨S524288x2x2x2, .f32⟩
  | 44 => ⟨S524288x2x2x2, .f32⟩
  | 45 => ⟨S524288x2x2x2, .f32⟩
  | 46 => ⟨S524288x2x2x2x1, .f32⟩
  | 47 => ⟨S524288x2x2x2, .f32⟩
  | 48 => ⟨S524288x2x2x2, .f32⟩
  | 49 => ⟨S524288x2x2x2, .f32⟩
  | 50 => ⟨S524288x2x2x2, .f32⟩
  | 51 => ⟨S524288x2x2x2x1, .f32⟩
  | 52 => ⟨S524288x2x2x2x1, .f32⟩
  | 53 => ⟨S524288x2x2x2x2, .f32⟩
  | 54 => ⟨S524288x2x2x2x2, .f32⟩
  | 55 => ⟨S524288x2x2x1x2, .f32⟩
  | 56 => ⟨S524288x2x2x1x2, .f32⟩
  | 57 => ⟨S524288x2x2x1x2, .f32⟩
  | 58 => ⟨S524288x2x2x2x2, .f32⟩
  | 59 => ⟨S524288x2x2x2x2, .f32⟩
  | 60 => ⟨S524288x2x2x2x2, .f32⟩
  | 61 => ⟨S524288x2x2x1x2, .f32⟩
  | 62 => ⟨S524288x2x2x1x2, .f32⟩
  | 63 => ⟨S524288x2x2x1x2, .f32⟩
  | 64 => ⟨S524288x2x2x2x2, .f32⟩
  | 65 => ⟨S524288x2x2x2x2, .f32⟩
  | 66 => ⟨S524288x2x2x1x2, .f32⟩
  | 67 => ⟨S524288x2x2x1x2, .f32⟩
  | 68 => ⟨S524288x2x2x1x2, .f32⟩
  | 69 => ⟨S524288x2x2x2x2, .f32⟩
  | 70 => ⟨S524288x2x2x2x2, .f32⟩
  | 71 => ⟨S524288x2x2x1x2, .f32⟩
  | 72 => ⟨S524288x2x2x1x2, .f32⟩
  | 73 => ⟨S524288x2x2x1x2, .f32⟩
  | 74 => ⟨S524288x2x2x2x2, .f32⟩
  | 75 => ⟨S524288x2x2x2x2, .f32⟩
  | 76 => ⟨S524288x2x2x2x2, .f32⟩
  | 77 => ⟨S_, .f32⟩
  | 78 => ⟨S524288x2, .f32⟩
  | 79 => ⟨S524288x1, .f32⟩
  | 80 => ⟨S524288, .f32⟩
  | 81 => ⟨S524288x1, .f32⟩
  | 82 => ⟨S524288, .f32⟩
  | 83 => ⟨S524288, .f32⟩
  | 84 => ⟨S_, .f32⟩
  | 85 => ⟨S524288x2, .f32⟩
  | 86 => ⟨S524288x1, .f32⟩
  | 87 => ⟨S524288, .f32⟩
  | 88 => ⟨S524288x1, .f32⟩
  | 89 => ⟨S524288, .f32⟩
  | 90 => ⟨S524288, .f32⟩
  | 91 => ⟨S_, .f32⟩
  | 92 => ⟨S524288x2, .f32⟩
  | 93 => ⟨S524288x1, .f32⟩
  | 94 => ⟨S524288, .f32⟩
  | 95 => ⟨S524288x1, .f32⟩
  | 96 => ⟨S524288, .f32⟩
  | 97 => ⟨S524288, .f32⟩
  | 98 => ⟨S_, .f32⟩
  | 99 => ⟨S524288x2, .f32⟩
  | 100 => ⟨S524288x1, .f32⟩
  | 101 => ⟨S524288, .f32⟩
  | 102 => ⟨S524288x1, .f32⟩
  | 103 => ⟨S524288, .f32⟩
  | 104 => ⟨S524288, .f32⟩
  | 105 => ⟨S524288x1, .f32⟩
  | 106 => ⟨S524288x1, .f32⟩
  | 107 => ⟨S524288x1, .f32⟩
  | 108 => ⟨S524288x1, .f32⟩
  | 109 => ⟨S524288x4, .f32⟩
  | 110 => ⟨S524288x32, .f32⟩
  | 111 => ⟨S1x32, .f32⟩
  | 112 => ⟨S524288x32, .f32⟩
  | 113 => ⟨S524288x32, .f32⟩
  | 114 => ⟨S524288x32, .f32⟩
  | 115 => ⟨S524288x4, .f32⟩
  | 116 => ⟨S1x4, .f32⟩
  | 117 => ⟨S524288x4, .f32⟩
  | 118 => ⟨S524288x4, .f32⟩
  | _ => ⟨S524288x2, .f32⟩

abbrev hbmTy (i : Nat) : BufTy := match i / 128 with
  | 0 => hbmTy0_0 i
  | 1 => hbmTy0_1 i
  | 2 => hbmTy0_2 i
  | 3 => hbmTy0_3 i
  | _ => ⟨S524288x2, .f32⟩

abbrev bufTy : (tb : Table) → Fin (tcTables nBuf tb) → BufTy
  | .hbm, ⟨i, _⟩ => hbmTy i
  | _, _ => ⟨S524288x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_3 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_4 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_5 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_6 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_7 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_cst_8 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_cst_9 : Ref sig .tc := ⟨.hbm, 174, rfl⟩
abbrev main_v151 : Ref sig .tc := ⟨.hbm, 175, rfl⟩
abbrev main_v152 : Ref sig .tc := ⟨.hbm, 176, rfl⟩
abbrev main_cst_10 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_cst_11 : Ref sig .tc := ⟨.hbm, 205, rfl⟩
abbrev main_v180 : Ref sig .tc := ⟨.hbm, 206, rfl⟩
abbrev main_v181 : Ref sig .tc := ⟨.hbm, 207, rfl⟩
abbrev main_cst_12 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_cst_13 : Ref sig .tc := ⟨.hbm, 236, rfl⟩
abbrev main_v209 : Ref sig .tc := ⟨.hbm, 237, rfl⟩
abbrev main_v210 : Ref sig .tc := ⟨.hbm, 238, rfl⟩
abbrev main_cst_14 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_cst_15 : Ref sig .tc := ⟨.hbm, 267, rfl⟩
abbrev main_v238 : Ref sig .tc := ⟨.hbm, 268, rfl⟩
abbrev main_v239 : Ref sig .tc := ⟨.hbm, 269, rfl⟩
abbrev main_cst_16 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_v286 : Ref sig .tc := ⟨.hbm, 317, rfl⟩
abbrev main_cst_17 : Ref sig .tc := ⟨.hbm, 318, rfl⟩
abbrev main_v287 : Ref sig .tc := ⟨.hbm, 319, rfl⟩
abbrev main_v288 : Ref sig .tc := ⟨.hbm, 320, rfl⟩
abbrev main_cst_18 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_v313 : Ref sig .tc := ⟨.hbm, 346, rfl⟩
abbrev main_v314 : Ref sig .tc := ⟨.hbm, 347, rfl⟩
abbrev main_v315 : Ref sig .tc := ⟨.hbm, 348, rfl⟩
abbrev main_cst_19 : Ref sig .tc := ⟨.hbm, 349, rfl⟩
abbrev main_v316 : Ref sig .tc := ⟨.hbm, 350, rfl⟩
abbrev main_v317 : Ref sig .tc := ⟨.hbm, 351, rfl⟩
abbrev main_cst_20 : Ref sig .tc := ⟨.hbm, 352, rfl⟩
abbrev main_v318 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_v343 : Ref sig .tc := ⟨.hbm, 378, rfl⟩
abbrev main_v344 : Ref sig .tc := ⟨.hbm, 379, rfl⟩
abbrev main_cst_21 : Ref sig .tc := ⟨.hbm, 380, rfl⟩
abbrev main_v345 : Ref sig .tc := ⟨.hbm, 381, rfl⟩
abbrev main_v346 : Ref sig .tc := ⟨.hbm, 382, rfl⟩
abbrev main_cst_22 : Ref sig .tc := ⟨.hbm, 383, rfl⟩
abbrev main_v347 : Ref sig .tc := ⟨.hbm, 384, rfl⟩
abbrev main_v348 : Ref sig .tc := ⟨.hbm, 385, rfl⟩
abbrev main_v349 : Ref sig .tc := ⟨.hbm, 386, rfl⟩
abbrev main_v350 : Ref sig .tc := ⟨.hbm, 387, rfl⟩
abbrev main_v351 : Ref sig .tc := ⟨.hbm, 388, rfl⟩
abbrev main_v352 : Ref sig .tc := ⟨.hbm, 389, rfl⟩
abbrev main_v353 : Ref sig .tc := ⟨.hbm, 390, rfl⟩
abbrev main_v354 : Ref sig .tc := ⟨.hbm, 391, rfl⟩
abbrev main_v355 : Ref sig .tc := ⟨.hbm, 392, rfl⟩
abbrev main_v356 : Ref sig .tc := ⟨.hbm, 393, rfl⟩
abbrev main_v357 : Ref sig .tc := ⟨.hbm, 394, rfl⟩
abbrev main_v358 : Ref sig .tc := ⟨.hbm, 395, rfl⟩
abbrev main_v359 : Ref sig .tc := ⟨.hbm, 396, rfl⟩
abbrev main_v360 : Ref sig .tc := ⟨.hbm, 397, rfl⟩
abbrev main_v361 : Ref sig .tc := ⟨.hbm, 398, rfl⟩
abbrev main_v362 : Ref sig .tc := ⟨.hbm, 399, rfl⟩
abbrev main_v363 : Ref sig .tc := ⟨.hbm, 400, rfl⟩
abbrev main_v364 : Ref sig .tc := ⟨.hbm, 401, rfl⟩
abbrev main_v365 : Ref sig .tc := ⟨.hbm, 402, rfl⟩
abbrev main_v366 : Ref sig .tc := ⟨.hbm, 403, rfl⟩
abbrev main_v367 : Ref sig .tc := ⟨.hbm, 404, rfl⟩
abbrev main_v368 : Ref sig .tc := ⟨.hbm, 405, rfl⟩
abbrev main_v369 : Ref sig .tc := ⟨.hbm, 406, rfl⟩
abbrev main_v370 : Ref sig .tc := ⟨.hbm, 407, rfl⟩
abbrev main_v371 : Ref sig .tc := ⟨.hbm, 408, rfl⟩
abbrev main_v372 : Ref sig .tc := ⟨.hbm, 409, rfl⟩
abbrev main_v373 : Ref sig .tc := ⟨.hbm, 410, rfl⟩
abbrev main_cst_23 : Ref sig .tc := ⟨.hbm, 411, rfl⟩
abbrev main_v374 : Ref sig .tc := ⟨.hbm, 412, rfl⟩
abbrev main_v375 : Ref sig .tc := ⟨.hbm, 413, rfl⟩
abbrev main_cst_24 : Ref sig .tc := ⟨.hbm, 414, rfl⟩
abbrev main_v376 : Ref sig .tc := ⟨.hbm, 415, rfl⟩
abbrev main_v377 : Ref sig .tc := ⟨.hbm, 416, rfl⟩
abbrev main_v378 : Ref sig .tc := ⟨.hbm, 417, rfl⟩
abbrev main_v379 : Ref sig .tc := ⟨.hbm, 418, rfl⟩
abbrev main_v380 : Ref sig .tc := ⟨.hbm, 419, rfl⟩
abbrev main_v381 : Ref sig .tc := ⟨.hbm, 420, rfl⟩
abbrev main_v382 : Ref sig .tc := ⟨.hbm, 421, rfl⟩
abbrev main_v383 : Ref sig .tc := ⟨.hbm, 422, rfl⟩
abbrev main_v384 : Ref sig .tc := ⟨.hbm, 423, rfl⟩
abbrev main_v385 : Ref sig .tc := ⟨.hbm, 424, rfl⟩
abbrev main_v386 : Ref sig .tc := ⟨.hbm, 425, rfl⟩
abbrev main_v387 : Ref sig .tc := ⟨.hbm, 426, rfl⟩
abbrev main_v388 : Ref sig .tc := ⟨.hbm, 427, rfl⟩
abbrev main_v389 : Ref sig .tc := ⟨.hbm, 428, rfl⟩
abbrev main_v390 : Ref sig .tc := ⟨.hbm, 429, rfl⟩
abbrev main_v391 : Ref sig .tc := ⟨.hbm, 430, rfl⟩
abbrev main_v392 : Ref sig .tc := ⟨.hbm, 431, rfl⟩
abbrev main_v393 : Ref sig .tc := ⟨.hbm, 432, rfl⟩
abbrev main_v394 : Ref sig .tc := ⟨.hbm, 433, rfl⟩
abbrev main_v395 : Ref sig .tc := ⟨.hbm, 434, rfl⟩
abbrev main_v396 : Ref sig .tc := ⟨.hbm, 435, rfl⟩
abbrev main_v397 : Ref sig .tc := ⟨.hbm, 436, rfl⟩
abbrev main_v398 : Ref sig .tc := ⟨.hbm, 437, rfl⟩
abbrev main_v399 : Ref sig .tc := ⟨.hbm, 438, rfl⟩
abbrev main_v400 : Ref sig .tc := ⟨.hbm, 439, rfl⟩
abbrev main_v401 : Ref sig .tc := ⟨.hbm, 440, rfl⟩
abbrev main_v402 : Ref sig .tc := ⟨.hbm, 441, rfl⟩
abbrev main_v403 : Ref sig .tc := ⟨.hbm, 442, rfl⟩
abbrev main_v404 : Ref sig .tc := ⟨.hbm, 443, rfl⟩
abbrev main_v405 : Ref sig .tc := ⟨.hbm, 444, rfl⟩
abbrev main_v406 : Ref sig .tc := ⟨.hbm, 445, rfl⟩
abbrev main_v407 : Ref sig .tc := ⟨.hbm, 446, rfl⟩
abbrev main_v408 : Ref sig .tc := ⟨.hbm, 447, rfl⟩
abbrev main_v409 : Ref sig .tc := ⟨.hbm, 448, rfl⟩
abbrev main_v410 : Ref sig .tc := ⟨.hbm, 449, rfl⟩
abbrev main_v411 : Ref sig .tc := ⟨.hbm, 450, rfl⟩
abbrev main_v412 : Ref sig .tc := ⟨.hbm, 451, rfl⟩
abbrev main_v413 : Ref sig .tc := ⟨.hbm, 452, rfl⟩
abbrev main_v414 : Ref sig .tc := ⟨.hbm, 453, rfl⟩
abbrev main_v415 : Ref sig .tc := ⟨.hbm, 454, rfl⟩
abbrev main_v416 : Ref sig .tc := ⟨.hbm, 455, rfl⟩
abbrev main_v417 : Ref sig .tc := ⟨.hbm, 456, rfl⟩
abbrev main_v418 : Ref sig .tc := ⟨.hbm, 457, rfl⟩
abbrev main_v419 : Ref sig .tc := ⟨.hbm, 458, rfl⟩
abbrev main_v420 : Ref sig .tc := ⟨.hbm, 459, rfl⟩
abbrev main_v421 : Ref sig .tc := ⟨.hbm, 460, rfl⟩
abbrev main_cst_25 : Ref sig .tc := ⟨.hbm, 461, rfl⟩
abbrev main_v422 : Ref sig .tc := ⟨.hbm, 462, rfl⟩
abbrev main_v423 : Ref sig .tc := ⟨.hbm, 463, rfl⟩
abbrev main_v424 : Ref sig .tc := ⟨.hbm, 464, rfl⟩
abbrev main_v425 : Ref sig .tc := ⟨.hbm, 465, rfl⟩
abbrev main_v426 : Ref sig .tc := ⟨.hbm, 466, rfl⟩
abbrev main_v427 : Ref sig .tc := ⟨.hbm, 467, rfl⟩
abbrev main_cst_26 : Ref sig .tc := ⟨.hbm, 468, rfl⟩
abbrev main_v428 : Ref sig .tc := ⟨.hbm, 469, rfl⟩
abbrev main_v429 : Ref sig .tc := ⟨.hbm, 470, rfl⟩
abbrev main_v430 : Ref sig .tc := ⟨.hbm, 471, rfl⟩
abbrev main_v431 : Ref sig .tc := ⟨.hbm, 472, rfl⟩
abbrev main_v432 : Ref sig .tc := ⟨.hbm, 473, rfl⟩
abbrev main_v433 : Ref sig .tc := ⟨.hbm, 474, rfl⟩
abbrev main_cst_27 : Ref sig .tc := ⟨.hbm, 475, rfl⟩
abbrev main_v434 : Ref sig .tc := ⟨.hbm, 476, rfl⟩
abbrev main_v435 : Ref sig .tc := ⟨.hbm, 477, rfl⟩
abbrev main_v436 : Ref sig .tc := ⟨.hbm, 478, rfl⟩
abbrev main_v437 : Ref sig .tc := ⟨.hbm, 479, rfl⟩
abbrev main_v438 : Ref sig .tc := ⟨.hbm, 480, rfl⟩
abbrev main_v439 : Ref sig .tc := ⟨.hbm, 481, rfl⟩
abbrev main_cst_28 : Ref sig .tc := ⟨.hbm, 482, rfl⟩
abbrev main_v440 : Ref sig .tc := ⟨.hbm, 483, rfl⟩
abbrev main_v441 : Ref sig .tc := ⟨.hbm, 484, rfl⟩
abbrev main_v442 : Ref sig .tc := ⟨.hbm, 485, rfl⟩
abbrev main_v443 : Ref sig .tc := ⟨.hbm, 486, rfl⟩
abbrev main_v444 : Ref sig .tc := ⟨.hbm, 487, rfl⟩
abbrev main_v445 : Ref sig .tc := ⟨.hbm, 488, rfl⟩
abbrev main_v446 : Ref sig .tc := ⟨.hbm, 489, rfl⟩
abbrev main_v447 : Ref sig .tc := ⟨.hbm, 490, rfl⟩
abbrev main_v448 : Ref sig .tc := ⟨.hbm, 491, rfl⟩
abbrev main_v449 : Ref sig .tc := ⟨.hbm, 492, rfl⟩
abbrev main_v450 : Ref sig .tc := ⟨.hbm, 493, rfl⟩
abbrev main_v451 : Ref sig .tc := ⟨.hbm, 494, rfl⟩
abbrev main_v452 : Ref sig .tc := ⟨.hbm, 495, rfl⟩
abbrev main_v453 : Ref sig .tc := ⟨.hbm, 496, rfl⟩
abbrev main_v454 : Ref sig .tc := ⟨.hbm, 497, rfl⟩
abbrev main_v455 : Ref sig .tc := ⟨.hbm, 498, rfl⟩
abbrev main_v456 : Ref sig .tc := ⟨.hbm, 499, rfl⟩
abbrev main_v457 : Ref sig .tc := ⟨.hbm, 500, rfl⟩
abbrev main_v458 : Ref sig .tc := ⟨.hbm, 501, rfl⟩
abbrev main_v459 : Ref sig .tc := ⟨.hbm, 502, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S4_S1x4_1 : S4.BroadcastsInDim S1x4 (![1] : Fin 1 → Fin S1x4.rank)
  bcast_S1x4_S524288x4_0_1 : S1x4.BroadcastsInDim S524288x4 (![0, 1] : Fin 2 → Fin S524288x4.rank)
  bcast_S_S524288x16 : S_.BroadcastsInDim S524288x16 (![] : Fin 0 → Fin S524288x16.rank)
  bcast_S_S1 : S_.BroadcastsInDim S1 (![] : Fin 0 → Fin S1.rank)
  bcast_S_S524288 : S_.BroadcastsInDim S524288 (![] : Fin 0 → Fin S524288.rank)
  shapeCasts_S524288x16_S524288x2x2x2x2 : S524288x16.ShapeCasts S524288x2x2x2x2
  slices_S524288x4_S524288x1_0_0 : S524288x4.Slices ![0, 0] S524288x1
  shapeCasts_S524288x1_S524288 : S524288x1.ShapeCasts S524288
  bcast_S524288_S524288x1x1x1_0 : S524288.BroadcastsInDim S524288x1x1x1 (![0] : Fin 1 → Fin S524288x1x1x1.rank)
  transposes_S524288x2x2x2x2_S524288x2x2x2x2_0_2_3_4_1 : S524288x2x2x2x2.Transposes [0, 2, 3, 4, 1] S524288x2x2x2x2
  slices_S524288x2x2x2x2_S524288x2x2x2x1_0_0_0_0_0 : S524288x2x2x2x2.Slices ![0, 0, 0, 0, 0] S524288x2x2x2x1
  shapeCasts_S524288x2x2x2x1_S524288x2x2x2 : S524288x2x2x2x1.ShapeCasts S524288x2x2x2
  bcast_S524288x1x1x1_S524288x2x2x2_0_1_2_3 : S524288x1x1x1.BroadcastsInDim S524288x2x2x2 (![0, 1, 2, 3] : Fin 4 → Fin S524288x2x2x2.rank)
  slices_S524288x2x2x2x2_S524288x2x2x2x1_0_0_0_0_1 : S524288x2x2x2x2.Slices ![0, 0, 0, 0, 1] S524288x2x2x2x1
  bcast_S524288x2x2x2_S524288x2x2x2x1_0_1_2_3 : S524288x2x2x2.BroadcastsInDim S524288x2x2x2x1 (![0, 1, 2, 3] : Fin 4 → Fin S524288x2x2x2x1.rank)
  concatenates_S524288x2x2x2x1_S524288x2x2x2x1_S524288x2x2x2x2_d4 : Shape.Concatenates [S524288x2x2x2x1, S524288x2x2x2x1] S524288x2x2x2x2 4
  transposes_S524288x2x2x2x2_S524288x2x2x2x2_0_4_1_2_3 : S524288x2x2x2x2.Transposes [0, 4, 1, 2, 3] S524288x2x2x2x2
  slices_S524288x4_S524288x1_0_1 : S524288x4.Slices ![0, 1] S524288x1
  transposes_S524288x2x2x2x2_S524288x2x2x2x2_0_1_3_4_2 : S524288x2x2x2x2.Transposes [0, 1, 3, 4, 2] S524288x2x2x2x2
  transposes_S524288x2x2x2x2_S524288x2x2x2x2_0_1_4_2_3 : S524288x2x2x2x2.Transposes [0, 1, 4, 2, 3] S524288x2x2x2x2
  slices_S524288x4_S524288x1_0_2 : S524288x4.Slices ![0, 2] S524288x1
  transposes_S524288x2x2x2x2_S524288x2x2x2x2_0_1_2_4_3 : S524288x2x2x2x2.Transposes [0, 1, 2, 4, 3] S524288x2x2x2x2
  slices_S524288x4_S524288x1_0_3 : S524288x4.Slices ![0, 3] S524288x1
  slices_S2x4_S1x1_0_0 : S2x4.Slices ![0, 0] S1x1
  shapeCasts_S1x1_S_ : S1x1.ShapeCasts S_
  bcast_S_S524288x2x2x2 : S_.BroadcastsInDim S524288x2x2x2 (![] : Fin 0 → Fin S524288x2x2x2.rank)
  slices_S2x4_S1x1_0_1 : S2x4.Slices ![0, 1] S1x1
  slices_S2x4_S1x1_0_2 : S2x4.Slices ![0, 2] S1x1
  slices_S2x4_S1x1_0_3 : S2x4.Slices ![0, 3] S1x1
  transposes_S524288x2x2x2x2_S524288x2x2x2x2_0_3_4_1_2 : S524288x2x2x2x2.Transposes [0, 3, 4, 1, 2] S524288x2x2x2x2
  slices_S524288x2x2x2x2_S524288x2x2x1x2_0_0_0_0_0 : S524288x2x2x2x2.Slices ![0, 0, 0, 0, 0] S524288x2x2x1x2
  slices_S524288x2x2x2x2_S524288x2x2x1x2_0_0_0_1_0 : S524288x2x2x2x2.Slices ![0, 0, 0, 1, 0] S524288x2x2x1x2
  concatenates_S524288x2x2x1x2_S524288x2x2x1x2_S524288x2x2x2x2_d3 : Shape.Concatenates [S524288x2x2x1x2, S524288x2x2x1x2] S524288x2x2x2x2 3
  slices_S2x4_S1x1_1_0 : S2x4.Slices ![1, 0] S1x1
  slices_S2x4_S1x1_1_1 : S2x4.Slices ![1, 1] S1x1
  slices_S2x4_S1x1_1_2 : S2x4.Slices ![1, 2] S1x1
  slices_S2x4_S1x1_1_3 : S2x4.Slices ![1, 3] S1x1
  reducesTo_S524288x2x2x2x2_S524288x2_d2_3_4 : S524288x2x2x2x2.ReducesTo [2, 3, 4] S524288x2
  h_S_ : 0 < S_.numel
  slices_S524288x2_S524288x1_0_0 : S524288x2.Slices ![0, 0] S524288x1
  slices_S524288x2_S524288x1_0_1 : S524288x2.Slices ![0, 1] S524288x1
  reducesTo_S524288x2x2x2x2_S524288x2_d1_3_4 : S524288x2x2x2x2.ReducesTo [1, 3, 4] S524288x2
  reducesTo_S524288x2x2x2x2_S524288x2_d1_2_4 : S524288x2x2x2x2.ReducesTo [1, 2, 4] S524288x2
  reducesTo_S524288x2x2x2x2_S524288x2_d1_2_3 : S524288x2x2x2x2.ReducesTo [1, 2, 3] S524288x2
  bcast_S524288_S524288x1_0 : S524288.BroadcastsInDim S524288x1 (![0] : Fin 1 → Fin S524288x1.rank)
  concatenates_S524288x1_S524288x1_S524288x1_S524288x1_S524288x4_d1 : Shape.Concatenates [S524288x1, S524288x1, S524288x1, S524288x1] S524288x4 1
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  dot_S524288x2_S2x64_S524288x64_1_0_0_1_n_n_wf : DotDims.WF S524288x2 S2x64 S524288x64 [1] [0] [0] [1] [] []
  dot_S524288x64_S64x16_S524288x16_1_0_0_1_n_n_wf : DotDims.WF S524288x64 S64x16 S524288x16 [1] [0] [0] [1] [] []
  dot_S524288x16_S16x4_S524288x4_1_0_0_1_n_n_wf : DotDims.WF S524288x16 S16x4 S524288x4 [1] [0] [0] [1] [] []
  scatter_S524288x16_S1_S524288_0_1_1_0_wf : ScatterDims.WF S524288x16 S1 S524288 [0] [1] [1] 0
  dot_S524288x4_S4x32_S524288x32_1_0_0_1_n_n_wf : DotDims.WF S524288x4 S4x32 S524288x32 [1] [0] [0] [1] [] []
  dot_S524288x32_S32x4_S524288x4_1_0_0_1_n_n_wf : DotDims.WF S524288x32 S32x4 S524288x4 [1] [0] [0] [1] [] []

variable [Facts₀]

def dot_S524288x2_S2x64_S524288x64_1_0_0_1_n_n : DotDims S524288x2 S2x64 S524288x64 where
  lhsContracting := [1]
  rhsContracting := [0]
  lhsNonContracting := [0]
  rhsNonContracting := [1]
  lhsBatch := []
  rhsBatch := []
  wf := dot_S524288x2_S2x64_S524288x64_1_0_0_1_n_n_wf
def dot_S524288x64_S64x16_S524288x16_1_0_0_1_n_n : DotDims S524288x64 S64x16 S524288x16 where
  lhsContracting := [1]
  rhsContracting := [0]
  lhsNonContracting := [0]
  rhsNonContracting := [1]
  lhsBatch := []
  rhsBatch := []
  wf := dot_S524288x64_S64x16_S524288x16_1_0_0_1_n_n_wf
def dot_S524288x16_S16x4_S524288x4_1_0_0_1_n_n : DotDims S524288x16 S16x4 S524288x4 where
  lhsContracting := [1]
  rhsContracting := [0]
  lhsNonContracting := [0]
  rhsNonContracting := [1]
  lhsBatch := []
  rhsBatch := []
  wf := dot_S524288x16_S16x4_S524288x4_1_0_0_1_n_n_wf
def scatter_S524288x16_S1_S524288_0_1_1_0 : ScatterDims S524288x16 S1 S524288 where
  updateWindowDims := [0]
  insertedWindowDims := [1]
  scatterDimsToOperandDims := [1]
  indexVectorDim := 0
  wf := scatter_S524288x16_S1_S524288_0_1_1_0_wf
def dot_S524288x4_S4x32_S524288x32_1_0_0_1_n_n : DotDims S524288x4 S4x32 S524288x32 where
  lhsContracting := [1]
  rhsContracting := [0]
  lhsNonContracting := [0]
  rhsNonContracting := [1]
  lhsBatch := []
  rhsBatch := []
  wf := dot_S524288x4_S4x32_S524288x32_1_0_0_1_n_n_wf
def dot_S524288x32_S32x4_S524288x4_1_0_0_1_n_n : DotDims S524288x32 S32x4 S524288x4 where
  lhsContracting := [1]
  rhsContracting := [0]
  lhsNonContracting := [0]
  rhsNonContracting := [1]
  lhsBatch := []
  rhsBatch := []
  wf := dot_S524288x32_S32x4_S524288x4_1_0_0_1_n_n_wf

class Facts : Prop extends Facts₀ where

variable [Facts]
-- ==== Proof.ChunkCoverBits.lean ====
/-
  The rectangles the loop's trips write cover the second scratch, whatever the float instance.

  Trip k writes one piece, at the 4 × 1024 rectangle of columns 1024·k … 1024·k + 1023; the eight trips' rectangles
  hold every index of the 4 × 8192 array.  So what is read of the buffer after the loop does not depend on what it held
  before: it is the canonical contents of the pieces.
-/
import proofs.«150622_j8847632630356_2_alg».proof.Proof.Gen.Kernel.Loops
import Idealize.ShloMosaic.Lib.Pipeline.FrameBody

set_option maxRecDepth 8192

noncomputable section

namespace Cert.Kernel.LoopCover

open Idealize.ShloMosaic
open Cert.Kernel Cert.Kernel.Gen

variable {F : FTy → Type} [FloatOps F]

/-- One trip writes one piece, at the trip's rectangle. -/
theorem tripL_rect (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec F S2x4 .f32) (v17 : FVec F S2x4 .f32) (X_arg15 : BufTy.Contents (Elt F) arg15.view.ty) (k : Fin k0_t1_loop.trips) :
    ∃ w, tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k
      = [⟨Rect.unit (s := S4x8192) (k0_off1 k) S4x1024.size (k0_off1_inb k), w⟩] := by
  unfold tripL_k0_t1 trip_k0_t1
  exact ⟨_, rfl⟩

/-- The loop runs eight trips. -/
theorem trips_eq : k0_t1_loop.trips = 8 := by decide

/-- The first `n` trips' rectangles hold every index whose column is below 1024·n. -/
theorem pb_cover_upto (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec F S2x4 .f32) (v17 : FVec F S2x4 .f32) (X_arg15 : BufTy.Contents (Elt F) arg15.view.ty) :
    ∀ n, n ≤ k0_t1_loop.trips → ∀ y : S4x8192.Idx, (y 1).val < 1024 * n →
      ∃ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 n, y ∈ p.1.set := by
  intro n
  induction n with
  | zero => intro _ y hy; exact absurd hy (by omega)
  | succ n ih =>
    intro hn y hy
    have h : n < k0_t1_loop.trips := hn
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 ⟨n, h⟩
    obtain ⟨w, hw⟩ := tripL_rect (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 ⟨n, h⟩
    rw [hw] at e
    rw [show n + 1 = (⟨n, h⟩ : Fin k0_t1_loop.trips).val + 1 from rfl, e]
    by_cases hlt : (y 1).val < 1024 * n
    · obtain ⟨p, hp, hy'⟩ := ih (Nat.le_of_lt h) y hlt
      exact ⟨p, List.mem_append.mpr (Or.inr hp), hy'⟩
    · refine ⟨_, List.mem_append.mpr (Or.inl (List.mem_singleton_self _)), ?_⟩
      rw [Rect.mem_set_unit, k0_off1_eq]
      intro a
      match a with
      | ⟨0, _⟩ =>
        have h4 : (y 0).val < 4 := (y 0).isLt
        exact ⟨Nat.zero_le _, by show (y 0).val < 0 + 4; omega⟩
      | ⟨1, _⟩ =>
        exact ⟨by show 1024 * n ≤ (y 1).val; omega, by show (y 1).val < 1024 * n + 1024; omega⟩

/-- The loop's rectangles cover the array. -/
theorem pb_cover (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec F S2x4 .f32) (v17 : FVec F S2x4 .f32) (X_arg15 : BufTy.Contents (Elt F) arg15.view.ty) :
    ∀ y : S4x8192.Idx, ∃ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips, y ∈ p.1.set := fun y =>
  pb_cover_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips (Nat.le_refl _) y (by
    have h8 : (y 1).val < 8192 := (y 1).isLt
    rw [trips_eq]; omega)

/-- A load of the second scratch after the loop reads the canonical contents of the loop's pieces, whatever the buffer
    held before. -/
theorem readAt_after_loop (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec F S2x4 .f32) (v17 : FVec F S2x4 .f32) (X_arg15 : BufTy.Contents (Elt F) arg15.view.ty)
    (G : BufTy.Contents (Elt F) arg16.view.ty) (r : LoadRect S4x8192) :
    View.readAt (Elt F) arg16.view r (arg16.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips))
      = fun x => View.canon (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips) (r.idx x) := by
  funext x
  rw [View.readAt_apply, View.read_writes_eq_canon arg16.view G _ (pb_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15)]

end Cert.Kernel.LoopCover

end
-- ==== Proof.ChunkCoverIdeal.lean ====
/-
  The rectangles the loop's trips write cover the second scratch, whatever the float instance.

  Trip k writes one piece, at the 4 × 1024 rectangle of columns 1024·k … 1024·k + 1023; the eight trips' rectangles
  hold every index of the 4 × 8192 array.  So what is read of the buffer after the loop does not depend on what it held
  before: it is the canonical contents of the pieces.
-/
import proofs.«150622_j8847632630356_2_alg».proof.Proof.Gen.KernelIdeal.Loops
import Idealize.ShloMosaic.Lib.Pipeline.FrameBody

set_option maxRecDepth 8192

noncomputable section

namespace Cert.KernelIdeal.LoopCover

open Idealize.ShloMosaic
open Cert.KernelIdeal Cert.KernelIdeal.Gen

variable {F : FTy → Type} [FloatOps F]

/-- One trip writes one piece, at the trip's rectangle. -/
theorem tripL_rect (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec F S2x4 .f32) (v17 : FVec F S2x4 .f32) (X_arg15 : BufTy.Contents (Elt F) arg15.view.ty) (k : Fin k0_t1_loop.trips) :
    ∃ w, tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k
      = [⟨Rect.unit (s := S4x8192) (k0_off1 k) S4x1024.size (k0_off1_inb k), w⟩] := by
  unfold tripL_k0_t1 trip_k0_t1
  exact ⟨_, rfl⟩

/-- The loop runs eight trips. -/
theorem trips_eq : k0_t1_loop.trips = 8 := by decide

/-- The first `n` trips' rectangles hold every index whose column is below 1024·n. -/
theorem pb_cover_upto (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec F S2x4 .f32) (v17 : FVec F S2x4 .f32) (X_arg15 : BufTy.Contents (Elt F) arg15.view.ty) :
    ∀ n, n ≤ k0_t1_loop.trips → ∀ y : S4x8192.Idx, (y 1).val < 1024 * n →
      ∃ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 n, y ∈ p.1.set := by
  intro n
  induction n with
  | zero => intro _ y hy; exact absurd hy (by omega)
  | succ n ih =>
    intro hn y hy
    have h : n < k0_t1_loop.trips := hn
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 ⟨n, h⟩
    obtain ⟨w, hw⟩ := tripL_rect (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 ⟨n, h⟩
    rw [hw] at e
    rw [show n + 1 = (⟨n, h⟩ : Fin k0_t1_loop.trips).val + 1 from rfl, e]
    by_cases hlt : (y 1).val < 1024 * n
    · obtain ⟨p, hp, hy'⟩ := ih (Nat.le_of_lt h) y hlt
      exact ⟨p, List.mem_append.mpr (Or.inr hp), hy'⟩
    · refine ⟨_, List.mem_append.mpr (Or.inl (List.mem_singleton_self _)), ?_⟩
      rw [Rect.mem_set_unit, k0_off1_eq]
      intro a
      match a with
      | ⟨0, _⟩ =>
        have h4 : (y 0).val < 4 := (y 0).isLt
        exact ⟨Nat.zero_le _, by show (y 0).val < 0 + 4; omega⟩
      | ⟨1, _⟩ =>
        exact ⟨by show 1024 * n ≤ (y 1).val; omega, by show (y 1).val < 1024 * n + 1024; omega⟩

/-- The loop's rectangles cover the array. -/
theorem pb_cover (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec F S2x4 .f32) (v17 : FVec F S2x4 .f32) (X_arg15 : BufTy.Contents (Elt F) arg15.view.ty) :
    ∀ y : S4x8192.Idx, ∃ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips, y ∈ p.1.set := fun y =>
  pb_cover_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips (Nat.le_refl _) y (by
    have h8 : (y 1).val < 8192 := (y 1).isLt
    rw [trips_eq]; omega)

/-- A load of the second scratch after the loop reads the canonical contents of the loop's pieces, whatever the buffer
    held before. -/
theorem readAt_after_loop (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec F S2x4 .f32) (v17 : FVec F S2x4 .f32) (X_arg15 : BufTy.Contents (Elt F) arg15.view.ty)
    (G : BufTy.Contents (Elt F) arg16.view.ty) (r : LoadRect S4x8192) :
    View.readAt (Elt F) arg16.view r (arg16.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips))
      = fun x => View.canon (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips) (r.idx x) := by
  funext x
  rw [View.readAt_apply, View.read_writes_eq_canon arg16.view G _ (pb_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15)]

end Cert.KernelIdeal.LoopCover

end
-- ==== Proof.KernHost.lean ====
/-
  The arrays the kernel's region finds, as functions of the arguments, read at an index.

  Before the region the host transposes the batch and every weight matrix (so that the batch lies along the last
  axis), makes each bias a column, and tabulates the cosine and the sine of half of each shared angle.  Read at an
  index: a transposed matrix at (i, j) is the matrix at (j, i); a bias column at (j, 0) is the bias at j; a table at
  (l, q) is cos, or sin, of the angle (l, q) times the constant one half.
-/
import proofs.«150622_j8847632630356_2_alg».proof.Proof.Gen.KernelIdeal.Frame.Runs
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal

noncomputable section

namespace Cert.KernHost

open Idealize.ShloMosaic Idealize.ShloMosaic.TcCoe Idealize.ShloMosaic.ValueIdx Idealize.SL.Sem
open Cert.KernelIdeal Cert.KernelIdeal.Gen

/-- A matrix with its two axes exchanged, read at (i, j), is the matrix at (j, i). -/
theorem transpose_swap_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply _ x h _ _ fun d => ?_
  match d with
  | ⟨0, _⟩ => rfl
  | ⟨1, _⟩ => rfl

/-- A vector made a column, read at (j, 0), is the vector at j. -/
theorem shapeCast_col_apply {α : Type} {a : ℕ} (x : (⟨1, ![a]⟩ : Shape).Idx → α)
    (h : (⟨1, ![a]⟩ : Shape).ShapeCasts ⟨2, ![a, 1]⟩) (j : Fin a) (u : Fin 1) :
    shapeCast ⟨2, ![a, 1]⟩ x h (ix2 j u) = x (ix1 j) :=
  shapeCast_apply x h _ _ (by
    have hu : u.val = 0 := by omega
    rw [Shape.rowMajor_val_two, Shape.rowMajor_val_one]
    show j.val = j.val * 1 + u.val
    rw [hu, Nat.mul_one, Nat.add_zero])

variable (m : (ℓ : Loc nD τ sig) → Buf (Elt Ideal) ℓ) (c : Dev nD)

/-- The batch, transposed. -/
theorem V_v0 (k : Fin 2) (r : Fin 524288) :
    (V m c main_v0 : S2x524288.Idx → EReal) (ix2 k r) = m ((c : Thread nD τ).loc main_arg0) (ix2 r k) := by
  have e : (V m c main_v0 : S2x524288.Idx → EReal)
      = transpose S2x524288 [1, 0] (m ((c : Thread nD τ).loc main_arg0)) transposes_S524288x2_S2x524288_1_0 := by
    show StableHlo.after hostOps0 (fun b => m (c, b)) (Proc.devRef .tc main_v0) = _
    after_results
  rw [e]; exact transpose_swap_apply _ _ k r

/-- The first layer's weights, transposed. -/
theorem V_v1 (j : Fin 64) (k : Fin 2) :
    (V m c main_v1 : S64x2.Idx → EReal) (ix2 j k) = m ((c : Thread nD τ).loc main_arg1) (ix2 k j) := by
  have e : (V m c main_v1 : S64x2.Idx → EReal)
      = transpose S64x2 [1, 0] (m ((c : Thread nD τ).loc main_arg1)) transposes_S2x64_S64x2_1_0 := by
    show StableHlo.after hostOps0 (fun b => m (c, b)) (Proc.devRef .tc main_v1) = _
    after_results
  rw [e]; exact transpose_swap_apply _ _ j k

/-- The first layer's bias, a column. -/
theorem V_v2 (j : Fin 64) (u : Fin 1) :
    (V m c main_v2 : S64x1.Idx → EReal) (ix2 j u) = m ((c : Thread nD τ).loc main_arg2) (ix1 j) := by
  have e : (V m c main_v2 : S64x1.Idx → EReal)
      = shapeCast S64x1 (m ((c : Thread nD τ).loc main_arg2)) shapeCasts_S64_S64x1 := by
    show StableHlo.after hostOps0 (fun b => m (c, b)) (Proc.devRef .tc main_v2) = _
    after_results
    all_goals rfl
  rw [e]; exact shapeCast_col_apply _ _ j u

/-- The second layer's weights, transposed. -/
theorem V_v3 (j : Fin 16) (k : Fin 64) :
    (V m c main_v3 : S16x64.Idx → EReal) (ix2 j k) = m ((c : Thread nD τ).loc main_arg3) (ix2 k j) := by
  have e : (V m c main_v3 : S16x64.Idx → EReal)
      = transpose S16x64 [1, 0] (m ((c : Thread nD τ).loc main_arg3)) transposes_S64x16_S16x64_1_0 := by
    show StableHlo.after hostOps0 (fun b => m (c, b)) (Proc.devRef .tc main_v3) = _
    after_results
  rw [e]; exact transpose_swap_apply _ _ j k

/-- The second layer's bias, a column. -/
theorem V_v4 (j : Fin 16) (u : Fin 1) :
    (V m c main_v4 : S16x1.Idx → EReal) (ix2 j u) = m ((c : Thread nD τ).loc main_arg4) (ix1 j) := by
  have e : (V m c main_v4 : S16x1.Idx → EReal)
      = shapeCast S16x1 (m ((c : Thread nD τ).loc main_arg4)) shapeCasts_S16_S16x1 := by
    show StableHlo.after hostOps0 (fun b => m (c, b)) (Proc.devRef .tc main_v4) = _
    after_results
    all_goals rfl
  rw [e]; exact shapeCast_col_apply _ _ j u

/-- The angle layer's weights, transposed. -/
theorem V_v5 (q : Fin 4) (k : Fin 16) :
    (V m c main_v5 : S4x16.Idx → EReal) (ix2 q k) = m ((c : Thread nD τ).loc main_arg5) (ix2 k q) := by
  have e : (V m c main_v5 : S4x16.Idx → EReal)
      = transpose S4x16 [1, 0] (m ((c : Thread nD τ).loc main_arg5)) transposes_S16x4_S4x16_1_0 := by
    show StableHlo.after hostOps0 (fun b => m (c, b)) (Proc.devRef .tc main_v5) = _
    after_results
  rw [e]; exact transpose_swap_apply _ _ q k

/-- The angle layer's bias, a column. -/
theorem V_v6 (j : Fin 4) (u : Fin 1) :
    (V m c main_v6 : S4x1.Idx → EReal) (ix2 j u) = m ((c : Thread nD τ).loc main_arg6) (ix1 j) := by
  have e : (V m c main_v6 : S4x1.Idx → EReal)
      = shapeCast S4x1 (m ((c : Thread nD τ).loc main_arg6)) shapeCasts_S4_S4x1 := by
    show StableHlo.after hostOps0 (fun b => m (c, b)) (Proc.devRef .tc main_v6) = _
    after_results
    all_goals rfl
  rw [e]; exact shapeCast_col_apply _ _ j u

/-- The layer after the circuit: its weights, transposed. -/
theorem V_v13 (j : Fin 32) (k : Fin 4) :
    (V m c main_v13 : S32x4.Idx → EReal) (ix2 j k) = m ((c : Thread nD τ).loc main_arg8) (ix2 k j) := by
  have e : (V m c main_v13 : S32x4.Idx → EReal)
      = transpose S32x4 [1, 0] (m ((c : Thread nD τ).loc main_arg8)) transposes_S4x32_S32x4_1_0 := by
    show StableHlo.after hostOps0 (fun b => m (c, b)) (Proc.devRef .tc main_v13) = _
    after_results
  rw [e]; exact transpose_swap_apply _ _ j k

/-- Its bias, a column. -/
theorem V_v14 (j : Fin 32) (u : Fin 1) :
    (V m c main_v14 : S32x1.Idx → EReal) (ix2 j u) = m ((c : Thread nD τ).loc main_arg9) (ix1 j) := by
  have e : (V m c main_v14 : S32x1.Idx → EReal)
      = shapeCast S32x1 (m ((c : Thread nD τ).loc main_arg9)) shapeCasts_S32_S32x1 := by
    show StableHlo.after hostOps0 (fun b => m (c, b)) (Proc.devRef .tc main_v14) = _
    after_results
    all_goals rfl
  rw [e]; exact shapeCast_col_apply _ _ j u

/-- The last layer's weights, transposed. -/
theorem V_v15 (j : Fin 4) (k : Fin 32) :
    (V m c main_v15 : S4x32.Idx → EReal) (ix2 j k) = m ((c : Thread nD τ).loc main_arg10) (ix2 k j) := by
  have e : (V m c main_v15 : S4x32.Idx → EReal)
      = transpose S4x32 [1, 0] (m ((c : Thread nD τ).loc main_arg10)) transposes_S32x4_S4x32_1_0 := by
    show StableHlo.after hostOps0 (fun b => m (c, b)) (Proc.devRef .tc main_v15) = _
    after_results
  rw [e]; exact transpose_swap_apply _ _ j k

/-- Its bias, a column. -/
theorem V_v16 (j : Fin 4) (u : Fin 1) :
    (V m c main_v16 : S4x1.Idx → EReal) (ix2 j u) = m ((c : Thread nD τ).loc main_arg11) (ix1 j) := by
  have e : (V m c main_v16 : S4x1.Idx → EReal)
      = shapeCast S4x1 (m ((c : Thread nD τ).loc main_arg11)) shapeCasts_S4_S4x1 := by
    show StableHlo.after hostOps0 (fun b => m (c, b)) (Proc.devRef .tc main_v16) = _
    after_results
    all_goals rfl
  rw [e]; exact shapeCast_col_apply _ _ j u

/-- The table of cosines of half the shared angles. -/
theorem V_v9 (l : Fin 2) (q : Fin 4) :
    (V m c main_v9 : S2x4.Idx → EReal) (ix2 l q)
      = Ideal.cos (HMul.hMul (α := EReal) (β := EReal) (γ := EReal) (m ((c : Thread nD τ).loc main_arg7) (ix2 l q)) (Ideal.ofBits .f32 0x3F000000#32)) := by
  have e : (V m c main_v9 : S2x4.Idx → EReal)
      = Host.cos (mulf (m ((c : Thread nD τ).loc main_arg7)) (broadcastInDim S2x4 ![] bcast_S_S2x4 (constant (F := Ideal) S_ .f32 0x3F000000#32))) := by
    show StableHlo.after hostOps0 (fun b => m (c, b)) (Proc.devRef .tc main_v9) = _
    after_results
  rw [e]; rfl

/-- The table of sines of half the shared angles. -/
theorem V_v12 (l : Fin 2) (q : Fin 4) :
    (V m c main_v12 : S2x4.Idx → EReal) (ix2 l q)
      = Ideal.sin (HMul.hMul (α := EReal) (β := EReal) (γ := EReal) (m ((c : Thread nD τ).loc main_arg7) (ix2 l q)) (Ideal.ofBits .f32 0x3F000000#32)) := by
  have e : (V m c main_v12 : S2x4.Idx → EReal)
      = Host.sin (mulf (m ((c : Thread nD τ).loc main_arg7)) (broadcastInDim S2x4 ![] bcast_S_S2x4 (constant (F := Ideal) S_ .f32 0x3F000000#32))) := by
    show StableHlo.after hostOps0 (fun b => m (c, b)) (Proc.devRef .tc main_v12) = _
    after_results
  rw [e]; rfl

end Cert.KernHost

end
-- ==== Proof.KernCover.lean ====
/-
  How the kernel's grid tiles the arrays.

  The grid has 64 points.  Point t stages columns [8192 t, 8192 t + 8192) of the transposed batch [2, 524288] and
  writes back the same columns of the result [4, 524288]; every other operand is staged whole at every point.  So a
  block's entry (k, l) is the array's entry (k, 8192 t + l), the 64 result blocks tile the result array, and the
  point that covers column b is b / 8192.
-/
import proofs.«150622_j8847632630356_2_alg».proof.Proof.Gen.KernelIdeal.Frame.Runs
import Idealize.ShloMosaic.Lib.Pipeline.Value
import Idealize.ShloMosaic.Lib.ValueIdx
import Idealize.ShloMosaic.PureOps.Ideal

set_option maxRecDepth 16384

noncomputable section

namespace Cert.KernCover

open Idealize.ShloMosaic Idealize.ShloMosaic.TcCoe Idealize.ShloMosaic.ValueIdx Idealize.SL.Sem
open Cert.KernelIdeal Cert.KernelIdeal.Gen

/-- The printed index maps, decided once over the grid: the batch window and the result window move along the last
    axis with the point; every other window stays at block (0, 0). -/
theorem idx_facts : ∀ t : Fin cfg0.N,
    win0_13.index t (0 : Fin 2) = 0 ∧ win0_13.index t (1 : Fin 2) = t.val
    ∧ win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

variable (m : (ℓ : Loc nD τ sig) → Buf (Elt Ideal) ℓ) (c : Dev nD)

/-- The batch block at point t: its entry (k, l) is the transposed batch's entry (k, 8192 t + l). -/
theorem iblk_0 (t : Fin cfg0.N) (k : Fin 2) (l : Fin 8192) (r : Fin 524288) (hr : r.val = 8192 * t.val + l.val) :
    (iblk m c 0 t : S2x8192.Idx → EReal) (ix2 k l) = (V m c main_v0 : S2x524288.Idx → EReal) (ix2 k r) := by
  obtain ⟨-, -, e0, e1, -⟩ := idx_facts t
  show V m c main_v0 (((cfg0.win 0).blk t).view.emb (ix2 k l)) = V m c main_v0 (ix2 k r)
  refine congrArg _ (funext fun a => Fin.ext ?_)
  match a with
  | ⟨0, _⟩ => show win0_0.index t (0 : Fin 2) * 2 + 1 * k.val = k.val; omega
  | ⟨1, _⟩ => show win0_0.index t (1 : Fin 2) * 8192 + 1 * l.val = r.val; omega

/-- Window 1 is staged whole: its block at any point is the array. -/
theorem iblk_1 (t : Fin cfg0.N) (i : Fin 64) (j : Fin 2) :
    (iblk m c 1 t : S64x2.Idx → EReal) (ix2 i j) = (V m c main_v1 : S64x2.Idx → EReal) (ix2 i j) := by
  obtain ⟨-, -, -, -, e0, e1, -, -, -, -, -, -, -, -, -, -, -, -, -, -, -, -, -, -, -, -, -, -⟩ := idx_facts t
  show V m c main_v1 (((cfg0.win 1).blk t).view.emb (ix2 i j)) = V m c main_v1 (ix2 i j)
  refine congrArg _ (funext fun a => Fin.ext ?_)
  match a with
  | ⟨0, _⟩ => show win0_1.index t (0 : Fin 2) * 64 + 1 * i.val = i.val; omega
  | ⟨1, _⟩ => show win0_1.index t (1 : Fin 2) * 2 + 1 * j.val = j.val; omega

/-- Window 2 is staged whole: its block at any point is the array. -/
theorem iblk_2 (t : Fin cfg0.N) (i : Fin 64) (j : Fin 1) :
    (iblk m c 2 t : S64x1.Idx → EReal) (ix2 i j) = (V m c main_v2 : S64x1.Idx → EReal) (ix2 i j) := by
  obtain ⟨-, -, -, -, -, -, e0, e1, -, -, -, -, -, -, -, -, -, -, -, -, -, -, -, -, -, -, -, -⟩ := idx_facts t
  show V m c main_v2 (((cfg0.win 2).blk t).view.emb (ix2 i j)) = V m c main_v2 (ix2 i j)
  refine congrArg _ (funext fun a => Fin.ext ?_)
  match a with
  | ⟨0, _⟩ => show win0_2.index t (0 : Fin 2) * 64 + 1 * i.val = i.val; omega
  | ⟨1, _⟩ => show win0_2.index t (1 : Fin 2) * 1 + 1 * j.val = j.val; omega

/-- Window 3 is staged whole: its block at any point is the array. -/
theorem iblk_3 (t : Fin cfg0.N) (i : Fin 16) (j : Fin 64) :
    (iblk m c 3 t : S16x64.Idx → EReal) (ix2 i j) = (V m c main_v3 : S16x64.Idx → EReal) (ix2 i j) := by
  obtain ⟨-, -, -, -, -, -, -, -, e0, e1, -, -, -, -, -, -, -, -, -, -, -, -, -, -, -, -, -, -⟩ := idx_facts t
  show V m c main_v3 (((cfg0.win 3).blk t).view.emb (ix2 i j)) = V m c main_v3 (ix2 i j)
  refine congrArg _ (funext fun a => Fin.ext ?_)
  match a with
  | ⟨0, _⟩ => show win0_3.index t (0 : Fin 2) * 16 + 1 * i.val = i.val; omega
  | ⟨1, _⟩ => show win0_3.index t (1 : Fin 2) * 64 + 1 * j.val = j.val; omega

/-- Window 4 is staged whole: its block at any point is the array. -/
theorem iblk_4 (t : Fin cfg0.N) (i : Fin 16) (j : Fin 1) :
    (iblk m c 4 t : S16x1.Idx → EReal) (ix2 i j) = (V m c main_v4 : S16x1.Idx → EReal) (ix2 i j) := by
  obtain ⟨-, -, -, -, -, -, -, -, -, -, e0, e1, -, -, -, -, -, -, -, -, -, -, -, -, -, -, -, -⟩ := idx_facts t
  show V m c main_v4 (((cfg0.win 4).blk t).view.emb (ix2 i j)) = V m c main_v4 (ix2 i j)
  refine congrArg _ (funext fun a => Fin.ext ?_)
  match a with
  | ⟨0, _⟩ => show win0_4.index t (0 : Fin 2) * 16 + 1 * i.val = i.val; omega
  | ⟨1, _⟩ => show win0_4.index t (1 : Fin 2) * 1 + 1 * j.val = j.val; omega

/-- Window 5 is staged whole: its block at any point is the array. -/
theorem iblk_5 (t : Fin cfg0.N) (i : Fin 4) (j : Fin 16) :
    (iblk m c 5 t : S4x16.Idx → EReal) (ix2 i j) = (V m c main_v5 : S4x16.Idx → EReal) (ix2 i j) := by
  obtain ⟨-, -, -, -, -, -, -, -, -, -, -, -, e0, e1, -, -, -, -, -, -, -, -, -, -, -, -, -, -⟩ := idx_facts t
  show V m c main_v5 (((cfg0.win 5).blk t).view.emb (ix2 i j)) = V m c main_v5 (ix2 i j)
  refine congrArg _ (funext fun a => Fin.ext ?_)
  match a with
  | ⟨0, _⟩ => show win0_5.index t (0 : Fin 2) * 4 + 1 * i.val = i.val; omega
  | ⟨1, _⟩ => show win0_5.index t (1 : Fin 2) * 16 + 1 * j.val = j.val; omega

/-- Window 6 is staged whole: its block at any point is the array. -/
theorem iblk_6 (t : Fin cfg0.N) (i : Fin 4) (j : Fin 1) :
    (iblk m c 6 t : S4x1.Idx → EReal) (ix2 i j) = (V m c main_v6 : S4x1.Idx → EReal) (ix2 i j) := by
  obtain ⟨-, -, -, -, -, -, -, -, -, -, -, -, -, -, e0, e1, -, -, -, -, -, -, -, -, -, -, -, -⟩ := idx_facts t
  show V m c main_v6 (((cfg0.win 6).blk t).view.emb (ix2 i j)) = V m c main_v6 (ix2 i j)
  refine congrArg _ (funext fun a => Fin.ext ?_)
  match a with
  | ⟨0, _⟩ => show win0_6.index t (0 : Fin 2) * 4 + 1 * i.val = i.val; omega
  | ⟨1, _⟩ => show win0_6.index t (1 : Fin 2) * 1 + 1 * j.val = j.val; omega

/-- Window 7 is staged whole: its block at any point is the array. -/
theorem iblk_7 (t : Fin cfg0.N) (i : Fin 2) (j : Fin 4) :
    (iblk m c 7 t : S2x4.Idx → EReal) (ix2 i j) = (V m c main_v9 : S2x4.Idx → EReal) (ix2 i j) := by
  obtain ⟨-, -, -, -, -, -, -, -, -, -, -, -, -, -, -, -, e0, e1, -, -, -, -, -, -, -, -, -, -⟩ := idx_facts t
  show V m c main_v9 (((cfg0.win 7).blk t).view.emb (ix2 i j)) = V m c main_v9 (ix2 i j)
  refine congrArg _ (funext fun a => Fin.ext ?_)
  match a with
  | ⟨0, _⟩ => show win0_7.index t (0 : Fin 2) * 2 + 1 * i.val = i.val; omega
  | ⟨1, _⟩ => show win0_7.index t (1 : Fin 2) * 4 + 1 * j.val = j.val; omega

/-- Window 8 is staged whole: its block at any point is the array. -/
theorem iblk_8 (t : Fin cfg0.N) (i : Fin 2) (j : Fin 4) :
    (iblk m c 8 t : S2x4.Idx → EReal) (ix2 i j) = (V m c main_v12 : S2x4.Idx → EReal) (ix2 i j) := by
  obtain ⟨-, -, -, -, -, -, -, -, -, -, -, -, -, -, -, -, -, -, e0, e1, -, -, -, -, -, -, -, -⟩ := idx_facts t
  show V m c main_v12 (((cfg0.win 8).blk t).view.emb (ix2 i j)) = V m c main_v12 (ix2 i j)
  refine congrArg _ (funext fun a => Fin.ext ?_)
  match a with
  | ⟨0, _⟩ => show win0_8.index t (0 : Fin 2) * 2 + 1 * i.val = i.val; omega
  | ⟨1, _⟩ => show win0_8.index t (1 : Fin 2) * 4 + 1 * j.val = j.val; omega

/-- Window 9 is staged whole: its block at any point is the array. -/
theorem iblk_9 (t : Fin cfg0.N) (i : Fin 32) (j : Fin 4) :
    (iblk m c 9 t : S32x4.Idx → EReal) (ix2 i j) = (V m c main_v13 : S32x4.Idx → EReal) (ix2 i j) := by
  obtain ⟨-, -, -, -, -, -, -, -, -, -, -, -, -, -, -, -, -, -, -, -, e0, e1, -, -, -, -, -, -⟩ := idx_facts t
  show V m c main_v13 (((cfg0.win 9).blk t).view.emb (ix2 i j)) = V m c main_v13 (ix2 i j)
  refine congrArg _ (funext fun a => Fin.ext ?_)
  match a with
  | ⟨0, _⟩ => show win0_9.index t (0 : Fin 2) * 32 + 1 * i.val = i.val; omega
  | ⟨1, _⟩ => show win0_9.index t (1 : Fin 2) * 4 + 1 * j.val = j.val; omega

/-- Window 10 is staged whole: its block at any point is the array. -/
theorem iblk_10 (t : Fin cfg0.N) (i : Fin 32) (j : Fin 1) :
    (iblk m c 10 t : S32x1.Idx → EReal) (ix2 i j) = (V m c main_v14 : S32x1.Idx → EReal) (ix2 i j) := by
  obtain ⟨-, -, -, -, -, -, -, -, -, -, -, -, -, -, -, -, -, -, -, -, -, -, e0, e1, -, -, -, -⟩ := idx_facts t
  show V m c main_v14 (((cfg0.win 10).blk t).view.emb (ix2 i j)) = V m c main_v14 (ix2 i j)
  refine congrArg _ (funext fun a => Fin.ext ?_)
  match a with
  | ⟨0, _⟩ => show win0_10.index t (0 : Fin 2) * 32 + 1 * i.val = i.val; omega
  | ⟨1, _⟩ => show win0_10.index t (1 : Fin 2) * 1 + 1 * j.val = j.val; omega

/-- Window 11 is staged whole: its block at any point is the array. -/
theorem iblk_11 (t : Fin cfg0.N) (i : Fin 4) (j : Fin 32) :
    (iblk m c 11 t : S4x32.Idx → EReal) (ix2 i j) = (V m c main_v15 : S4x32.Idx → EReal) (ix2 i j) := by
  obtain ⟨-, -, -, -, -, -, -, -, -, -, -, -, -, -, -, -, -, -, -, -, -, -, -, -, e0, e1, -, -⟩ := idx_facts t
  show V m c main_v15 (((cfg0.win 11).blk t).view.emb (ix2 i j)) = V m c main_v15 (ix2 i j)
  refine congrArg _ (funext fun a => Fin.ext ?_)
  match a with
  | ⟨0, _⟩ => show win0_11.index t (0 : Fin 2) * 4 + 1 * i.val = i.val; omega
  | ⟨1, _⟩ => show win0_11.index t (1 : Fin 2) * 32 + 1 * j.val = j.val; omega

/-- Window 12 is staged whole: its block at any point is the array. -/
theorem iblk_12 (t : Fin cfg0.N) (i : Fin 4) (j : Fin 1) :
    (iblk m c 12 t : S4x1.Idx → EReal) (ix2 i j) = (V m c main_v16 : S4x1.Idx → EReal) (ix2 i j) := by
  obtain ⟨-, -, -, -, -, -, -, -, -, -, -, -, -, -, -, -, -, -, -, -, -, -, -, -, -, -, e0, e1⟩ := idx_facts t
  show V m c main_v16 (((cfg0.win 12).blk t).view.emb (ix2 i j)) = V m c main_v16 (ix2 i j)
  refine congrArg _ (funext fun a => Fin.ext ?_)
  match a with
  | ⟨0, _⟩ => show win0_12.index t (0 : Fin 2) * 4 + 1 * i.val = i.val; omega
  | ⟨1, _⟩ => show win0_12.index t (1 : Fin 2) * 1 + 1 * j.val = j.val; omega

/-- An index of the result array is in point t's block iff its column is in the point's range. -/
theorem mem_blk13 (t : Fin cfg0.N) (i : S4x524288.Idx) :
    i ∈ ((cfg0.win 13).blk t).view.set ↔ ∀ a : Fin 2, win0_13.index t a * S4x8192.size a ≤ (i a).val ∧ (i a).val < win0_13.index t a * S4x8192.size a + S4x8192.size a := by
  show i ∈ ((View.whole main_v17).slice (win0_13.rect t)).set ↔ _
  rw [View.set_slice_whole, Rect.mem_set_unit]
  exact Iff.rfl

/-- The 64 blocks cover the result array: column b lies in the block of point b / 8192. -/
theorem cover13 (i : S4x524288.Idx) : ∃ t : Fin cfg0.N, (cfg0.win 13).flush t = true ∧ i ∈ ((cfg0.win 13).blk t).view.set := by
  have hi0 : (i 0).val < 4 := (i 0).isLt
  have hi1 : (i 1).val < 524288 := (i 1).isLt
  have hN : cfg0.N = 64 := N_0
  refine ⟨⟨(i 1).val / 8192, by rw [hN]; omega⟩, flush0_13 _, ?_⟩
  rw [mem_blk13]
  obtain ⟨e0, e1, -⟩ := idx_facts ⟨(i 1).val / 8192, by rw [hN]; omega⟩
  intro a
  match a with
  | ⟨0, _⟩ => show win0_13.index _ (0 : Fin 2) * 4 ≤ (i 0).val ∧ (i 0).val < win0_13.index _ (0 : Fin 2) * 4 + 4; rw [e0]; omega
  | ⟨1, _⟩ => show win0_13.index _ (1 : Fin 2) * 8192 ≤ (i 1).val ∧ (i 1).val < win0_13.index _ (1 : Fin 2) * 8192 + 8192; rw [e1]; show (i 1).val / 8192 * 8192 ≤ _ ∧ _ < (i 1).val / 8192 * 8192 + 8192; omega

/-- The result block's entry (j, l) at point t is the array's entry (j, 8192 t + l). -/
theorem emb13 (t : Fin cfg0.N) (j : Fin 4) (l : Fin 8192) (r : Fin 524288) (hr : r.val = 8192 * t.val + l.val) :
    ((cfg0.win 13).blk t).view.emb (ix2 j l) = (ix2 j r : S4x524288.Idx) := by
  obtain ⟨e0, e1, -⟩ := idx_facts t
  refine funext fun a => Fin.ext ?_
  match a with
  | ⟨0, _⟩ => show win0_13.index t (0 : Fin 2) * 4 + 1 * j.val = j.val; omega
  | ⟨1, _⟩ => show win0_13.index t (1 : Fin 2) * 8192 + 1 * l.val = r.val; omega

end Cert.KernCover

end
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.KernDense.lean ====
/-
  One dense layer in the kernel's transposed layout, read at an index, at the ideal values.

  The kernel keeps the batch on the lanes: an activation is a matrix [features, lanes].  A layer multiplies the
  transposed weight matrix [m, k] by the activations [k, n] into a zero accumulator and adds the bias, a column [m, 1]
  broadcast along the lanes.  At (j, l) this is the sum over the contracted coordinate c of W(j, c) · X(c, l), plus
  the bias entry of row j.  The changes of float format around the product are the identity at the ideal values.
-/
import Idealize.ShloMosaic.Lib.ValueIdx
import Idealize.ShloMosaic.Lib.Pipeline.Value
import Idealize.ShloMosaic.PureOps.Ideal.Laws
import proofs.«150622_j8847632630356_2_alg».proof.Proof.LibPlainMatmul

open scoped BigOperators

noncomputable section

namespace Cert.KernDense

open Idealize.ShloMosaic Idealize.ShloMosaic.ValueIdx

/-- A column [m, 1] broadcast along the lanes to [m, n], read at (j, l): the column's entry of row j. -/
theorem broadcastTo_col_apply {α : Type} {m n : ℕ} (v : (⟨2, ![m, 1]⟩ : Shape).Idx → α)
    (h : (⟨2, ![m, 1]⟩ : Shape).Broadcasts ⟨2, ![m, n]⟩) (j : Fin m) (l : Fin n) :
    broadcastTo ⟨2, ![m, n]⟩ v h (ix2 j l) = v (ix2 j (0 : Fin 1)) := by
  refine broadcastTo_apply v h _ _ fun a => ?_
  match a with
  | ⟨0, _⟩ =>
    show j.val = if m = 1 then 0 else j.val
    have := j.isLt
    split <;> omega
  | ⟨1, _⟩ =>
    show 0 = if (1 : ℕ) = 1 then 0 else l.val
    rfl

/-- THE LAYER AT (j, l): the sum over the contracted coordinate, plus the bias of row j. -/
theorem denseT_apply {m k n : ℕ}
    (w : DotDims.WF ⟨2, ![m, k]⟩ ⟨2, ![k, n]⟩ ⟨2, ![m, n]⟩ [1] [0] [0] [1] [] [])
    (W : FVec Ideal ⟨2, ![m, k]⟩ .f32) (X : FVec Ideal ⟨2, ![k, n]⟩ .f32) (bias : FVec Ideal ⟨2, ![m, 1]⟩ .f32)
    (hb : (⟨2, ![m, 1]⟩ : Shape).Broadcasts ⟨2, ![m, n]⟩) (hlt : FTy.bits .bf16 < FTy.bits .f32) (j : Fin m) (l : Fin n) :
    addf (matmul (PlainMatmul.dims w) none (truncf .bf16 W hlt) (truncf .bf16 X hlt)
        (constant (F := Ideal) ⟨2, ![m, n]⟩ .f32 0x00000000#32)) (broadcastTo ⟨2, ![m, n]⟩ bias hb) (ix2 j l)
      = (∑ c : Fin k, W (ix2 j c) * X (ix2 c l)) + bias (ix2 j (0 : Fin 1)) := by
  rw [addf_apply, broadcastTo_col_apply]
  congr 1
  exact PlainMatmul.matmul_zero_apply w none _ _ j l

end Cert.KernDense

end
-- ==== Proof.KernPay.lean ====
/-
  The kernel's three matrix-product payloads, read at an index.

  Before the loop the body forms the first layer from the batch block, then (one stored value) the second layer
  and the four angles; after the loop (the other stored value) the layer after the circuit and the four outputs.
  Each is a product of a transposed weight matrix with the activations, plus a bias column, under tanh where the
  layer has one: at (j, l) the sum over the contracted coordinate, plus the bias of row j.
-/
import proofs.«150622_j8847632630356_2_alg».proof.Proof.Gen.KernelIdeal.Skeleton
import proofs.«150622_j8847632630356_2_alg».proof.Proof.Gen.KernelIdeal
import proofs.«150622_j8847632630356_2_alg».proof.Proof.KernDense

open scoped BigOperators

noncomputable section

namespace Cert.KernPay

open Idealize.ShloMosaic Idealize.ShloMosaic.ValueIdx
open Cert.KernelIdeal Cert.KernelIdeal.Gen

/-- A layer under tanh at (j, l). -/
theorem tanhDenseT_apply {m k n : ℕ}
    (w : DotDims.WF ⟨2, ![m, k]⟩ ⟨2, ![k, n]⟩ ⟨2, ![m, n]⟩ [1] [0] [0] [1] [] [])
    (W : FVec Ideal ⟨2, ![m, k]⟩ .f32) (X : FVec Ideal ⟨2, ![k, n]⟩ .f32) (bias : FVec Ideal ⟨2, ![m, 1]⟩ .f32)
    (hb : (⟨2, ![m, 1]⟩ : Shape).Broadcasts ⟨2, ![m, n]⟩) (hlt : FTy.bits .bf16 < FTy.bits .f32) (j : Fin m) (l : Fin n) :
    tanh (addf (matmul (PlainMatmul.dims w) none (truncf .bf16 W hlt) (truncf .bf16 X hlt)
        (constant (F := Ideal) ⟨2, ![m, n]⟩ .f32 0x00000000#32)) (broadcastTo ⟨2, ![m, n]⟩ bias hb)) (ix2 j l)
      = Ideal.tanh ((∑ c : Fin k, W (ix2 j c) * X (ix2 c l)) + bias (ix2 j (0 : Fin 1))) :=
  congrArg Ideal.tanh (Cert.KernDense.denseT_apply w W X bias hb hlt j l)

/-- The first layer from the batch block x0, the transposed weights x1 and the bias column x2. -/
def layer1 (x0 : FVec Ideal S2x8192 .f32) (x1 : FVec Ideal S64x2 .f32) (x2 : FVec Ideal S64x1 .f32) : FVec Ideal S64x8192 .f32 :=
  tanh (addf (matmul dot_S64x2_S2x8192_S64x8192_1_0_0_1_n_n none (truncf .bf16 x1 bitsLt_bf16_f32) (truncf .bf16 x0 bitsLt_bf16_f32)
    (constant S64x8192 .f32 0x00000000#32)) (broadcastTo S64x8192 x2 broadcasts_S64x1_S64x8192))

theorem layer1_apply (x0 : FVec Ideal S2x8192 .f32) (x1 : FVec Ideal S64x2 .f32) (x2 : FVec Ideal S64x1 .f32) (j : Fin 64) (l : Fin 8192) :
    layer1 x0 x1 x2 (ix2 j l) = Ideal.tanh ((∑ c : Fin 2, x1 (ix2 j c) * x0 (ix2 c l)) + x2 (ix2 j (0 : Fin 1))) :=
  tanhDenseT_apply dot_S64x2_S2x8192_S64x8192_1_0_0_1_n_n_wf x1 x0 x2 broadcasts_S64x1_S64x8192 bitsLt_bf16_f32 j l

/-- The stored angles: the second layer of `v31`, then the angle layer. -/
theorem pay1_apply (v7 : FVec Ideal S16x64 .f32) (v9 : FVec Ideal S16x1 .f32) (v11 : FVec Ideal S4x16 .f32) (v13 : FVec Ideal S4x1 .f32)
    (v31 : FVec Ideal S64x8192 .f32) (q : Fin 4) (l : Fin 8192) :
    k0_pay1 v7 v9 v11 v13 v31 (ix2 q l)
      = (∑ c : Fin 16, v11 (ix2 q c) * Ideal.tanh ((∑ c' : Fin 64, v7 (ix2 c c') * v31 (ix2 c' l)) + v9 (ix2 c (0 : Fin 1))))
        + v13 (ix2 q (0 : Fin 1)) := by
  unfold k0_pay1
  show shapeCast S4x8192 (addf (matmul dot_S4x16_S16x8192_S4x8192_1_0_0_1_n_n none (truncf .bf16 v11 bitsLt_bf16_f32)
      (truncf .bf16 (tanh (addf (matmul dot_S16x64_S64x8192_S16x8192_1_0_0_1_n_n none (truncf .bf16 v7 bitsLt_bf16_f32) (truncf .bf16 v31 bitsLt_bf16_f32)
        (constant S16x8192 .f32 0x00000000#32)) (broadcastTo S16x8192 v9 broadcasts_S16x1_S16x8192))) bitsLt_bf16_f32)
      (constant S4x8192 .f32 0x00000000#32)) (broadcastTo S4x8192 v13 broadcasts_S4x1_S4x8192)) shapeCasts_S4x8192_S4x8192 (ix2 q l) = _
  rw [shapeCast_self]
  refine (Cert.KernDense.denseT_apply dot_S4x16_S16x8192_S4x8192_1_0_0_1_n_n_wf v11 _ v13 broadcasts_S4x1_S4x8192 bitsLt_bf16_f32 q l).trans ?_
  congr 1
  refine Finset.sum_congr rfl fun c _ => ?_
  congr 1
  exact tanhDenseT_apply dot_S16x64_S64x8192_S16x8192_1_0_0_1_n_n_wf v7 v31 v9 broadcasts_S16x1_S16x8192 bitsLt_bf16_f32 c l

/-- The stored result: the layer after the circuit of `v47`, then the output layer. -/
theorem pay6_apply (v19 : FVec Ideal S32x4 .f32) (v21 : FVec Ideal S32x1 .f32) (v23 : FVec Ideal S4x32 .f32) (v25 : FVec Ideal S4x1 .f32)
    (v47 : Vec Ideal S4x8192 .f32) (j : Fin 4) (l : Fin 8192) :
    k0_pay6 v19 v21 v23 v25 v47 (ix2 j l)
      = (∑ c : Fin 32, v23 (ix2 j c) * Ideal.tanh ((∑ c' : Fin 4, v19 (ix2 c c') * v47 (ix2 c' l)) + v21 (ix2 c (0 : Fin 1))))
        + v25 (ix2 j (0 : Fin 1)) := by
  unfold k0_pay6
  refine (Cert.KernDense.denseT_apply dot_S4x32_S32x8192_S4x8192_1_0_0_1_n_n_wf v23 _ v25 broadcasts_S4x1_S4x8192 bitsLt_bf16_f32 j l).trans ?_
  congr 1
  refine Finset.sum_congr rfl fun c _ => ?_
  congr 1
  exact tanhDenseT_apply dot_S32x4_S4x8192_S32x8192_1_0_0_1_n_n_wf v19 v47 v21 broadcasts_S32x1_S32x8192 bitsLt_bf16_f32 c l

end Cert.KernPay

end
-- ==== Proof.Circuit.lean ====
/-
  The four-qubit circuit both programs simulate, on the extended reals.

  A state of four qubits with real amplitudes is one number for each assignment of the four bits; bit `a` is
  qubit 0, `b` qubit 1, `c` qubit 2, `d` qubit 3.  A rotation RY of qubit q with cosine `co` and sine `si`
  replaces the pair of amplitudes that differ only in bit q, (x, y), by (co·x − si·y, si·x + co·y).  A controlled
  NOT flips the target bit wherever the control bit is 1.  The read-out of qubit q is the sum of the squared
  amplitudes with bit q = 0 minus the sum of those with bit q = 1.

  The circuit: starting from the basis state 0000, one rotation of each qubit by the sample's own angles, then
  two layers, each a rotation of each qubit by the layer's shared angles followed by the ring of controlled NOTs
  0→1, 1→2, 2→3, 3→0.  Nothing here needs finiteness: only sums, differences and products are formed.
-/
import Idealize.ShloMosaic.PureOps.Ideal

noncomputable section

namespace Cert.Circuit

/-- One amplitude for each assignment of the four bits. -/
abbrev St := Fin 2 → Fin 2 → Fin 2 → Fin 2 → EReal

/-- The basis state 0000. -/
def init : St := fun a b c d => if a = 0 ∧ b = 0 ∧ c = 0 ∧ d = 0 then 1 else 0

/-- The rotated pair's first entry. -/
def rotLo (co si x y : EReal) : EReal := co * x - si * y
/-- The rotated pair's second entry. -/
def rotHi (co si x y : EReal) : EReal := si * x + co * y

/-- RY of qubit 0. -/
def ry0 (co si : EReal) (t : St) : St := fun a b c d =>
  if a = 0 then rotLo co si (t 0 b c d) (t 1 b c d) else rotHi co si (t 0 b c d) (t 1 b c d)
/-- RY of qubit 1. -/
def ry1 (co si : EReal) (t : St) : St := fun a b c d =>
  if b = 0 then rotLo co si (t a 0 c d) (t a 1 c d) else rotHi co si (t a 0 c d) (t a 1 c d)
/-- RY of qubit 2. -/
def ry2 (co si : EReal) (t : St) : St := fun a b c d =>
  if c = 0 then rotLo co si (t a b 0 d) (t a b 1 d) else rotHi co si (t a b 0 d) (t a b 1 d)
/-- RY of qubit 3. -/
def ry3 (co si : EReal) (t : St) : St := fun a b c d =>
  if d = 0 then rotLo co si (t a b c 0) (t a b c 1) else rotHi co si (t a b c 0) (t a b c 1)

/-- CNOT with control 0 and target 1. -/
def cnot01 (t : St) : St := fun a b c d => if a = 1 then t a b.rev c d else t a b c d
/-- CNOT with control 1 and target 2. -/
def cnot12 (t : St) : St := fun a b c d => if b = 1 then t a b c.rev d else t a b c d
/-- CNOT with control 2 and target 3. -/
def cnot23 (t : St) : St := fun a b c d => if c = 1 then t a b c d.rev else t a b c d
/-- CNOT with control 3 and target 0. -/
def cnot30 (t : St) : St := fun a b c d => if d = 1 then t a.rev b c d else t a b c d

/-- The four rotations of one round, qubit 0 first. -/
def rots (co si : Fin 4 → EReal) (t : St) : St :=
  ry3 (co 3) (si 3) (ry2 (co 2) (si 2) (ry1 (co 1) (si 1) (ry0 (co 0) (si 0) t)))

/-- The ring of controlled NOTs. -/
def ring (t : St) : St := cnot30 (cnot23 (cnot12 (cnot01 t)))

/-- The state the circuit ends in: `co si` the sample's cosines and sines, `Co Si` the two layers'. -/
def final (co si : Fin 4 → EReal) (Co Si : Fin 2 → Fin 4 → EReal) : St :=
  ring (rots (Co 1) (Si 1) (ring (rots (Co 0) (Si 0) (rots co si init))))

/-- The squared amplitudes. -/
def sq (t : St) : St := fun a b c d => t a b c d * t a b c d

/-- The read-out of each qubit from the squared amplitudes. -/
def readout (p : St) : Fin 4 → EReal
  | 0 => (∑ b, ∑ c, ∑ d, p 0 b c d) - ∑ b, ∑ c, ∑ d, p 1 b c d
  | 1 => (∑ a, ∑ c, ∑ d, p a 0 c d) - ∑ a, ∑ c, ∑ d, p a 1 c d
  | 2 => (∑ a, ∑ b, ∑ d, p a b 0 d) - ∑ a, ∑ b, ∑ d, p a b 1 d
  | 3 => (∑ a, ∑ b, ∑ c, p a b c 0) - ∑ a, ∑ b, ∑ c, p a b c 1

/-- The circuit's four outputs from the sample's four angles `θ` and the layers' angles `w`: every angle is halved
    before its cosine and sine are taken. -/
def out (θ : Fin 4 → EReal) (w : Fin 2 → Fin 4 → EReal) : Fin 4 → EReal :=
  readout (sq (final (fun q => Idealize.ShloMosaic.Ideal.cos (θ q * ((1 / 2 : ℝ) : EReal)))
    (fun q => Idealize.ShloMosaic.Ideal.sin (θ q * ((1 / 2 : ℝ) : EReal)))
    (fun l q => Idealize.ShloMosaic.Ideal.cos (w l q * ((1 / 2 : ℝ) : EReal)))
    (fun l q => Idealize.ShloMosaic.Ideal.sin (w l q * ((1 / 2 : ℝ) : EReal)))))

end Cert.Circuit

end
-- ==== Proof.Spec.lean ====
/-
  What both programs compute, row by row, on the extended reals.

  For a row r of the batch: a hidden layer of 64 units, tanh(x W1 + b1); a layer of 16 units, tanh(· W2 + b2); four
  angles, · Wp + bp; the four-qubit circuit's four read-outs of those angles and the shared layer angles
  (Circuit.lean); a hidden layer of 32 units, tanh(· V1 + c1); and four outputs, · V2 + c2.  Every matrix product is
  the plain sum over the contracted coordinate of the products of the entries.
-/
import Idealize.ShloMosaic.PureOps.Ideal
import Idealize.ShloMosaic.Lib.ValueIdx
import proofs.«150622_j8847632630356_2_alg».proof.Proof.Circuit

noncomputable section

namespace Cert.Spec

open Idealize.ShloMosaic Idealize.ShloMosaic.ValueIdx

/-- An array of extended reals of the given extents. -/
abbrev Arr2 (a b : Nat) := (⟨2, ![a, b]⟩ : Shape).Idx → EReal
/-- A vector of extended reals of the given extent. -/
abbrev Arr1 (a : Nat) := (⟨1, ![a]⟩ : Shape).Idx → EReal

variable (x : Arr2 524288 2) (w1 : Arr2 2 64) (b1 : Arr1 64) (w2 : Arr2 64 16) (b2 : Arr1 16)
  (wp : Arr2 16 4) (bp : Arr1 4) (qw : Arr2 2 4) (v1 : Arr2 4 32) (c1 : Arr1 32) (v2 : Arr2 32 4) (c2 : Arr1 4)

/-- Unit j of the first hidden layer of row r. -/
def enc1 (r : Fin 524288) (j : Fin 64) : EReal :=
  Ideal.tanh ((∑ k : Fin 2, x (ix2 r k) * w1 (ix2 k j)) + b1 (ix1 j))

/-- Unit j of the second hidden layer of row r. -/
def enc2 (r : Fin 524288) (j : Fin 16) : EReal :=
  Ideal.tanh ((∑ k : Fin 64, enc1 x w1 b1 r k * w2 (ix2 k j)) + b2 (ix1 j))

/-- Angle q of row r. -/
def angle (r : Fin 524288) (q : Fin 4) : EReal :=
  (∑ k : Fin 16, enc2 x w1 b1 w2 b2 r k * wp (ix2 k q)) + bp (ix1 q)

/-- Read-out q of the circuit at row r. -/
def qout (r : Fin 524288) (q : Fin 4) : EReal :=
  Cert.Circuit.out (fun q' => angle x w1 b1 w2 b2 wp bp r q') (fun l q' => qw (ix2 l q')) q

/-- Unit j of the last hidden layer of row r. -/
def hid (r : Fin 524288) (j : Fin 32) : EReal :=
  Ideal.tanh ((∑ k : Fin 4, qout x w1 b1 w2 b2 wp bp qw r k * v1 (ix2 k j)) + c1 (ix1 j))

/-- The result array: output j of row r. -/
def G : Arr2 524288 4 := fun i =>
  (∑ k : Fin 32, hid x w1 b1 w2 b2 wp bp qw v1 c1 (i 0) k * v2 (ix2 k (i 1))) + c2 (ix1 (i 1))

end Cert.Spec

end
-- ==== Proof.Consts.lean ====
/-
  The float constants the two programs spell, as the extended reals they denote: the kernel halves an angle by
  multiplying it with 0.5, the reference by dividing it by 2.0; on the extended reals the two are one operation.
-/
import Idealize.ShloMosaic.PureOps.Ideal

noncomputable section

namespace Cert.Consts

open Idealize.ShloMosaic

/-- `0.5` denotes the real one half. -/
theorem ofBits_half : Ideal.ofBits .f32 0x3F000000#32 = ((1 / 2 : ℝ) : EReal) := by
  simp [Ideal.ofBits, Ideal.ieee, -EReal.coe_mul]; norm_num

/-- `2.0` denotes the real two. -/
theorem ofBits_two : Ideal.ofBits .f32 0x40000000#32 = ((2 : ℝ) : EReal) := by
  simp [Ideal.ofBits, Ideal.ieee, -EReal.coe_mul]; norm_num

/-- Dividing by `2.0` is multiplying by one half, at every extended real. -/
theorem div_two (x : EReal) : Ideal.div x (Ideal.ofBits .f32 0x40000000#32) = x * ((1 / 2 : ℝ) : EReal) := by
  rw [ofBits_two]; exact Ideal.div_coe (by norm_num) x

end Cert.Consts

end
-- ==== Proof.KernBlock.lean ====
/-
  What the kernel computes on one block of 8192 lanes, and why it is the specification's rows.

  The kernel holds the batch on the lanes.  From the block x0 [2, 8192] of the transposed batch and the transposed
  weights, bias columns and cosine and sine tables it forms, lane by lane l, the same chain of layers as the
  specification forms row by row, with the factors of each product in the other order (weight first).  If lane l of
  the block is row r of the batch, the transposed arrays are the transposes, the columns are the biases and the
  tables are the cosines and sines of half the shared angles, then entry (j, l) of the block's result is entry
  (r, j) of the specification: the only laws used are commutativity of the product under each sum, and that the
  constant 0.5 is the real one half.
-/
import Idealize.ShloMosaic.PureOps.Ideal
import Idealize.ShloMosaic.Lib.ValueIdx
import proofs.«150622_j8847632630356_2_alg».proof.Proof.Circuit
import proofs.«150622_j8847632630356_2_alg».proof.Proof.Spec
import proofs.«150622_j8847632630356_2_alg».proof.Proof.Consts

open scoped BigOperators

noncomputable section

namespace Cert.KernBlock

open Idealize.ShloMosaic Idealize.ShloMosaic.ValueIdx Cert.Spec

/-- The constant the kernel halves an angle with. -/
abbrev half : EReal := Ideal.ofBits .f32 0x3F000000#32

variable (x0 : Arr2 2 8192) (x1 : Arr2 64 2) (x2 : Arr2 64 1) (x3 : Arr2 16 64) (x4 : Arr2 16 1) (x5 : Arr2 4 16)
  (x6 : Arr2 4 1) (x7 x8 : Arr2 2 4) (x9 : Arr2 32 4) (x10 : Arr2 32 1) (x11 : Arr2 4 32) (x12 : Arr2 4 1)

/-- Unit j of the first layer at lane l. -/
def z1 (j : Fin 64) (l : Fin 8192) : EReal :=
  Ideal.tanh ((∑ c : Fin 2, x1 (ix2 j c) * x0 (ix2 c l)) + x2 (ix2 j (0 : Fin 1)))

/-- Unit j of the second layer at lane l. -/
def z2 (j : Fin 16) (l : Fin 8192) : EReal :=
  Ideal.tanh ((∑ c : Fin 64, x3 (ix2 j c) * z1 x0 x1 x2 c l) + x4 (ix2 j (0 : Fin 1)))

/-- Angle q at lane l. -/
def qin (q : Fin 4) (l : Fin 8192) : EReal :=
  (∑ c : Fin 16, x5 (ix2 q c) * z2 x0 x1 x2 x3 x4 c l) + x6 (ix2 q (0 : Fin 1))

/-- The circuit's read-out q from four angles and the two tables. -/
def circ (θ : Fin 4 → EReal) (q : Fin 4) : EReal :=
  Cert.Circuit.readout (Cert.Circuit.sq (Cert.Circuit.final (fun q' => Ideal.cos (θ q' * half))
    (fun q' => Ideal.sin (θ q' * half)) (fun l' q' => x7 (ix2 l' q')) (fun l' q' => x8 (ix2 l' q')))) q

/-- Read-out q at lane l. -/
def qout (q : Fin 4) (l : Fin 8192) : EReal :=
  circ x7 x8 (fun q' => qin x0 x1 x2 x3 x4 x5 x6 q' l) q

/-- Unit j of the layer after the circuit at lane l. -/
def hid (j : Fin 32) (l : Fin 8192) : EReal :=
  Ideal.tanh ((∑ c : Fin 4, x9 (ix2 j c) * qout x0 x1 x2 x3 x4 x5 x6 x7 x8 c l) + x10 (ix2 j (0 : Fin 1)))

/-- Output j at lane l. -/
def outB (j : Fin 4) (l : Fin 8192) : EReal :=
  (∑ c : Fin 32, x11 (ix2 j c) * hid x0 x1 x2 x3 x4 x5 x6 x7 x8 x9 x10 c l) + x12 (ix2 j (0 : Fin 1))

variable (x : Arr2 524288 2) (w1 : Arr2 2 64) (b1 : Arr1 64) (w2 : Arr2 64 16) (b2 : Arr1 16)
  (wp : Arr2 16 4) (bp : Arr1 4) (qw : Arr2 2 4) (v1 : Arr2 4 32) (c1 : Arr1 32) (v2 : Arr2 32 4) (c2 : Arr1 4)

/-- THE BLOCK IS THE SPECIFICATION'S ROWS: lane l is row r. -/
theorem outB_eq_G (r : Fin 524288) (l : Fin 8192)
    (h0 : ∀ c : Fin 2, x0 (ix2 c l) = x (ix2 r c))
    (h1 : ∀ (j : Fin 64) (c : Fin 2), x1 (ix2 j c) = w1 (ix2 c j)) (h2 : ∀ j : Fin 64, x2 (ix2 j (0 : Fin 1)) = b1 (ix1 j))
    (h3 : ∀ (j : Fin 16) (c : Fin 64), x3 (ix2 j c) = w2 (ix2 c j)) (h4 : ∀ j : Fin 16, x4 (ix2 j (0 : Fin 1)) = b2 (ix1 j))
    (h5 : ∀ (q : Fin 4) (c : Fin 16), x5 (ix2 q c) = wp (ix2 c q)) (h6 : ∀ q : Fin 4, x6 (ix2 q (0 : Fin 1)) = bp (ix1 q))
    (h7 : ∀ (l' : Fin 2) (q : Fin 4), x7 (ix2 l' q) = Ideal.cos (qw (ix2 l' q) * half))
    (h8 : ∀ (l' : Fin 2) (q : Fin 4), x8 (ix2 l' q) = Ideal.sin (qw (ix2 l' q) * half))
    (h9 : ∀ (j : Fin 32) (c : Fin 4), x9 (ix2 j c) = v1 (ix2 c j)) (h10 : ∀ j : Fin 32, x10 (ix2 j (0 : Fin 1)) = c1 (ix1 j))
    (h11 : ∀ (j : Fin 4) (c : Fin 32), x11 (ix2 j c) = v2 (ix2 c j)) (h12 : ∀ j : Fin 4, x12 (ix2 j (0 : Fin 1)) = c2 (ix1 j))
    (j : Fin 4) :
    outB x0 x1 x2 x3 x4 x5 x6 x7 x8 x9 x10 x11 x12 j l = G x w1 b1 w2 b2 wp bp qw v1 c1 v2 c2 (ix2 r j) := by
  have e1 : ∀ j, z1 x0 x1 x2 j l = enc1 x w1 b1 r j := fun j => by
    unfold z1 enc1
    rw [h2]
    congr 2
    exact Finset.sum_congr rfl fun c _ => by rw [h1, h0, mul_comm]
  have e2 : ∀ j, z2 x0 x1 x2 x3 x4 j l = enc2 x w1 b1 w2 b2 r j := fun j => by
    unfold z2 enc2
    rw [h4]
    congr 2
    exact Finset.sum_congr rfl fun c _ => by rw [h3, e1, mul_comm]
  have e3 : ∀ q, qin x0 x1 x2 x3 x4 x5 x6 q l = angle x w1 b1 w2 b2 wp bp r q := fun q => by
    unfold qin angle
    rw [h6]
    congr 1
    exact Finset.sum_congr rfl fun c _ => by rw [h5, e2, mul_comm]
  have e4 : ∀ q, qout x0 x1 x2 x3 x4 x5 x6 x7 x8 q l = Cert.Spec.qout x w1 b1 w2 b2 wp bp qw r q := fun q => by
    unfold qout circ Cert.Spec.qout Cert.Circuit.out
    simp only [e3, h7, h8, half, Cert.Consts.ofBits_half]
  have e5 : ∀ j, hid x0 x1 x2 x3 x4 x5 x6 x7 x8 x9 x10 j l = Cert.Spec.hid x w1 b1 w2 b2 wp bp qw v1 c1 r j := fun j => by
    unfold hid Cert.Spec.hid
    rw [h10]
    congr 2
    exact Finset.sum_congr rfl fun c _ => by rw [h9, e4, mul_comm]
  unfold outB G
  rw [h12]
  congr 1
  exact Finset.sum_congr rfl fun c _ => by rw [h11, e5, mul_comm]

end Cert.KernBlock

end
-- ==== Proof.ChunkSteps.lean ====
/-
  One rotation of the four-qubit circuit, read on a table of sixteen numbers.

  A state is a table `K` of one extended real for each assignment of the four bits.  If a second table `K'` holds, at
  every pair of assignments that differ only in bit q, the rotated pair of `K`'s two entries, then `K'` is the rotation
  RY of qubit q applied to `K`.  The read-out of a table of squares is, for each qubit, eight entries added in increasing
  order of the assignment minus the other eight added in the same order.
-/
import proofs.«150622_j8847632630356_2_alg».proof.Proof.Circuit

noncomputable section

namespace Cert.Chunk

open Cert.Circuit

/-- A table holding the rotated pairs along bit 0 is RY of qubit 0. -/
theorem step0 (co si : EReal) (K K' : St)
    (h : ∀ b c d, K' 0 b c d = rotLo co si (K 0 b c d) (K 1 b c d) ∧
      K' 1 b c d = rotHi co si (K 0 b c d) (K 1 b c d)) : K' = ry0 co si K := by
  funext a b c d
  match a with
  | ⟨0, _⟩ => exact (h b c d).1
  | ⟨1, _⟩ => exact (h b c d).2

/-- A table holding the rotated pairs along bit 1 is RY of qubit 1. -/
theorem step1 (co si : EReal) (K K' : St)
    (h : ∀ a c d, K' a 0 c d = rotLo co si (K a 0 c d) (K a 1 c d) ∧
      K' a 1 c d = rotHi co si (K a 0 c d) (K a 1 c d)) : K' = ry1 co si K := by
  funext a b c d
  match b with
  | ⟨0, _⟩ => exact (h a c d).1
  | ⟨1, _⟩ => exact (h a c d).2

/-- A table holding the rotated pairs along bit 2 is RY of qubit 2. -/
theorem step2 (co si : EReal) (K K' : St)
    (h : ∀ a b d, K' a b 0 d = rotLo co si (K a b 0 d) (K a b 1 d) ∧
      K' a b 1 d = rotHi co si (K a b 0 d) (K a b 1 d)) : K' = ry2 co si K := by
  funext a b c d
  match c with
  | ⟨0, _⟩ => exact (h a b d).1
  | ⟨1, _⟩ => exact (h a b d).2

/-- A table holding the rotated pairs along bit 3 is RY of qubit 3. -/
theorem step3 (co si : EReal) (K K' : St)
    (h : ∀ a b c, K' a b c 0 = rotLo co si (K a b c 0) (K a b c 1) ∧
      K' a b c 1 = rotHi co si (K a b c 0) (K a b c 1)) : K' = ry3 co si K := by
  funext a b c d
  match d with
  | ⟨0, _⟩ => exact (h a b c).1
  | ⟨1, _⟩ => exact (h a b c).2

/-- Qubit 0's read-out: the eight entries with bit 0 clear, added left to right, minus the other eight. -/
theorem readout_zero (p : St) : readout p 0 =
    (p 0 0 0 0 + p 0 0 0 1 + p 0 0 1 0 + p 0 0 1 1 + p 0 1 0 0 + p 0 1 0 1 + p 0 1 1 0 + p 0 1 1 1)
      - (p 1 0 0 0 + p 1 0 0 1 + p 1 0 1 0 + p 1 0 1 1 + p 1 1 0 0 + p 1 1 0 1 + p 1 1 1 0 + p 1 1 1 1) := by
  show (∑ b, ∑ c, ∑ d, p 0 b c d) - (∑ b, ∑ c, ∑ d, p 1 b c d) = _
  simp only [Fin.sum_univ_two, add_assoc]

/-- Qubit 1's read-out. -/
theorem readout_one (p : St) : readout p 1 =
    (p 0 0 0 0 + p 0 0 0 1 + p 0 0 1 0 + p 0 0 1 1 + p 1 0 0 0 + p 1 0 0 1 + p 1 0 1 0 + p 1 0 1 1)
      - (p 0 1 0 0 + p 0 1 0 1 + p 0 1 1 0 + p 0 1 1 1 + p 1 1 0 0 + p 1 1 0 1 + p 1 1 1 0 + p 1 1 1 1) := by
  show (∑ a, ∑ c, ∑ d, p a 0 c d) - (∑ a, ∑ c, ∑ d, p a 1 c d) = _
  simp only [Fin.sum_univ_two, add_assoc]

/-- Qubit 2's read-out. -/
theorem readout_two (p : St) : readout p 2 =
    (p 0 0 0 0 + p 0 0 0 1 + p 0 1 0 0 + p 0 1 0 1 + p 1 0 0 0 + p 1 0 0 1 + p 1 1 0 0 + p 1 1 0 1)
      - (p 0 0 1 0 + p 0 0 1 1 + p 0 1 1 0 + p 0 1 1 1 + p 1 0 1 0 + p 1 0 1 1 + p 1 1 1 0 + p 1 1 1 1) := by
  show (∑ a, ∑ b, ∑ d, p a b 0 d) - (∑ a, ∑ b, ∑ d, p a b 1 d) = _
  simp only [Fin.sum_univ_two, add_assoc]

/-- Qubit 3's read-out. -/
theorem readout_three (p : St) : readout p 3 =
    (p 0 0 0 0 + p 0 0 1 0 + p 0 1 0 0 + p 0 1 1 0 + p 1 0 0 0 + p 1 0 1 0 + p 1 1 0 0 + p 1 1 1 0)
      - (p 0 0 0 1 + p 0 0 1 1 + p 0 1 0 1 + p 0 1 1 1 + p 1 0 0 1 + p 1 0 1 1 + p 1 1 0 1 + p 1 1 1 1) := by
  show (∑ a, ∑ b, ∑ c, p a b c 0) - (∑ a, ∑ b, ∑ c, p a b c 1) = _
  simp only [Fin.sum_univ_two, add_assoc]

end Cert.Chunk

end
-- ==== Proof.ChunkTables.lean ====
/-
  The sixteen amplitudes after each rotation of the in-loop circuit, at one lane.

  The loop's trip computes, on vectors of 1024 lanes, the sixteen amplitudes of the four-qubit state after each of the
  twelve rotations; a controlled NOT is only a choice of which earlier vectors a later rotation reads.  For a lane `l`
  this module names, per rotation, the table of the sixteen vectors' entries at `l`, indexed by the four bits (bit a is
  qubit 0; the vector of channel 8a + 4b + 2c + d holds the amplitude of the assignment a b c d), and the cosines and
  sines the rotations use: the sample's own (one per lane) and the two layers' (scalars read off the two 2 × 4 tables).
-/
import proofs.«150622_j8847632630356_2_alg».proof.Proof.Gen.KernelIdeal.Loops
import proofs.«150622_j8847632630356_2_alg».proof.Proof.Circuit
import Idealize.ShloMosaic.Lib.ValueIdx

noncomputable section

namespace Cert.Chunk

open Idealize.ShloMosaic Idealize.ShloMosaic.ValueIdx
open Cert.KernelIdeal Cert.KernelIdeal.Gen Cert.Circuit

open Lean in
local macro "Ra" n:num : term =>
  `($(mkIdent (Name.mkStr `Cert.KernelIdeal.Gen.trip_k0_t1.sl s!"r_{n.getNat}")) $(mkIdent `arg15) $(mkIdent `X_arg15) $(mkIdent `k))
open Lean in
local macro "Rb" n:num : term =>
  `($(mkIdent (Name.mkStr `Cert.KernelIdeal.Gen.trip_k0_t1.sl s!"r_{n.getNat}")) $(mkIdent `arg15) $(mkIdent `v15) $(mkIdent `v17) $(mkIdent `X_arg15) $(mkIdent `k))
open Lean in
local macro "Rc" n:num : term =>
  `($(mkIdent (Name.mkStr `Cert.KernelIdeal.Gen.trip_k0_t1.sl s!"r_{n.getNat}")) $(mkIdent `arg15) $(mkIdent `v15) $(mkIdent `X_arg15) $(mkIdent `k))

variable (arg15 : Memref sig .tc .vmem S4x8192 .f32) (v15 v17 : FVec Ideal S2x4 .f32)
  (X_arg15 : BufTy.Contents (Elt Ideal) arg15.view.ty) (k : Fin k0_t1_loop.trips) (l : Fin 1024)

/-- The chunk of angles the trip loads: four rows of 1024 lanes. -/
abbrev xin : Vec Ideal S4x1024 .f32 := trip_k0_t1.sl.r arg15 X_arg15 k

/-- The cosines of the sample's four half angles at lane `l`, as the trip computes them. -/
def coS : Fin 4 → EReal := ![(Ra 1) (ix1 l), (Ra 17) (ix1 l), (Ra 35) (ix1 l), (Ra 53) (ix1 l)]
/-- The sines of the sample's four half angles at lane `l`, as the trip computes them. -/
def siS : Fin 4 → EReal := ![(Ra 2) (ix1 l), (Ra 18) (ix1 l), (Ra 36) (ix1 l), (Ra 54) (ix1 l)]
/-- The two layers' cosines, as the trip reads them off the cosine table. -/
def coL : Fin 2 → Fin 4 → EReal :=
  ![![k0_pay88 v15, k0_pay108 v15, k0_pay128 v15, k0_pay146 v15],
    ![k0_pay165 v15, k0_pay185 v15, k0_pay205 v15, k0_pay225 v15]]
/-- The two layers' sines, as the trip reads them off the sine table. -/
def siL : Fin 2 → Fin 4 → EReal :=
  ![![k0_pay89 v17, k0_pay109 v17, k0_pay129 v17, k0_pay147 v17],
    ![k0_pay166 v17, k0_pay186 v17, k0_pay206 v17, k0_pay226 v17]]

/-- The starting amplitudes: the vector of ones for the assignment 0000, the vector of zeros for the others. -/
def G0 : St := fun a b c d =>
  ![![![![(k0_pay8 (F := Ideal)) (ix1 l), (k0_pay7 (F := Ideal)) (ix1 l)],
        ![(k0_pay7 (F := Ideal)) (ix1 l), (k0_pay7 (F := Ideal)) (ix1 l)]],
      ![![(k0_pay7 (F := Ideal)) (ix1 l), (k0_pay7 (F := Ideal)) (ix1 l)],
        ![(k0_pay7 (F := Ideal)) (ix1 l), (k0_pay7 (F := Ideal)) (ix1 l)]]],
    ![![![(k0_pay7 (F := Ideal)) (ix1 l), (k0_pay7 (F := Ideal)) (ix1 l)],
        ![(k0_pay7 (F := Ideal)) (ix1 l), (k0_pay7 (F := Ideal)) (ix1 l)]],
      ![![(k0_pay7 (F := Ideal)) (ix1 l), (k0_pay7 (F := Ideal)) (ix1 l)],
        ![(k0_pay7 (F := Ideal)) (ix1 l), (k0_pay7 (F := Ideal)) (ix1 l)]]]] a b c d

/-- The amplitudes after rotation 1: RY of qubit 0 by the sample's angle. -/
def G1 : St := fun a b c d =>
  ![![![![(Ra 3) (ix1 l), (Ra 5) (ix1 l)],
        ![(Ra 7) (ix1 l), (Ra 9) (ix1 l)]],
      ![![(Ra 11) (ix1 l), (Ra 13) (ix1 l)],
        ![(Ra 15) (ix1 l), (k0_pay26 (k0_pay7 (F := Ideal)) (Ra 1) (Ra 2)) (ix1 l)]]],
    ![![![(Ra 4) (ix1 l), (Ra 6) (ix1 l)],
        ![(Ra 8) (ix1 l), (Ra 10) (ix1 l)]],
      ![![(Ra 12) (ix1 l), (Ra 14) (ix1 l)],
        ![(k0_pay25 (k0_pay7 (F := Ideal)) (Ra 1) (Ra 2)) (ix1 l), (Ra 16) (ix1 l)]]]] a b c d

/-- The amplitudes after rotation 2: RY of qubit 1 by the sample's angle. -/
def G2 : St := fun a b c d =>
  ![![![![(Ra 19) (ix1 l), (Ra 21) (ix1 l)],
        ![(Ra 23) (ix1 l), (Ra 25) (ix1 l)]],
      ![![(Ra 20) (ix1 l), (Ra 22) (ix1 l)],
        ![(Ra 24) (ix1 l), (Ra 26) (ix1 l)]]],
    ![![![(Ra 27) (ix1 l), (Ra 29) (ix1 l)],
        ![(Ra 31) (ix1 l), (k0_pay47 (Ra 10) (Ra 16) (Ra 17) (Ra 18)) (ix1 l)]],
      ![![(Ra 28) (ix1 l), (Ra 30) (ix1 l)],
        ![(k0_pay46 (Ra 32) (Ra 33)) (ix1 l), (Ra 34) (ix1 l)]]]] a b c d

/-- The amplitudes after rotation 3: RY of qubit 2 by the sample's angle. -/
def G3 : St := fun a b c d =>
  ![![![![(Ra 37) (ix1 l), (Ra 39) (ix1 l)],
        ![(Ra 38) (ix1 l), (Ra 40) (ix1 l)]],
      ![![(Ra 41) (ix1 l), (Ra 43) (ix1 l)],
        ![(Ra 42) (ix1 l), (Ra 44) (ix1 l)]]],
    ![![![(Ra 45) (ix1 l), (Ra 47) (ix1 l)],
        ![(Ra 46) (ix1 l), (Ra 48) (ix1 l)]],
      ![![(Ra 49) (ix1 l), (k0_pay67 (Ra 34) (Ra 36) (Ra 51)) (ix1 l)],
        ![(Ra 50) (ix1 l), (Ra 52) (ix1 l)]]]] a b c d

/-- The amplitudes after rotation 4: RY of qubit 3 by the sample's angle. -/
def G4 : St := fun a b c d =>
  ![![![![(Ra 55) (ix1 l), (Ra 56) (ix1 l)],
        ![(Ra 57) (ix1 l), (Ra 58) (ix1 l)]],
      ![![(Ra 59) (ix1 l), (Ra 60) (ix1 l)],
        ![(Ra 61) (ix1 l), (Ra 62) (ix1 l)]]],
    ![![![(Ra 63) (ix1 l), (Ra 64) (ix1 l)],
        ![(Ra 65) (ix1 l), (Ra 66) (ix1 l)]],
      ![![(Ra 67) (ix1 l), (Ra 68) (ix1 l)],
        ![(Ra 69) (ix1 l), (Ra 70) (ix1 l)]]]] a b c d

/-- The amplitudes after rotation 5: RY of qubit 0 by the first layer's angle. -/
def G5 : St := fun a b c d =>
  ![![![![(Rb 71) (ix1 l), (Rb 73) (ix1 l)],
        ![(Rb 75) (ix1 l), (Rb 77) (ix1 l)]],
      ![![(Rb 79) (ix1 l), (k0_pay102 (Ra 68) (Rc 81) (k0_pay101 v17)) (ix1 l)],
        ![(k0_pay104 (Ra 61) (Ra 69) (k0_pay88 v15) (k0_pay89 v17)) (ix1 l), (Rb 84) (ix1 l)]]],
    ![![![(Rb 72) (ix1 l), (Rb 74) (ix1 l)],
        ![(Rb 76) (ix1 l), (Rb 78) (ix1 l)]],
      ![![(Rb 80) (ix1 l), (Rb 82) (ix1 l)],
        ![(Rb 83) (ix1 l), (Rb 85) (ix1 l)]]]] a b c d

/-- The amplitudes after rotation 6: RY of qubit 1 by the first layer's angle. -/
def G6 : St := fun a b c d =>
  ![![![![(Rb 86) (ix1 l), (Rb 88) (ix1 l)],
        ![(Rb 90) (ix1 l), (Rb 94) (ix1 l)]],
      ![![(Rb 87) (ix1 l), (Rb 89) (ix1 l)],
        ![(Rb 93) (ix1 l), (Rb 95) (ix1 l)]]],
    ![![![(Rb 96) (ix1 l), (Rb 98) (ix1 l)],
        ![(Rb 100) (ix1 l), (Rb 102) (ix1 l)]],
      ![![(Rb 97) (ix1 l), (Rb 99) (ix1 l)],
        ![(Rb 101) (ix1 l), (Rb 103) (ix1 l)]]]] a b c d

/-- The amplitudes after rotation 7: RY of qubit 2 by the first layer's angle. -/
def G7 : St := fun a b c d =>
  ![![![![(Rb 104) (ix1 l), (Rb 106) (ix1 l)],
        ![(Rb 105) (ix1 l), (Rb 107) (ix1 l)]],
      ![![(Rb 108) (ix1 l), (Rb 110) (ix1 l)],
        ![(Rb 109) (ix1 l), (Rb 111) (ix1 l)]]],
    ![![![(Rb 112) (ix1 l), (Rb 114) (ix1 l)],
        ![(Rb 113) (ix1 l), (Rb 115) (ix1 l)]],
      ![![(Rb 116) (ix1 l), (Rb 118) (ix1 l)],
        ![(Rb 117) (ix1 l), (Rb 119) (ix1 l)]]]] a b c d

/-- The amplitudes after rotation 8: RY of qubit 3 by the first layer's angle. -/
def G8 : St := fun a b c d =>
  ![![![![(Rb 120) (ix1 l), (Rb 121) (ix1 l)],
        ![(Rb 122) (ix1 l), (Rb 123) (ix1 l)]],
      ![![(Rb 124) (ix1 l), (Rb 125) (ix1 l)],
        ![(Rb 126) (ix1 l), (Rb 127) (ix1 l)]]],
    ![![![(Rb 128) (ix1 l), (Rb 129) (ix1 l)],
        ![(Rb 130) (ix1 l), (Rb 131) (ix1 l)]],
      ![![(k0_pay161 (Rb 116) (Rb 118) (k0_pay146 v15) (k0_pay147 v17)) (ix1 l), (k0_pay162 (Rb 116) (Rb 118) (k0_pay146 v15) (k0_pay147 v17)) (ix1 l)],
        ![(Rb 132) (ix1 l), (Rb 133) (ix1 l)]]]] a b c d

/-- The amplitudes after rotation 9: RY of qubit 0 by the second layer's angle, taken from the first ring's output. -/
def G9 : St := fun a b c d =>
  ![![![![(Rb 134) (ix1 l), (Rb 136) (ix1 l)],
        ![(Rb 139) (ix1 l), (Rb 141) (ix1 l)]],
      ![![(Rb 143) (ix1 l), (Rb 145) (ix1 l)],
        ![(Rb 147) (ix1 l), (Rb 149) (ix1 l)]]],
    ![![![(Rb 135) (ix1 l), (Rb 138) (ix1 l)],
        ![(Rb 140) (ix1 l), (Rb 142) (ix1 l)]],
      ![![(Rb 144) (ix1 l), (Rb 146) (ix1 l)],
        ![(Rb 148) (ix1 l), (Rb 151) (ix1 l)]]]] a b c d

/-- The amplitudes after rotation 10: RY of qubit 1 by the second layer's angle. -/
def G10 : St := fun a b c d =>
  ![![![![(Rb 152) (ix1 l), (Rb 154) (ix1 l)],
        ![(Rb 156) (ix1 l), (Rb 158) (ix1 l)]],
      ![![(Rb 153) (ix1 l), (Rb 155) (ix1 l)],
        ![(Rb 157) (ix1 l), (Rb 159) (ix1 l)]]],
    ![![![(Rb 160) (ix1 l), (Rb 163) (ix1 l)],
        ![(Rb 165) (ix1 l), (Rb 167) (ix1 l)]],
      ![![(Rb 161) (ix1 l), (Rb 164) (ix1 l)],
        ![(Rb 166) (ix1 l), (Rb 168) (ix1 l)]]]] a b c d

/-- The amplitudes after rotation 11: RY of qubit 2 by the second layer's angle. -/
def G11 : St := fun a b c d =>
  ![![![![(Rb 169) (ix1 l), (Rb 171) (ix1 l)],
        ![(Rb 170) (ix1 l), (Rb 172) (ix1 l)]],
      ![![(Rb 173) (ix1 l), (Rb 177) (ix1 l)],
        ![(Rb 176) (ix1 l), (Rb 178) (ix1 l)]]],
    ![![![(Rb 179) (ix1 l), (Rb 181) (ix1 l)],
        ![(Rb 180) (ix1 l), (Rb 182) (ix1 l)]],
      ![![(Rb 183) (ix1 l), (Rb 185) (ix1 l)],
        ![(Rb 184) (ix1 l), (Rb 186) (ix1 l)]]]] a b c d

/-- The amplitudes after rotation 12: RY of qubit 3 by the second layer's angle. -/
def G12 : St := fun a b c d =>
  ![![![![(Rb 187) (ix1 l), (Rb 188) (ix1 l)],
        ![(Rb 189) (ix1 l), (Rb 190) (ix1 l)]],
      ![![(Rb 191) (ix1 l), (Rb 192) (ix1 l)],
        ![(Rb 193) (ix1 l), (Rb 194) (ix1 l)]]],
    ![![![(Rb 195) (ix1 l), (Rb 196) (ix1 l)],
        ![(Rb 197) (ix1 l), (Rb 198) (ix1 l)]],
      ![![(Rb 199) (ix1 l), (addf (mulf (broadcast S1024 (k0_pay226 v17)) (Rb 183)) (mulf (broadcast S1024 (k0_pay225 v15)) (Rb 185))) (ix1 l)],
        ![(subf (mulf (broadcast S1024 (k0_pay225 v15)) (Rb 184)) (mulf (broadcast S1024 (k0_pay226 v17)) (Rb 186))) (ix1 l), (addf (mulf (broadcast S1024 (k0_pay226 v17)) (Rb 184)) (mulf (broadcast S1024 (k0_pay225 v15)) (Rb 186))) (ix1 l)]]]] a b c d

end Cert.Chunk

end
-- ==== Proof.ChunkSample.lean ====
/-
  The sample's four rotations, at one lane.

  Each of the sixteen vectors the trip forms for a rotation is, at a lane, the rotated pair's first or second entry of two
  of the vectors before it: the products and the difference or sum are taken entry by entry.  So the table after each
  rotation is that rotation of the table before it; the first table is the basis state 0000, the vectors of ones and zeros.
-/
import proofs.«150622_j8847632630356_2_alg».proof.Proof.ChunkSteps
import proofs.«150622_j8847632630356_2_alg».proof.Proof.ChunkTables
import Idealize.ShloMosaic.Lib.IdealHost

noncomputable section

namespace Cert.Chunk

open Idealize.ShloMosaic Idealize.ShloMosaic.ValueIdx
open Cert.KernelIdeal Cert.KernelIdeal.Gen Cert.Circuit

variable (arg15 : Memref sig .tc .vmem S4x8192 .f32) (v15 v17 : FVec Ideal S2x4 .f32)
  (X_arg15 : BufTy.Contents (Elt Ideal) arg15.view.ty) (k : Fin k0_t1_loop.trips) (l : Fin 1024)

/-- The starting table is the basis state 0000: the constant vectors are one and zero. -/
theorem g0 : G0 l = init := by
  funext a b c d
  fin_cases a <;> fin_cases b <;> fin_cases c <;> fin_cases d <;>
    first
      | exact Ideal.ofBits_one_f32
      | exact Ideal.ofBits_zero_f32

/-- Rotation 1 is RY of qubit 0 on the starting table. -/
theorem g1 : G1 arg15 X_arg15 k l = ry0 (coS arg15 X_arg15 k l 0) (siS arg15 X_arg15 k l 0) (G0 l) :=
  step0 _ _ _ _ (by
    intro b c d
    fin_cases b <;> fin_cases c <;> fin_cases d <;> exact ⟨rfl, rfl⟩)

/-- Rotation 2 is RY of qubit 1. -/
theorem g2 : G2 arg15 X_arg15 k l = ry1 (coS arg15 X_arg15 k l 1) (siS arg15 X_arg15 k l 1) (G1 arg15 X_arg15 k l) :=
  step1 _ _ _ _ (by
    intro a c d
    fin_cases a <;> fin_cases c <;> fin_cases d <;> exact ⟨rfl, rfl⟩)

/-- Rotation 3 is RY of qubit 2. -/
theorem g3 : G3 arg15 X_arg15 k l = ry2 (coS arg15 X_arg15 k l 2) (siS arg15 X_arg15 k l 2) (G2 arg15 X_arg15 k l) :=
  step2 _ _ _ _ (by
    intro a b d
    fin_cases a <;> fin_cases b <;> fin_cases d <;> exact ⟨rfl, rfl⟩)

/-- Rotation 4 is RY of qubit 3. -/
theorem g4 : G4 arg15 X_arg15 k l = ry3 (coS arg15 X_arg15 k l 3) (siS arg15 X_arg15 k l 3) (G3 arg15 X_arg15 k l) :=
  step3 _ _ _ _ (by
    intro a b c
    fin_cases a <;> fin_cases b <;> fin_cases c <;> exact ⟨rfl, rfl⟩)

end Cert.Chunk

end
-- ==== Proof.ChunkLayer0.lean ====
/-
  The first layer's four rotations, at one lane.

  The layer's cosines and sines are scalars spread over the lanes; otherwise each vector is again the rotated pair's
  first or second entry of two earlier vectors.
-/
import proofs.«150622_j8847632630356_2_alg».proof.Proof.ChunkSteps
import proofs.«150622_j8847632630356_2_alg».proof.Proof.ChunkTables

noncomputable section

namespace Cert.Chunk

open Idealize.ShloMosaic Idealize.ShloMosaic.ValueIdx
open Cert.KernelIdeal Cert.KernelIdeal.Gen Cert.Circuit

variable (arg15 : Memref sig .tc .vmem S4x8192 .f32) (v15 v17 : FVec Ideal S2x4 .f32)
  (X_arg15 : BufTy.Contents (Elt Ideal) arg15.view.ty) (k : Fin k0_t1_loop.trips) (l : Fin 1024)

/-- Rotation 5 is RY of qubit 0 with the first layer's angle. -/
theorem g5 : G5 arg15 v15 v17 X_arg15 k l = ry0 (coL v15 0 0) (siL v17 0 0) (G4 arg15 X_arg15 k l) :=
  step0 _ _ _ _ (by
    intro b c d
    fin_cases b <;> fin_cases c <;> fin_cases d <;> exact ⟨rfl, rfl⟩)

/-- Rotation 6 is RY of qubit 1 with the first layer's angle. -/
theorem g6 : G6 arg15 v15 v17 X_arg15 k l = ry1 (coL v15 0 1) (siL v17 0 1) (G5 arg15 v15 v17 X_arg15 k l) :=
  step1 _ _ _ _ (by
    intro a c d
    fin_cases a <;> fin_cases c <;> fin_cases d <;> exact ⟨rfl, rfl⟩)

/-- Rotation 7 is RY of qubit 2 with the first layer's angle. -/
theorem g7 : G7 arg15 v15 v17 X_arg15 k l = ry2 (coL v15 0 2) (siL v17 0 2) (G6 arg15 v15 v17 X_arg15 k l) :=
  step2 _ _ _ _ (by
    intro a b d
    fin_cases a <;> fin_cases b <;> fin_cases d <;> exact ⟨rfl, rfl⟩)

/-- Rotation 8 is RY of qubit 3 with the first layer's angle. -/
theorem g8 : G8 arg15 v15 v17 X_arg15 k l = ry3 (coL v15 0 3) (siL v17 0 3) (G7 arg15 v15 v17 X_arg15 k l) :=
  step3 _ _ _ _ (by
    intro a b c
    fin_cases a <;> fin_cases b <;> fin_cases c <;> exact ⟨rfl, rfl⟩)

end Cert.Chunk

end
-- ==== Proof.ChunkLayer1.lean ====
/-
  The second layer's four rotations, at one lane.

  The layer's cosines and sines are scalars spread over the lanes; otherwise each vector is again the rotated pair's
  first or second entry of two earlier vectors.  The second layer reads the first layer's vectors through the ring of controlled NOTs:
  which vector plays which assignment's part is the ring applied to the table.
-/
import proofs.«150622_j8847632630356_2_alg».proof.Proof.ChunkSteps
import proofs.«150622_j8847632630356_2_alg».proof.Proof.ChunkTables

noncomputable section

namespace Cert.Chunk

open Idealize.ShloMosaic Idealize.ShloMosaic.ValueIdx
open Cert.KernelIdeal Cert.KernelIdeal.Gen Cert.Circuit

variable (arg15 : Memref sig .tc .vmem S4x8192 .f32) (v15 v17 : FVec Ideal S2x4 .f32)
  (X_arg15 : BufTy.Contents (Elt Ideal) arg15.view.ty) (k : Fin k0_t1_loop.trips) (l : Fin 1024)

/-- Rotation 9 is RY of qubit 0 with the second layer's angle. -/
theorem g9 : G9 arg15 v15 v17 X_arg15 k l = ry0 (coL v15 1 0) (siL v17 1 0) (ring (G8 arg15 v15 v17 X_arg15 k l)) :=
  step0 _ _ _ _ (by
    intro b c d
    fin_cases b <;> fin_cases c <;> fin_cases d <;> exact ⟨rfl, rfl⟩)

/-- Rotation 10 is RY of qubit 1 with the second layer's angle. -/
theorem g10 : G10 arg15 v15 v17 X_arg15 k l = ry1 (coL v15 1 1) (siL v17 1 1) (G9 arg15 v15 v17 X_arg15 k l) :=
  step1 _ _ _ _ (by
    intro a c d
    fin_cases a <;> fin_cases c <;> fin_cases d <;> exact ⟨rfl, rfl⟩)

/-- Rotation 11 is RY of qubit 2 with the second layer's angle. -/
theorem g11 : G11 arg15 v15 v17 X_arg15 k l = ry2 (coL v15 1 2) (siL v17 1 2) (G10 arg15 v15 v17 X_arg15 k l) :=
  step2 _ _ _ _ (by
    intro a b d
    fin_cases a <;> fin_cases b <;> fin_cases d <;> exact ⟨rfl, rfl⟩)

/-- Rotation 12 is RY of qubit 3 with the second layer's angle. -/
theorem g12 : G12 arg15 v15 v17 X_arg15 k l = ry3 (coL v15 1 3) (siL v17 1 3) (G11 arg15 v15 v17 X_arg15 k l) :=
  step3 _ _ _ _ (by
    intro a b c
    fin_cases a <;> fin_cases b <;> fin_cases c <;> exact ⟨rfl, rfl⟩)

end Cert.Chunk

end
-- ==== Proof.ChunkScalars.lean ====
/-
  The cosines and sines the in-loop circuit rotates by, read off its inputs.

  The sample's angle for qubit q at lane `l` is row q of the loaded chunk at `l`; the trip halves it (multiplies it by
  the float one half) and takes the cosine and the sine.  The layers' cosines and sines are entries of the two 2 × 4
  tables, read one at a time as 1 × 1 windows.
-/
import proofs.«150622_j8847632630356_2_alg».proof.Proof.ChunkTables
import Idealize.ShloMosaic.Lib.ValueLayout

noncomputable section

namespace Cert.Chunk

open Idealize.ShloMosaic Idealize.ShloMosaic.ValueIdx
open Cert.KernelIdeal Cert.KernelIdeal.Gen Cert.Circuit

variable (arg15 : Memref sig .tc .vmem S4x8192 .f32) (v15 v17 : FVec Ideal S2x4 .f32)
  (X_arg15 : BufTy.Contents (Elt Ideal) arg15.view.ty) (k : Fin k0_t1_loop.trips) (l : Fin 1024)

/-- Row q of a 4 × 1024 chunk, cut out as a 1 × 1024 window and flattened, at lane `l`. -/
theorem row_read (x : Vec Ideal S4x1024 .f32) (q : Fin 4) (h : S4x1024.Slices ![q.val, 0] S1x1024)
    (h' : S1x1024.ShapeCasts S1024) :
    shapeCast S1024 (extractStridedSlice S1x1024 ![q.val, 0] x h) h' (ix1 l) = x (ix2 q l) :=
  (shapeCast_1a_a_apply _ _ l).trans (slice2_axis0_apply q.val x h (0 : Fin 1) l q rfl)

/-- The entry (A, B) of a 2 × 4 table, cut out as a 1 × 1 window and extracted. -/
theorem entry_read (v : FVec Ideal S2x4 .f32) (A : Fin 2) (B : Fin 4) (h : S2x4.Slices ![A.val, B.val] S1x1)
    (h' : ∀ a, (![0, 0] : Fin 2 → Nat) a < S1x1.size a) :
    extractAt ![0, 0] (extractStridedSlice S1x1 ![A.val, B.val] v h) h' = v (ix2 A B) :=
  extractStridedSlice_apply _ _ _ _ _ (fun ax => by
    match ax with
    | ⟨0, _⟩ => rfl
    | ⟨1, _⟩ => rfl)

/-- The sample's cosines are the cosines of the halved angles of the chunk's column `l`. -/
theorem coS_eq : coS arg15 X_arg15 k l =
    fun q => Ideal.cos (xin arg15 X_arg15 k (ix2 q l) * Ideal.ofBits .f32 0x3F000000#32) := by
  funext q
  match q with
  | ⟨0, _⟩ =>
    exact congrArg (fun t => Ideal.cos (t * Ideal.ofBits .f32 0x3F000000#32))
      (row_read l (xin arg15 X_arg15 k) 0 _ _)
  | ⟨1, _⟩ =>
    exact congrArg (fun t => Ideal.cos (t * Ideal.ofBits .f32 0x3F000000#32))
      (row_read l (xin arg15 X_arg15 k) 1 _ _)
  | ⟨2, _⟩ =>
    exact congrArg (fun t => Ideal.cos (t * Ideal.ofBits .f32 0x3F000000#32))
      (row_read l (xin arg15 X_arg15 k) 2 _ _)
  | ⟨3, _⟩ =>
    exact congrArg (fun t => Ideal.cos (t * Ideal.ofBits .f32 0x3F000000#32))
      (row_read l (xin arg15 X_arg15 k) 3 _ _)

/-- The sample's sines are the sines of the halved angles of the chunk's column `l`. -/
theorem siS_eq : siS arg15 X_arg15 k l =
    fun q => Ideal.sin (xin arg15 X_arg15 k (ix2 q l) * Ideal.ofBits .f32 0x3F000000#32) := by
  funext q
  match q with
  | ⟨0, _⟩ =>
    exact congrArg (fun t => Ideal.sin (t * Ideal.ofBits .f32 0x3F000000#32))
      (row_read l (xin arg15 X_arg15 k) 0 _ _)
  | ⟨1, _⟩ =>
    exact congrArg (fun t => Ideal.sin (t * Ideal.ofBits .f32 0x3F000000#32))
      (row_read l (xin arg15 X_arg15 k) 1 _ _)
  | ⟨2, _⟩ =>
    exact congrArg (fun t => Ideal.sin (t * Ideal.ofBits .f32 0x3F000000#32))
      (row_read l (xin arg15 X_arg15 k) 2 _ _)
  | ⟨3, _⟩ =>
    exact congrArg (fun t => Ideal.sin (t * Ideal.ofBits .f32 0x3F000000#32))
      (row_read l (xin arg15 X_arg15 k) 3 _ _)

/-- The layers' cosines are the cosine table's entries. -/
theorem coL_eq : coL v15 = fun l' q' => v15 (ix2 l' q') := by
  funext l' q'
  match l', q' with
  | ⟨0, _⟩, ⟨0, _⟩ => exact entry_read v15 0 0 (by decide) (by decide)
  | ⟨0, _⟩, ⟨1, _⟩ => exact entry_read v15 0 1 (by decide) (by decide)
  | ⟨0, _⟩, ⟨2, _⟩ => exact entry_read v15 0 2 (by decide) (by decide)
  | ⟨0, _⟩, ⟨3, _⟩ => exact entry_read v15 0 3 (by decide) (by decide)
  | ⟨1, _⟩, ⟨0, _⟩ => exact entry_read v15 1 0 (by decide) (by decide)
  | ⟨1, _⟩, ⟨1, _⟩ => exact entry_read v15 1 1 (by decide) (by decide)
  | ⟨1, _⟩, ⟨2, _⟩ => exact entry_read v15 1 2 (by decide) (by decide)
  | ⟨1, _⟩, ⟨3, _⟩ => exact entry_read v15 1 3 (by decide) (by decide)

/-- The layers' sines are the sine table's entries. -/
theorem siL_eq : siL v17 = fun l' q' => v17 (ix2 l' q') := by
  funext l' q'
  match l', q' with
  | ⟨0, _⟩, ⟨0, _⟩ => exact entry_read v17 0 0 (by decide) (by decide)
  | ⟨0, _⟩, ⟨1, _⟩ => exact entry_read v17 0 1 (by decide) (by decide)
  | ⟨0, _⟩, ⟨2, _⟩ => exact entry_read v17 0 2 (by decide) (by decide)
  | ⟨0, _⟩, ⟨3, _⟩ => exact entry_read v17 0 3 (by decide) (by decide)
  | ⟨1, _⟩, ⟨0, _⟩ => exact entry_read v17 1 0 (by decide) (by decide)
  | ⟨1, _⟩, ⟨1, _⟩ => exact entry_read v17 1 1 (by decide) (by decide)
  | ⟨1, _⟩, ⟨2, _⟩ => exact entry_read v17 1 2 (by decide) (by decide)
  | ⟨1, _⟩, ⟨3, _⟩ => exact entry_read v17 1 3 (by decide) (by decide)

end Cert.Chunk

end
-- ==== Proof.ChunkRead.lean ====
/-
  The trip's stored chunk, read at a row q and a lane `l`: the circuit's read-out of qubit q.

  The trip squares the sixteen final vectors, adds for each qubit the eight squares whose assignment has that qubit's
  bit clear and the eight whose assignment has it set (each group in increasing order of the assignment), subtracts,
  and stacks the four differences as the rows of a 4 × 1024 chunk.  At lane `l` the final vectors are the table after
  the twelfth rotation read through the ring of controlled NOTs, so row q of the chunk at `l` is the read-out of qubit q
  of that table's squares.
-/
import proofs.«150622_j8847632630356_2_alg».proof.Proof.ChunkSteps
import proofs.«150622_j8847632630356_2_alg».proof.Proof.ChunkTables
import Idealize.ShloMosaic.Lib.ValueLayout

noncomputable section

namespace Cert.Chunk

open Idealize.ShloMosaic Idealize.ShloMosaic.ValueIdx
open Cert.KernelIdeal Cert.KernelIdeal.Gen Cert.Circuit

open Lean in
local macro "Ra" n:num : term =>
  `($(mkIdent (Name.mkStr `Cert.KernelIdeal.Gen.trip_k0_t1.sl s!"r_{n.getNat}")) $(mkIdent `arg15) $(mkIdent `X_arg15) $(mkIdent `k))
open Lean in
local macro "Rb" n:num : term =>
  `($(mkIdent (Name.mkStr `Cert.KernelIdeal.Gen.trip_k0_t1.sl s!"r_{n.getNat}")) $(mkIdent `arg15) $(mkIdent `v15) $(mkIdent `v17) $(mkIdent `X_arg15) $(mkIdent `k))
open Lean in
local macro "Rc" n:num : term =>
  `($(mkIdent (Name.mkStr `Cert.KernelIdeal.Gen.trip_k0_t1.sl s!"r_{n.getNat}")) $(mkIdent `arg15) $(mkIdent `v15) $(mkIdent `X_arg15) $(mkIdent `k))

/-- Four 1 × 1024 rows stacked into a 4 × 1024 chunk: row q at lane `l` is row q's own entry at `l`. -/
theorem cat_read (w0 w1 w2 w3 : FVec Ideal S1x1024 .f32)
    (hc : Shape.Concatenates [S1x1024, S1x1024, S1x1024, S1x1024] S4x1024 0) (q : Fin 4) (l : Fin 1024) :
    concatenate S4x1024 0 [⟨S1x1024, w0⟩, ⟨S1x1024, w1⟩, ⟨S1x1024, w2⟩, ⟨S1x1024, w3⟩] hc (ix2 q l)
      = ![w0, w1, w2, w3] q (ix2 (0 : Fin 1) l) := by
  have hi : ∀ b : Fin S1x1024.rank, b.cast (rfl : S1x1024.rank = S4x1024.rank) ≠ (0 : Fin S4x1024.rank) →
      ((ix2 (0 : Fin 1) l : S1x1024.Idx) b).val = ((ix2 q l : S4x1024.Idx) (b.cast rfl)).val := fun b hb => by
    match b with
    | ⟨0, _⟩ => exact absurd rfl hb
    | ⟨1, _⟩ => rfl
  match q with
  | ⟨0, _⟩ =>
    exact concatenate_apply_piece (0 : Fin S4x1024.rank) [⟨S1x1024, w0⟩, ⟨S1x1024, w1⟩, ⟨S1x1024, w2⟩, ⟨S1x1024, w3⟩] hc _ 0
      (by decide : (0 : ℕ) < 4) S1x1024 w0 rfl rfl 0 rfl (ix2 (0 : Fin 1) l) hi rfl
  | ⟨1, _⟩ =>
    exact concatenate_apply_piece (0 : Fin S4x1024.rank) [⟨S1x1024, w0⟩, ⟨S1x1024, w1⟩, ⟨S1x1024, w2⟩, ⟨S1x1024, w3⟩] hc _ 1
      (by decide : (1 : ℕ) < 4) S1x1024 w1 rfl rfl 1 rfl (ix2 (0 : Fin 1) l) hi rfl
  | ⟨2, _⟩ =>
    exact concatenate_apply_piece (0 : Fin S4x1024.rank) [⟨S1x1024, w0⟩, ⟨S1x1024, w1⟩, ⟨S1x1024, w2⟩, ⟨S1x1024, w3⟩] hc _ 2
      (by decide : (2 : ℕ) < 4) S1x1024 w2 rfl rfl 2 rfl (ix2 (0 : Fin 1) l) hi rfl
  | ⟨3, _⟩ =>
    exact concatenate_apply_piece (0 : Fin S4x1024.rank) [⟨S1x1024, w0⟩, ⟨S1x1024, w1⟩, ⟨S1x1024, w2⟩, ⟨S1x1024, w3⟩] hc _ 3
      (by decide : (3 : ℕ) < 4) S1x1024 w3 rfl rfl 3 rfl (ix2 (0 : Fin 1) l) hi rfl

/-- Four vectors of 1024 lanes stacked as the rows of a 4 × 1024 chunk: row q at lane `l` is vector q at `l`. -/
theorem stack_read (u0 u1 u2 u3 : FVec Ideal S1024 .f32) (h1 : S1024.ShapeCasts S1x1024)
    (hc : Shape.Concatenates [S1x1024, S1x1024, S1x1024, S1x1024] S4x1024 0) (h4 : S4x1024.ShapeCasts S4x1024)
    (q : Fin 4) (l : Fin 1024) :
    shapeCast S4x1024 (concatenate S4x1024 0 [⟨S1x1024, shapeCast S1x1024 u0 h1⟩, ⟨S1x1024, shapeCast S1x1024 u1 h1⟩,
      ⟨S1x1024, shapeCast S1x1024 u2 h1⟩, ⟨S1x1024, shapeCast S1x1024 u3 h1⟩] hc) h4 (ix2 q l)
      = ![u0, u1, u2, u3] q (ix1 l) := by
  rw [shapeCast_self, cat_read]
  match q with
  | ⟨0, _⟩ => exact shapeCast_a_1a_apply u0 h1 0 l
  | ⟨1, _⟩ => exact shapeCast_a_1a_apply u1 h1 0 l
  | ⟨2, _⟩ => exact shapeCast_a_1a_apply u2 h1 0 l
  | ⟨3, _⟩ => exact shapeCast_a_1a_apply u3 h1 0 l

/-- The stored chunk over any thirteen vectors: its four rows are the first difference as given, the second formed
    here, the third as given, and the fourth formed here from the eight odd-channel squares. -/
theorem pay5_read (v963 v965 v967 v969 v971 v973 v975 v977 v992 v999 v1006 v1022 v1029 : FVec Ideal S1024 .f32)
    (q : Fin 4) (l : Fin 1024) :
    k0_pay5 v963 v965 v967 v969 v971 v973 v975 v977 v992 v999 v1006 v1022 v1029 (ix2 q l)
      = ![v992, subf v999 v1006, v1022,
          subf v1029 (addf (addf (addf (addf (addf (addf (addf v963 v965) v967) v969) v971) v973) v975) v977)] q
          (ix1 l) :=
  stack_read _ _ _ _ _ _ _ q l

variable (arg15 : Memref sig .tc .vmem S4x8192 .f32) (v15 v17 : FVec Ideal S2x4 .f32)
  (X_arg15 : BufTy.Contents (Elt Ideal) arg15.view.ty) (k : Fin k0_t1_loop.trips) (l : Fin 1024)

/-- Row q of the chunk the trip stores, at lane `l`, is the read-out of qubit q of the squares of the final table. -/
theorem pay_read (q : Fin 4) :
    k0_pay5 (Rb 201) (Rb 203) (Rb 205) (Rb 207) (Rb 209) (Rb 211) (Rb 213) (Rb 215) (Rb 216) (Rb 217) (Rb 218)
        (trip_k0_t1.sl.v1022 arg15 v15 v17 X_arg15 k) (trip_k0_t1.sl.v1029 arg15 v15 v17 X_arg15 k) (ix2 q l)
      = readout (sq (ring (G12 arg15 v15 v17 X_arg15 k l))) q := by
  rw [pay5_read]
  match q with
  | ⟨0, _⟩ => exact (readout_zero (sq (ring (G12 arg15 v15 v17 X_arg15 k l)))).symm
  | ⟨1, _⟩ => exact (readout_one (sq (ring (G12 arg15 v15 v17 X_arg15 k l)))).symm
  | ⟨2, _⟩ => exact (readout_two (sq (ring (G12 arg15 v15 v17 X_arg15 k l)))).symm
  | ⟨3, _⟩ => exact (readout_three (sq (ring (G12 arg15 v15 v17 X_arg15 k l)))).symm

end Cert.Chunk

end
-- ==== Proof.ChunkTrip.lean ====
/-
  What one trip of the in-loop circuit stores: the circuit's four read-outs of the loaded chunk, lane by lane.

  The trip loads a 4 × 1024 chunk of angles and stores a 4 × 1024 chunk: at row q and lane `l`, the read-out of qubit q of
  the four-qubit circuit run on the four angles of lane `l` (each halved before its cosine and sine are taken) with the
  layers' cosines and sines read off the two tables.  The twelve rotations compose to the circuit's final state, the
  kernel's cosines and sines are those of the halved angles and the tables' entries, and the stored rows are the four
  read-outs.
-/
import proofs.«150622_j8847632630356_2_alg».proof.Proof.ChunkSample
import proofs.«150622_j8847632630356_2_alg».proof.Proof.ChunkLayer0
import proofs.«150622_j8847632630356_2_alg».proof.Proof.ChunkLayer1
import proofs.«150622_j8847632630356_2_alg».proof.Proof.ChunkScalars
import proofs.«150622_j8847632630356_2_alg».proof.Proof.ChunkRead

set_option maxRecDepth 8192

noncomputable section

namespace Cert.Chunk

open Idealize.ShloMosaic Idealize.ShloMosaic.ValueIdx
open Cert.KernelIdeal Cert.KernelIdeal.Gen Cert.Circuit

/-- The chunk one trip stores, as a function of the two tables and the chunk of angles it loads: at row q and lane `l`
    the read-out of qubit q of the circuit on the angles of lane `l`. -/
def chunkOut (v15 v17 : FVec Ideal S2x4 .f32) (x : Vec Ideal S4x1024 .f32) : FVec Ideal S4x1024 .f32 := fun j =>
  readout (sq (final (fun q' => Ideal.cos (x (ix2 q' (j 1)) * Ideal.ofBits .f32 0x3F000000#32))
    (fun q' => Ideal.sin (x (ix2 q' (j 1)) * Ideal.ofBits .f32 0x3F000000#32))
    (fun l' q' => v15 (ix2 l' q')) (fun l' q' => v17 (ix2 l' q')))) (j 0)

/-- The stored chunk at a row and a lane. -/
theorem chunkOut_apply (v15 v17 : FVec Ideal S2x4 .f32) (x : Vec Ideal S4x1024 .f32) (q : Fin 4) (l : Fin 1024) :
    chunkOut v15 v17 x (ix2 q l) =
      readout (sq (final (fun q' => Ideal.cos (x (ix2 q' l) * Ideal.ofBits .f32 0x3F000000#32))
        (fun q' => Ideal.sin (x (ix2 q' l) * Ideal.ofBits .f32 0x3F000000#32))
        (fun l' q' => v15 (ix2 l' q')) (fun l' q' => v17 (ix2 l' q')))) q := rfl

section
variable (arg15 : Memref sig .tc .vmem S4x8192 .f32) (v15 v17 : FVec Ideal S2x4 .f32)
  (X_arg15 : BufTy.Contents (Elt Ideal) arg15.view.ty) (k : Fin k0_t1_loop.trips) (l : Fin 1024)

/-- The twelve rotations and the two rings compose to the circuit's final state. -/
theorem final_eq : ring (G12 arg15 v15 v17 X_arg15 k l) =
    final (coS arg15 X_arg15 k l) (siS arg15 X_arg15 k l) (coL v15) (siL v17) := by
  rw [g12, g11, g10, g9, g8, g7, g6, g5, g4, g3, g2, g1, g0]
  rfl

/-- Row q of the chunk the trip stores, at lane `l`, is `chunkOut` of the loaded chunk there. -/
theorem stored_apply (q : Fin 4) :
    k0_pay5 (trip_k0_t1.sl.r_201 arg15 v15 v17 X_arg15 k) (trip_k0_t1.sl.r_203 arg15 v15 v17 X_arg15 k)
        (trip_k0_t1.sl.r_205 arg15 v15 v17 X_arg15 k) (trip_k0_t1.sl.r_207 arg15 v15 v17 X_arg15 k)
        (trip_k0_t1.sl.r_209 arg15 v15 v17 X_arg15 k) (trip_k0_t1.sl.r_211 arg15 v15 v17 X_arg15 k)
        (trip_k0_t1.sl.r_213 arg15 v15 v17 X_arg15 k) (trip_k0_t1.sl.r_215 arg15 v15 v17 X_arg15 k)
        (trip_k0_t1.sl.r_216 arg15 v15 v17 X_arg15 k) (trip_k0_t1.sl.r_217 arg15 v15 v17 X_arg15 k)
        (trip_k0_t1.sl.r_218 arg15 v15 v17 X_arg15 k) (trip_k0_t1.sl.v1022 arg15 v15 v17 X_arg15 k)
        (trip_k0_t1.sl.v1029 arg15 v15 v17 X_arg15 k) (ix2 q l)
      = chunkOut v15 v17 (xin arg15 X_arg15 k) (ix2 q l) := by
  rw [pay_read, final_eq, coS_eq, siS_eq, coL_eq, siL_eq]
  rfl
end

/-- The one piece a trip writes: the 4 × 1024 rectangle at the trip's offset, holding `chunkOut` of the chunk of
    angles loaded from the same rectangle of the first scratch. -/
theorem tripL_eq (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec Ideal S2x4 .f32) (v17 : FVec Ideal S2x4 .f32) (X_arg15 : BufTy.Contents (Elt Ideal) arg15.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k
      = [⟨Rect.unit (s := S4x8192) (k0_off1 k) S4x1024.size (k0_off1_inb k),
          chunkOut v15 v17 (View.readAt (Elt Ideal) arg15.view
            (Rect.unit (s := S4x8192) (k0_off1 k) S4x1024.size (k0_off1_inb k)).toLoadRect X_arg15)⟩] := by
  unfold tripL_k0_t1 trip_k0_t1
  dsimp only
  refine congrArg (fun p : FVec Ideal S4x1024 .f32 =>
    ([⟨Rect.unit (s := S4x8192) (k0_off1 k) S4x1024.size (k0_off1_inb k), p⟩] :
      List (View.Piece (Elt Ideal) S4x8192 .f32))) (funext fun j => ?_)
  obtain ⟨q, l, rfl⟩ : ∃ (q : Fin 4) (l : Fin 1024), j = ix2 q l := ⟨j 0, j 1, eq_ix2 j⟩
  exact stored_apply arg15 v15 v17 X_arg15 k l q

end Cert.Chunk

end
-- ==== Proof.ChunkLoop.lean ====
/-
  The whole loop: its eight trips write the circuit's read-outs of the whole array of angles, lane by lane.

  Trip k loads columns 1024·k … 1024·k + 1023 of the 4 × 8192 array of angles and stores the same columns of the
  4 × 8192 array of read-outs; a column's read-outs depend on that column's four angles only.  So every piece the loop
  writes is the restriction to its rectangle of ONE function of the whole angles array, the circuit applied column by
  column, and the eight rectangles cover the array: what the loop leaves is that function.
-/
import proofs.«150622_j8847632630356_2_alg».proof.Proof.ChunkTrip

set_option maxRecDepth 8192

noncomputable section

namespace Cert.Chunk

open Idealize.ShloMosaic Idealize.ShloMosaic.ValueIdx
open Cert.KernelIdeal Cert.KernelIdeal.Gen Cert.Circuit

/-- The circuit applied column by column to a 4 × 8192 array of angles: at row q and column j, the read-out of qubit q
    of the circuit on the four angles of column j. -/
def laneCircuit (v15 v17 : FVec Ideal S2x4 .f32) (Xf : S4x8192.Idx → EReal) : S4x8192.Idx → EReal := fun y =>
  readout (sq (final (fun q' => Ideal.cos (Xf (ix2 q' (y 1)) * Ideal.ofBits .f32 0x3F000000#32))
    (fun q' => Ideal.sin (Xf (ix2 q' (y 1)) * Ideal.ofBits .f32 0x3F000000#32))
    (fun l' q' => v15 (ix2 l' q')) (fun l' q' => v17 (ix2 l' q')))) (y 0)

/-- The chunk stored for a 4 × 1024 window of full height is the column-by-column circuit of the whole array, read at the
    window's place. -/
theorem chunk_lane (v15 v17 : FVec Ideal S2x4 .f32) (Xf : S4x8192.Idx → EReal) (off : Fin S4x8192.rank → Nat)
    (inb : ∀ a, off a + S4x1024.size a ≤ S4x8192.size a) (h0 : off 0 = 0) (x : S4x1024.Idx) :
    chunkOut v15 v17 (View.ld Xf (Rect.unit (s := S4x8192) off S4x1024.size inb)) x
      = laneCircuit v15 v17 Xf ((Rect.unit (s := S4x8192) off S4x1024.size inb).emb x) := by
  have he0 : (Rect.unit (s := S4x8192) off S4x1024.size inb).emb x 0 = x 0 := Fin.ext (by
    show off 0 + 1 * (x 0).val = (x 0).val
    rw [h0, Nat.zero_add, Nat.one_mul])
  have hidx : ∀ q' : Fin 4, (Rect.unit (s := S4x8192) off S4x1024.size inb).idx (ix2 q' (x 1))
      = ix2 q' ((Rect.unit (s := S4x8192) off S4x1024.size inb).emb x 1) := fun q' => funext fun a => by
    match a with
    | ⟨0, _⟩ => exact Fin.ext (by show off 0 + 1 * q'.val = q'.val; rw [h0, Nat.zero_add, Nat.one_mul])
    | ⟨1, _⟩ => rfl
  unfold chunkOut laneCircuit
  simp only [View.ld, hidx, he0]
  rfl

/-- The loop runs eight trips. -/
theorem trips_eq : k0_t1_loop.trips = 8 := by decide

/-- Every piece the first `n` trips write is the column-by-column circuit of the angles array, restricted to the piece's
    rectangle. -/
theorem pb_restrict_upto (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec Ideal S2x4 .f32) (v17 : FVec Ideal S2x4 .f32) (X_arg15 : BufTy.Contents (Elt Ideal) arg15.view.ty) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 n,
      ∀ x : p.1.shape.Idx, p.2 x = laneCircuit v15 v17 (arg15.view.read (Elt Ideal) X_arg15) (p.1.emb x) := by
  intro n
  induction n with
  | zero => intro _ p hp; exact absurd hp List.not_mem_nil
  | succ n ih =>
    intro hn p hp x
    have h : n < k0_t1_loop.trips := hn
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 ⟨n, h⟩
    rw [tripL_eq] at e
    rw [show n + 1 = (⟨n, h⟩ : Fin k0_t1_loop.trips).val + 1 from rfl, e] at hp
    rcases List.mem_append.mp hp with hp | hp
    · obtain rfl := List.mem_singleton.mp hp
      exact chunk_lane v15 v17 (arg15.view.read (Elt Ideal) X_arg15) (k0_off1 ⟨n, h⟩) (k0_off1_inb ⟨n, h⟩)
        (by rw [k0_off1_eq]; rfl) x
    · exact ih (Nat.le_of_lt h) p hp x

/-- Every piece the loop writes is the column-by-column circuit of the angles array, restricted to the piece's
    rectangle. -/
theorem pb_restrict (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec Ideal S2x4 .f32) (v17 : FVec Ideal S2x4 .f32) (X_arg15 : BufTy.Contents (Elt Ideal) arg15.view.ty) :
    ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips,
      ∀ x : p.1.shape.Idx, p.2 x = laneCircuit v15 v17 (arg15.view.read (Elt Ideal) X_arg15) (p.1.emb x) :=
  pb_restrict_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips (Nat.le_refl _)

/-- The first `n` trips' rectangles hold every index whose column is below 1024·n. -/
theorem pb_cover_upto (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec Ideal S2x4 .f32) (v17 : FVec Ideal S2x4 .f32) (X_arg15 : BufTy.Contents (Elt Ideal) arg15.view.ty) :
    ∀ n, n ≤ k0_t1_loop.trips → ∀ y : S4x8192.Idx, (y 1).val < 1024 * n →
      ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 n, y ∈ p.1.set := by
  intro n
  induction n with
  | zero => intro _ y hy; exact absurd hy (by omega)
  | succ n ih =>
    intro hn y hy
    have h : n < k0_t1_loop.trips := hn
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 ⟨n, h⟩
    rw [tripL_eq] at e
    rw [show n + 1 = (⟨n, h⟩ : Fin k0_t1_loop.trips).val + 1 from rfl, e]
    by_cases hlt : (y 1).val < 1024 * n
    · obtain ⟨p, hp, hy'⟩ := ih (Nat.le_of_lt h) y hlt
      exact ⟨p, List.mem_append.mpr (Or.inr hp), hy'⟩
    · refine ⟨_, List.mem_append.mpr (Or.inl (List.mem_singleton_self _)), ?_⟩
      rw [Rect.mem_set_unit, k0_off1_eq]
      intro a
      match a with
      | ⟨0, _⟩ =>
        have h4 : (y 0).val < 4 := (y 0).isLt
        exact ⟨Nat.zero_le _, by show (y 0).val < 0 + 4; omega⟩
      | ⟨1, _⟩ =>
        exact ⟨by show 1024 * n ≤ (y 1).val; omega, by show (y 1).val < 1024 * n + 1024; omega⟩

/-- The loop's rectangles cover the array. -/
theorem pb_cover (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec Ideal S2x4 .f32) (v17 : FVec Ideal S2x4 .f32) (X_arg15 : BufTy.Contents (Elt Ideal) arg15.view.ty) :
    ∀ y : S4x8192.Idx, ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips, y ∈ p.1.set := fun y =>
  pb_cover_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips (Nat.le_refl _) y (by
    have h8 : (y 1).val < 8192 := (y 1).isLt
    rw [trips_eq]; omega)

/-- What the loop's writes amount to: the column-by-column circuit of the angles array. -/
theorem pb_canon (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec Ideal S2x4 .f32) (v17 : FVec Ideal S2x4 .f32) (X_arg15 : BufTy.Contents (Elt Ideal) arg15.view.ty) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips)
      = laneCircuit v15 v17 (arg15.view.read (Elt Ideal) X_arg15) :=
  funext fun y => View.canon_apply_of_pieces (laneCircuit v15 v17 (arg15.view.read (Elt Ideal) X_arg15)) _
    (pb_restrict 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15) y
    (pb_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 y)

/-- The second scratch read whole after the loop, whatever it held before. -/
theorem pb_read (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec Ideal S2x4 .f32) (v17 : FVec Ideal S2x4 .f32) (X_arg15 : BufTy.Contents (Elt Ideal) arg15.view.ty)
    (G : BufTy.Contents (Elt Ideal) arg16.view.ty) :
    arg16.view.read (Elt Ideal) (arg16.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips))
      = laneCircuit v15 v17 (arg15.view.read (Elt Ideal) X_arg15) :=
  (View.read_writes_eq_canon arg16.view G _ (pb_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15)).trans
    (pb_canon 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15)

/-- A load through a rectangle of what the loop's writes cover. -/
theorem pb_readCov (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec Ideal S2x4 .f32) (v17 : FVec Ideal S2x4 .f32) (X_arg15 : BufTy.Contents (Elt Ideal) arg15.view.ty)
    (r : Rect S4x8192) :
    arg16.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips) r
      = View.ld (laneCircuit v15 v17 (arg15.view.read (Elt Ideal) X_arg15)) r :=
  (View.readCov_eq_canon_ld arg16.view _ r (pb_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15)).trans
    (by rw [pb_canon])

/-- The whole-array load of what the loop's writes cover. -/
theorem pb_readCov_whole (𝒱 : Variants) (c : Dev nD) (bd : Option 𝒱.V) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole) (v15 : FVec Ideal S2x4 .f32) (v17 : FVec Ideal S2x4 .f32) (X_arg15 : BufTy.Contents (Elt Ideal) arg15.view.ty) :
    arg16.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 k0_t1_loop.trips)
        (Rect.unit (s := S4x8192) ![0, 0] S4x8192.size inb_S4x8192_S4x8192_0_0).toLoadRect
      = laneCircuit v15 v17 (arg15.view.read (Elt Ideal) X_arg15) :=
  (pb_readCov 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v15 v17 X_arg15 _).trans
    (View.ld_unit_zero (funext fun a => by match a with | ⟨0, _⟩ => rfl | ⟨1, _⟩ => rfl) _ _)

end Cert.Chunk

end
-- ==== Proof.KernBlockEq.lean ====
/-
  The value the kernel's body stores into the result block, as the block function of Proof/KernBlock.lean.

  The body's one store into the result block is the output layers of the loop's result; the loop's result is the
  circuit applied lane by lane to the stored angles; the stored angles are the angle layers of the first layer of
  the batch block.  Reading each layer at an index gives the block function entry by entry.
-/
import proofs.«150622_j8847632630356_2_alg».proof.Proof.KernPay
import proofs.«150622_j8847632630356_2_alg».proof.Proof.KernBlock
import proofs.«150622_j8847632630356_2_alg».proof.Proof.ChunkLoop

open scoped BigOperators

noncomputable section

namespace Cert.KernBlockEq

open Idealize.ShloMosaic Idealize.ShloMosaic.ValueIdx
open Cert.KernelIdeal Cert.KernelIdeal.Gen

variable (x0 : FVec Ideal S2x8192 .f32) (x1 : FVec Ideal S64x2 .f32) (x2 : FVec Ideal S64x1 .f32) (x3 : FVec Ideal S16x64 .f32)
  (x4 : FVec Ideal S16x1 .f32) (x5 : FVec Ideal S4x16 .f32) (x6 : FVec Ideal S4x1 .f32) (x7 x8 : FVec Ideal S2x4 .f32)
  (x9 : FVec Ideal S32x4 .f32) (x10 : FVec Ideal S32x1 .f32) (x11 : FVec Ideal S4x32 .f32) (x12 : FVec Ideal S4x1 .f32)

/-- The stored angles of a block. -/
def angles : FVec Ideal S4x8192 .f32 := k0_pay1 x3 x4 x5 x6 (Cert.KernPay.layer1 x0 x1 x2)

/-- What the body stores into the result block. -/
def blockOut : FVec Ideal S4x8192 .f32 :=
  k0_pay6 x9 x10 x11 x12 (Cert.Chunk.laneCircuit x7 x8 (angles x0 x1 x2 x3 x4 x5 x6))

/-- The stored angles, entry by entry. -/
theorem angles_apply (q : Fin 4) (l : Fin 8192) :
    angles x0 x1 x2 x3 x4 x5 x6 (ix2 q l) = Cert.KernBlock.qin x0 x1 x2 x3 x4 x5 x6 q l := by
  unfold angles
  rw [Cert.KernPay.pay1_apply]
  simp only [Cert.KernPay.layer1_apply]
  rfl

/-- The stored result, entry by entry. -/
theorem blockOut_apply (j : Fin 4) (l : Fin 8192) :
    blockOut x0 x1 x2 x3 x4 x5 x6 x7 x8 x9 x10 x11 x12 (ix2 j l)
      = Cert.KernBlock.outB x0 x1 x2 x3 x4 x5 x6 x7 x8 x9 x10 x11 x12 j l := by
  have hq : ∀ c' : Fin 4, Cert.Chunk.laneCircuit x7 x8 (angles x0 x1 x2 x3 x4 x5 x6) (ix2 c' l)
      = Cert.KernBlock.qout x0 x1 x2 x3 x4 x5 x6 x7 x8 c' l := fun c' => by
    unfold Cert.Chunk.laneCircuit Cert.KernBlock.qout Cert.KernBlock.circ
    simp only [angles_apply]
  unfold blockOut
  rw [Cert.KernPay.pay6_apply]
  simp only [hq]
  rfl

end Cert.KernBlockEq

end
-- ==== Proof.KernValue.lean ====
/-
  The idealized kernel's run, read: its result array is the specification of its arguments.

  At every grid point the body stores, into the result block, the block function of the point's input blocks
  (Proof/KernBlockEq.lean); an input block's entries are the entries of the arrays the host prepared, which are the
  transposed arguments, the bias columns and the cosine and sine tables (Proof/KernCover.lean, Proof/KernHost.lean);
  so the block is the specification's rows 8192 t … 8192 t + 8191, transposed (Proof/KernBlock.lean).  The 64 blocks
  tile the region's result array [4, 524288], and the host's last line transposes it into the result [524288, 4].
-/
import proofs.«150622_j8847632630356_2_alg».proof.Proof.KernelIdealFrame
import proofs.«150622_j8847632630356_2_alg».proof.Proof.KernHost
import proofs.«150622_j8847632630356_2_alg».proof.Proof.KernCover
import proofs.«150622_j8847632630356_2_alg».proof.Proof.KernBlockEq
import Idealize.ShloMosaic.Lib.StableHlo.Run

set_option maxRecDepth 16384

noncomputable section

namespace Cert.KernValue

open Idealize.ShloMosaic Idealize.ShloMosaic.TcCoe Idealize.ShloMosaic.ValueIdx Idealize.ShloMosaic.Tactic
open Idealize.SL Idealize.SL.Sem
open Idealize.ShloMosaic.Pipeline (Dat)
open Cert.KernelIdeal Cert.KernelIdeal.Gen Cert.KernelIdeal.GenP

theorem hz : (![0, 0] : Fin 2 → Nat) = fun _ => 0 := funext fun a => by fin_cases a <;> rfl

/-- WHAT THE BODY LEAVES in the result block: the block function of the input blocks. -/
theorem out13_eq (c : Dev nD) (i : grid0.Coords) (arg1 : Memref sig .tc .vmem S2x8192 .f32) (harg1 : arg1.IsWhole) (arg2 : Memref sig .tc .vmem S64x2 .f32) (harg2 : arg2.IsWhole) (arg3 : Memref sig .tc .vmem S64x1 .f32) (harg3 : arg3.IsWhole) (arg4 : Memref sig .tc .vmem S16x64 .f32) (harg4 : arg4.IsWhole) (arg5 : Memref sig .tc .vmem S16x1 .f32) (harg5 : arg5.IsWhole) (arg6 : Memref sig .tc .vmem S4x16 .f32) (harg6 : arg6.IsWhole) (arg7 : Memref sig .tc .vmem S4x1 .f32) (harg7 : arg7.IsWhole) (arg8 : Memref sig .tc .vmem S2x4 .f32) (harg8 : arg8.IsWhole) (arg9 : Memref sig .tc .vmem S2x4 .f32) (harg9 : arg9.IsWhole) (arg10 : Memref sig .tc .vmem S32x4 .f32) (harg10 : arg10.IsWhole) (arg11 : Memref sig .tc .vmem S32x1 .f32) (harg11 : arg11.IsWhole) (arg12 : Memref sig .tc .vmem S4x32 .f32) (harg12 : arg12.IsWhole) (arg13 : Memref sig .tc .vmem S4x1 .f32) (harg13 : arg13.IsWhole) (arg14 : Memref sig .tc .vmem S4x8192 .f32) (harg14 : arg14.IsWhole) (arg15 : Memref sig .tc .vmem S4x8192 .f32) (harg15 : arg15.IsWhole) (arg16 : Memref sig .tc .vmem S4x8192 .f32) (harg16 : arg16.IsWhole)
    (x0 : Vec Ideal S2x8192 .f32) (x1 : Vec Ideal S64x2 .f32) (x2 : Vec Ideal S64x1 .f32) (x3 : Vec Ideal S16x64 .f32) (x4 : Vec Ideal S16x1 .f32) (x5 : Vec Ideal S4x16 .f32) (x6 : Vec Ideal S4x1 .f32) (x7 : Vec Ideal S2x4 .f32) (x8 : Vec Ideal S2x4 .f32) (x9 : Vec Ideal S32x4 .f32) (x10 : Vec Ideal S32x1 .f32) (x11 : Vec Ideal S4x32 .f32) (x12 : Vec Ideal S4x1 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12
      = Cert.KernBlockEq.blockOut x0 x1 x2 x3 x4 x5 x6 x7 x8 x9 x10 x11 x12 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)]
  unfold kernelRun0_A
  dsimp only
  rw [View.canon_unit_zero hz]
  simp only [Cert.Chunk.pb_canon]
  sl_unfold_run_names
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S2x8192) hz, View.ld_unit_zero (S := S64x2) hz, View.ld_unit_zero (S := S64x1) hz, View.ld_unit_zero (S := S16x64) hz, View.ld_unit_zero (S := S16x1) hz, View.ld_unit_zero (S := S4x16) hz, View.ld_unit_zero (S := S4x1) hz, View.ld_unit_zero (S := S2x4) hz, View.ld_unit_zero (S := S32x4) hz, View.ld_unit_zero (S := S32x1) hz, View.ld_unit_zero (S := S4x32) hz, View.ld_unit_zero (S := S4x8192) hz]
  have e15 : ∀ P : FVec Ideal S4x8192 .f32, View.read (Elt Ideal) arg15.view
      (arg15.view.writes (Elt Ideal) arg15.view.junk [⟨Rect.unit ![0, 0] ![4, 8192] inb_S4x8192_S4x8192_0_0, P⟩]) = P := fun P => by
    rw [View.read_writes_eq_canon _ _ _ (fun y => ⟨_, List.mem_singleton_self _, View.mem_set_unit_zero hz inb_S4x8192_S4x8192_0_0 y⟩), View.canon_unit_zero hz]
  have e269 : k0_pay269 x0 x1 x2 = Cert.KernPay.layer1 x0 x1 x2 := by
    unfold k0_pay269 Cert.KernPay.layer1
    simp only [shapeCast_self]
  simp only [k0_pay259, k0_pay260, k0_pay261, k0_pay262, k0_pay263, k0_pay264, k0_pay265, k0_pay266, k0_pay267, k0_pay268, shapeCast_self, e15, e269]
  exact congrArg (k0_pay6 (F := Ideal) x9 x10 x11 x12)
    (View.ld_unit_zero (Val := Elt Ideal) (e := EltTy.f32) (S := S4x8192) hz inb_S4x8192_S4x8192_0_0 (Cert.Chunk.laneCircuit x7 x8 (Cert.KernBlockEq.angles x0 x1 x2 x3 x4 x5 x6)))

variable (m : (ℓ : Loc nD τ sig) → Buf (Elt Ideal) ℓ) (ρ : Dev nD → PrngReg)

/-- The region's result array [4, 524288]: the specification, transposed. -/
def Gk (c : Dev nD) : S4x524288.Idx → EReal := fun i =>
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (i 1) (i 0))

/-- WHAT POINT t WRITES BACK is block t of the transposed specification. -/
theorem flushed_eq (c : Dev nD) (t : Fin cfg0.N) :
    (dats m 0 c).flushed 13 t = ((cfg0.win 13).blk t).view.read (Elt Ideal) (Gk m c) := by
  show (cfg0.win 13).cut (grid0.coords t) ((dats m 0 c).after 13 t) = _
  rw [after0_13]
  unfold outsAt0
  refine (out13_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).trans ?_
  funext y
  obtain ⟨j, l, rfl⟩ : ∃ (j : Fin 4) (l : Fin 8192), y = ix2 j l := ⟨y 0, y 1, eq_ix2 y⟩
  have hN : t.val < 64 := by have := t.isLt; have h64 : cfg0.N = 64 := N_0; omega
  have hl : l.val < 8192 := l.isLt
  have hr : 8192 * t.val + l.val < 524288 := by omega
  show Cert.KernBlockEq.blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 j l) = Gk m c (((cfg0.win 13).blk t).view.emb (ix2 j l))
  rw [Cert.KernCover.emb13 t j l ⟨8192 * t.val + l.val, hr⟩ rfl]
  refine (Cert.KernBlockEq.blockOut_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j l).trans ?_
  exact Cert.KernBlock.outB_eq_G _ _ _ _ _ _ _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨8192 * t.val + l.val, hr⟩ l
    (fun k => (Cert.KernCover.iblk_0 m c t k l _ rfl).trans (Cert.KernHost.V_v0 m c k _))
    (fun a b => (Cert.KernCover.iblk_1 m c t a b).trans (Cert.KernHost.V_v1 m c a b))
    (fun a => (Cert.KernCover.iblk_2 m c t a 0).trans (Cert.KernHost.V_v2 m c a 0))
    (fun a b => (Cert.KernCover.iblk_3 m c t a b).trans (Cert.KernHost.V_v3 m c a b))
    (fun a => (Cert.KernCover.iblk_4 m c t a 0).trans (Cert.KernHost.V_v4 m c a 0))
    (fun a b => (Cert.KernCover.iblk_5 m c t a b).trans (Cert.KernHost.V_v5 m c a b))
    (fun a => (Cert.KernCover.iblk_6 m c t a 0).trans (Cert.KernHost.V_v6 m c a 0))
    (fun a b => (Cert.KernCover.iblk_7 m c t a b).trans (Cert.KernHost.V_v9 m c a b))
    (fun a b => (Cert.KernCover.iblk_8 m c t a b).trans (Cert.KernHost.V_v12 m c a b))
    (fun a b => (Cert.KernCover.iblk_9 m c t a b).trans (Cert.KernHost.V_v13 m c a b))
    (fun a => (Cert.KernCover.iblk_10 m c t a 0).trans (Cert.KernHost.V_v14 m c a 0))
    (fun a b => (Cert.KernCover.iblk_11 m c t a b).trans (Cert.KernHost.V_v15 m c a b))
    (fun a => (Cert.KernCover.iblk_12 m c t a 0).trans (Cert.KernHost.V_v16 m c a 0))
    j

/-- THE REGION'S RESULT ARRAY after the run. -/
theorem final (c : Dev nD) : (dats m 0 c).arrAt 13 cfg0.N = Gk m c :=
  (dats m 0 c).arrAt_eq_of_cover 13 (Gk m c) (fun t _ => flushed_eq m c t) Cert.KernCover.cover13

/-- THE RESULT after the host's last line: the region's array, transposed — the specification. -/
theorem tail (c : Dev nD) :
    Pipeline.afterTail₀ cfgs (dats m) 0 (V0 m) [hostOps1] c main_v18 = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.devRef .tc main_v17) = Gk m c :=
    (Pipeline.withArrays_arr spec0 launch0.win.arr_inj c _ _ 13).trans (final m c)
  rw [e]
  funext i
  obtain ⟨r, j, rfl⟩ : ∃ (r : Fin 524288) (j : Fin 4), i = ix2 r j := ⟨i 0, i 1, eq_ix2 i⟩
  exact Cert.KernHost.transpose_swap_apply _ _ r j

/-- THE RUN, read: the result at the specification of the arguments, the arguments unchanged. -/
theorem run : θ_run defs (onTc (τ := τ) (main (F := Ideal))) ⟨m, fun _ => 0, ρ⟩ (fun r => ∀ c : Dev nD,
      r.2.mem ((c.tc : Thread nD τ).loc main_v18) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v18 (Pipeline.mem_restRefs_of main_v18 (by decide) (by decide))).trans (tail m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩)
    (run_main m ρ)

end Cert.KernValue

end
-- ==== Proof.RefInit.lean ====
/-
  The circuit's initial state as the reference builds it: ones scattered into column 0 of a zero [524288, 16]
  array, read as [524288, 2, 2, 2, 2].  A scatter that writes one value wherever an update lands holds that value
  exactly at the places some update lands on; here update r lands on entry (r, 0), so row r is 1 at position 0 and 0
  elsewhere: the basis state 0000.
-/
import proofs.«150622_j8847632630356_2_alg».proof.ReferenceIdeal
import Idealize.ShloMosaic.Lib.Pipeline.Value
import Idealize.ShloMosaic.Lib.ValueIdx
import Idealize.ShloMosaic.PureOps.Ideal.Laws
import proofs.«150622_j8847632630356_2_alg».proof.Proof.Circuit

noncomputable section

namespace Cert.RefSide

open Cert.ReferenceIdeal Idealize.ShloMosaic Idealize.ShloMosaic.ValueIdx

/-- Writing one value wherever an update lands: the result holds that value at the places some update lands on and
    the operand elsewhere. -/
theorem scatter_const {s si u : Shape} {w : Nat} {α : Type} (d : ScatterDims s si u) (x : s.Idx → α) (idx : IVec si w)
    (v : α) (i' : s.Idx) :
    Host.scatter d (fun _ b => b) x idx (fun _ => v) i'
      = if ∃ j : u.Idx, d.resultIdx? j idx = some i' then v else x i' := by
  unfold Host.scatter
  have key : ∀ (L : List (Fin u.numel)) (x : s.Idx → α),
      (L.foldl (fun r n =>
        match d.resultIdx? (u.rowMajor.symm n) idx with
        | some i => fun i' => if i' = i then (fun _ b => b) (r i) ((fun _ => v) (u.rowMajor.symm n)) else r i'
        | none => r) x) i'
      = if ∃ n ∈ L, d.resultIdx? (u.rowMajor.symm n) idx = some i' then v else x i' := by
    intro L
    induction L with
    | nil => intro x; simp
    | cons n L ih =>
      intro x
      rw [List.foldl_cons, ih]
      by_cases h : ∃ m ∈ L, d.resultIdx? (u.rowMajor.symm m) idx = some i'
      · obtain ⟨m, hm, e⟩ := h
        rw [if_pos ⟨m, hm, e⟩, if_pos ⟨m, List.mem_cons_of_mem _ hm, e⟩]
      · rw [if_neg h]
        cases hn : d.resultIdx? (u.rowMajor.symm n) idx with
        | none =>
          have : ¬ ∃ m ∈ n :: L, d.resultIdx? (u.rowMajor.symm m) idx = some i' := by
            rintro ⟨m, hm, e⟩
            rcases List.mem_cons.1 hm with rfl | hm
            · rw [hn] at e; cases e
            · exact h ⟨m, hm, e⟩
          rw [if_neg this]
        | some i =>
          by_cases hi : i' = i
          · subst hi
            rw [if_pos ⟨n, List.mem_cons_self, hn⟩]
            simp
          · have : ¬ ∃ m ∈ n :: L, d.resultIdx? (u.rowMajor.symm m) idx = some i' := by
              rintro ⟨m, hm, e⟩
              rcases List.mem_cons.1 hm with rfl | hm
              · rw [hn] at e; exact hi (Option.some.inj e).symm
              · exact h ⟨m, hm, e⟩
            rw [if_neg this]
            simp [hi]
  refine (key _ x).trans ?_
  congr 1
  apply propext
  constructor
  · rintro ⟨n, _, e⟩; exact ⟨_, e⟩
  · rintro ⟨j, e⟩; exact ⟨u.rowMajor j, List.mem_finRange _, by rw [Equiv.symm_apply_apply]; exact e⟩

/-- The dimension numbers of the scatter that writes column 0 of a [524288, 16] array: one index (0), the rows as the
    update window. -/
abbrev colDims (wf : ScatterDims.WF S524288x16 S1 S524288 [0] [1] [1] 0) : ScatterDims S524288x16 S1 S524288 where
  updateWindowDims := [0]
  insertedWindowDims := [1]
  scatterDimsToOperandDims := [1]
  indexVectorDim := 0
  wf := wf

/-- Update r lands on entry (r, 0). -/
theorem colDims_resultIdx (wf : ScatterDims.WF S524288x16 S1 S524288 [0] [1] [1] 0) (j : S524288.Idx) :
    (colDims wf).resultIdx? j (fun _ => (0#32 : BitVec 32)) = some (ix2 (j 0) (0 : Fin 16)) := by
  have hs : ∀ a, (colDims wf).start j (fun _ => (0#32 : BitVec 32)) a = 0 := by
    intro a
    unfold ScatterDims.start
    split
    · simp
    · rfl
  have hw0 : (colDims wf).window j 0 = (j 0).val := by
    unfold ScatterDims.window
    rw [dif_pos (show (0 : Fin S524288x16.rank) ∈ S524288x16.kept [1] by decide)]
    rfl
  have hw1 : (colDims wf).window j 1 = 0 := by
    unfold ScatterDims.window
    rw [dif_neg (show (1 : Fin S524288x16.rank) ∉ S524288x16.kept [1] by decide)]
  unfold ScatterDims.resultIdx?
  rw [dif_pos]
  · congr 1
    funext a
    match a with
    | ⟨0, _⟩ => exact Fin.ext (by simp [hs, hw0])
    | ⟨1, _⟩ => exact Fin.ext (by simp [hs, hw1])
  · intro a
    match a with
    | ⟨0, _⟩ => simp [hs, hw0]; exact (j 0).isLt
    | ⟨1, _⟩ => simp [hs, hw1]

/-- Some update lands on entry (r, m) exactly when m is column 0. -/
theorem colDims_lands (wf : ScatterDims.WF S524288x16 S1 S524288 [0] [1] [1] 0) (r : Fin 524288) (m : Fin 16) :
    (∃ j : S524288.Idx, (colDims wf).resultIdx? j (fun _ => (0#32 : BitVec 32)) = some (ix2 r m)) ↔ m = 0 := by
  constructor
  · rintro ⟨j, e⟩
    rw [colDims_resultIdx] at e
    have := congrFun (Option.some.inj e) ⟨1, by decide⟩
    exact this.symm
  · rintro rfl
    exact ⟨ix1 r, colDims_resultIdx wf _⟩

/-- The float word 0x3F800000 is 1. -/
theorem ofBits_one : Ideal.ofBits .f32 0x3F800000#32 = 1 := by
  simp [Ideal.ofBits, Ideal.ieee, -EReal.coe_mul]
  norm_num

/-- Ones written into column 0 of a zero [524288, 16] array, read as [524288, 2, 2, 2, 2]: every row is the basis
    state 0000. -/
theorem init_apply (wf : ScatterDims.WF S524288x16 S1 S524288 [0] [1] [1] 0)
    (h0 : S_.BroadcastsInDim S524288x16 (![] : Fin 0 → Fin S524288x16.rank))
    (h1 : S_.BroadcastsInDim S1 (![] : Fin 0 → Fin S1.rank))
    (h2 : S_.BroadcastsInDim S524288 (![] : Fin 0 → Fin S524288.rank))
    (hc : S524288x16.ShapeCasts S524288x2x2x2x2) (r : Fin 524288) (a b c d : Fin 2) :
    shapeCast S524288x2x2x2x2 (Host.scatter (colDims wf) (fun _ b => b)
        (broadcastInDim S524288x16 ![] h0 (constant (F := Ideal) S_ .f32 0x00000000#32))
        (broadcastInDim S1 ![] h1 (constantI S_ 32 0#32))
        (broadcastInDim S524288 ![] h2 (constant (F := Ideal) S_ .f32 0x3F800000#32))) hc (ix5 r a b c d)
      = Cert.Circuit.init a b c d := by
  refine (shapeCast_apply _ hc (ix5 r a b c d)
    (ix2 r (⟨8 * a.val + 4 * b.val + 2 * c.val + d.val, by omega⟩ : Fin 16)) ?_).trans ?_
  · rw [Shape.rowMajor_val_two, Shape.rowMajor_val_five]
    show r.val * 16 + (8 * a.val + 4 * b.val + 2 * c.val + d.val)
      = (((r.val * 2 + a.val) * 2 + b.val) * 2 + c.val) * 2 + d.val
    omega
  · refine (scatter_const (colDims wf) (fun _ => Ideal.ofBits .f32 0x00000000#32) (fun _ => (0#32 : BitVec 32))
      (Ideal.ofBits .f32 0x3F800000#32) _).trans ?_
    unfold Cert.Circuit.init
    rw [ofBits_one, Ideal.ofBits_zero_f32]
    refine if_congr ?_ rfl rfl
    rw [colDims_lands, Fin.ext_iff, Fin.ext_iff, Fin.ext_iff, Fin.ext_iff, Fin.ext_iff]
    simp
    omega

end Cert.RefSide

end
-- ==== Proof.RefState.lean ====
/-
  Names for what the reference computes on the way: a row's four angles, the cosines and sines of the halved
  angles (a row's own, and the two layers' shared ones), and the row's state after each of the twenty gates.
-/
import proofs.«150622_j8847632630356_2_alg».proof.Proof.Gen.ReferenceIdeal.Run
import proofs.«150622_j8847632630356_2_alg».proof.Proof.Circuit
import Idealize.ShloMosaic.Lib.ValueIdx

noncomputable section

namespace Cert.RefSide

open Cert.ReferenceIdeal Cert.ReferenceIdeal.Value Idealize.ShloMosaic Idealize.ShloMosaic.TcCoe Idealize.SL.Sem Idealize.ShloMosaic.ValueIdx
open Cert.Circuit

variable (V0 : Valuation τ sig (Elt Ideal))

/-- Angle q of row r, as the reference computes it. -/
def ang (r : Fin 524288) (q : Fin 4) : EReal := res_main_v13 V0 (ix2 r q)
/-- The cosine of row r's halved angle q. -/
def rco (r : Fin 524288) (q : Fin 4) : EReal := Ideal.cos (ang V0 r q * ((1 / 2 : ℝ) : EReal))
/-- The sine of row r's halved angle q. -/
def rsi (r : Fin 524288) (q : Fin 4) : EReal := Ideal.sin (ang V0 r q * ((1 / 2 : ℝ) : EReal))
/-- The shared angle of layer l and qubit q: an entry of the weight array. -/
def wgt (l : Fin 2) (q : Fin 4) : EReal := (V0 (Proc.devRef .tc main_arg7) : S2x4.Idx → EReal) (ix2 l q)
/-- The cosine of the halved shared angle. -/
def sco (l : Fin 2) (q : Fin 4) : EReal := Ideal.cos (wgt V0 l q * ((1 / 2 : ℝ) : EReal))
/-- The sine of the halved shared angle. -/
def ssi (l : Fin 2) (q : Fin 4) : EReal := Ideal.sin (wgt V0 l q * ((1 / 2 : ℝ) : EReal))

/-- Row r's state after the rotation of qubit 0 by the row's own angle. -/
def st1 (r : Fin 524288) : St := ry0 (rco V0 r 0) (rsi V0 r 0) Cert.Circuit.init
/-- Row r's state after the rotation of qubit 1 by the row's own angle. -/
def st2 (r : Fin 524288) : St := ry1 (rco V0 r 1) (rsi V0 r 1) (st1 V0 r)
/-- Row r's state after the rotation of qubit 2 by the row's own angle. -/
def st3 (r : Fin 524288) : St := ry2 (rco V0 r 2) (rsi V0 r 2) (st2 V0 r)
/-- Row r's state after the rotation of qubit 3 by the row's own angle. -/
def st4 (r : Fin 524288) : St := ry3 (rco V0 r 3) (rsi V0 r 3) (st3 V0 r)
/-- Row r's state after layer 0's rotation of qubit 0. -/
def st5 (r : Fin 524288) : St := ry0 (sco V0 0 0) (ssi V0 0 0) (st4 V0 r)
/-- Row r's state after layer 0's rotation of qubit 1. -/
def st6 (r : Fin 524288) : St := ry1 (sco V0 0 1) (ssi V0 0 1) (st5 V0 r)
/-- Row r's state after layer 0's rotation of qubit 2. -/
def st7 (r : Fin 524288) : St := ry2 (sco V0 0 2) (ssi V0 0 2) (st6 V0 r)
/-- Row r's state after layer 0's rotation of qubit 3. -/
def st8 (r : Fin 524288) : St := ry3 (sco V0 0 3) (ssi V0 0 3) (st7 V0 r)
/-- Row r's state after the controlled NOT 0→1. -/
def st9 (r : Fin 524288) : St := cnot01 (st8 V0 r)
/-- Row r's state after the controlled NOT 1→2. -/
def st10 (r : Fin 524288) : St := cnot12 (st9 V0 r)
/-- Row r's state after the controlled NOT 2→3. -/
def st11 (r : Fin 524288) : St := cnot23 (st10 V0 r)
/-- Row r's state after the controlled NOT 3→0. -/
def st12 (r : Fin 524288) : St := cnot30 (st11 V0 r)
/-- Row r's state after layer 1's rotation of qubit 0. -/
def st13 (r : Fin 524288) : St := ry0 (sco V0 1 0) (ssi V0 1 0) (st12 V0 r)
/-- Row r's state after layer 1's rotation of qubit 1. -/
def st14 (r : Fin 524288) : St := ry1 (sco V0 1 1) (ssi V0 1 1) (st13 V0 r)
/-- Row r's state after layer 1's rotation of qubit 2. -/
def st15 (r : Fin 524288) : St := ry2 (sco V0 1 2) (ssi V0 1 2) (st14 V0 r)
/-- Row r's state after layer 1's rotation of qubit 3. -/
def st16 (r : Fin 524288) : St := ry3 (sco V0 1 3) (ssi V0 1 3) (st15 V0 r)
/-- Row r's state after the controlled NOT 0→1. -/
def st17 (r : Fin 524288) : St := cnot01 (st16 V0 r)
/-- Row r's state after the controlled NOT 1→2. -/
def st18 (r : Fin 524288) : St := cnot12 (st17 V0 r)
/-- Row r's state after the controlled NOT 2→3. -/
def st19 (r : Fin 524288) : St := cnot23 (st18 V0 r)
/-- Row r's state after the controlled NOT 3→0. -/
def st20 (r : Fin 524288) : St := cnot30 (st19 V0 r)

/-- The last state is the circuit's final state. -/
theorem st20_eq (r : Fin 524288) :
    st20 V0 r = Cert.Circuit.final (rco V0 r) (rsi V0 r) (sco V0) (ssi V0) := rfl

end Cert.RefSide

end
-- ==== Proof.RefAngles.lean ====
/-
  The cosines and sines of the halved angles, read at an index: a row's own angle (a column of the angle array,
  halved, spread over the three qubit axes) and a shared angle (one entry of the weight array, halved, spread over
  the whole tensor).  Halving: the quotient by the float 2 is the product with 1/2 on every extended real.
-/
import proofs.«150622_j8847632630356_2_alg».proof.ReferenceIdeal
import Idealize.ShloMosaic.Lib.Pipeline.Value
import Idealize.ShloMosaic.Lib.ValueIdx

noncomputable section

namespace Cert.RefSide

open Cert.ReferenceIdeal Idealize.ShloMosaic Idealize.ShloMosaic.ValueIdx

/-- The float word 0x40000000 is the real number 2. -/
theorem ofBits_two : Ideal.ofBits .f32 0x40000000#32 = ((2 : ℝ) : EReal) := by
  simp [Ideal.ofBits, Ideal.ieee, -EReal.coe_mul]
  norm_num

/-- The quotient by the float 2 is the product with one half. -/
theorem div_two (x : EReal) : Ideal.div x (Ideal.ofBits .f32 0x40000000#32) = x * ((1 / 2 : ℝ) : EReal) := by
  rw [ofBits_two, Ideal.div_coe (by norm_num)]

/-- Column q of the angle array as a vector. -/
theorem col_apply (W : S524288x4.Idx → EReal) (q : ℕ) (hq : q < 4)
    (hs : S524288x4.Slices ![0, q] S524288x1) (hc : S524288x1.ShapeCasts S524288) (r : Fin 524288) :
    shapeCast S524288 (extractStridedSlice S524288x1 ![0, q] W hs) hc (ix1 r) = W (ix2 r ⟨q, hq⟩) := by
  refine (shapeCast_apply _ hc (ix1 r) (ix2 r (0 : Fin 1)) ?_).trans ?_
  · rw [Shape.rowMajor_val_two, Shape.rowMajor_val_one]; simp
  · refine extractStridedSlice_apply _ W hs _ _ fun e => ?_
    match e with
    | ⟨0, _⟩ => simp
    | ⟨1, _⟩ => simp

/-- A vector over the rows spread over three unit axes. -/
theorem row1_apply (Y : S524288.Idx → EReal)
    (h : S524288.BroadcastsInDim S524288x1x1x1 (![0] : Fin 1 → Fin S524288x1x1x1.rank))
    (r : Fin 524288) (e1 e2 e3 : Fin 1) :
    broadcastInDim S524288x1x1x1 ![0] h Y (ix4 r e1 e2 e3) = Y (ix1 r) := by
  refine broadcastInDim_apply _ h Y _ _ fun k => ?_
  match k with
  | ⟨0, _⟩ => simp

/-- The three unit axes spread over the three qubit axes. -/
theorem row3_apply (W : S524288x1x1x1.Idx → EReal)
    (h : S524288x1x1x1.BroadcastsInDim S524288x2x2x2 (![0, 1, 2, 3] : Fin 4 → Fin S524288x2x2x2.rank))
    (r : Fin 524288) (a b c : Fin 2) :
    broadcastInDim S524288x2x2x2 ![0, 1, 2, 3] h W (ix4 r a b c) = W (ix4 r 0 0 0) := by
  refine broadcastInDim_apply _ h W _ _ fun k => ?_
  match k with
  | ⟨0, _⟩ => simp
  | ⟨1, _⟩ => simp
  | ⟨2, _⟩ => simp
  | ⟨3, _⟩ => simp

/-- The cosine of a row's halved angle. -/
theorem rowcos_apply (Z : FVec Ideal S524288 .f32) (h0 : S_.BroadcastsInDim S524288 (![] : Fin 0 → Fin S524288.rank))
    (r : Fin 524288) :
    Host.cos (Host.divf Z (broadcastInDim S524288 ![] h0 (constant S_ .f32 0x40000000#32))) (ix1 r)
      = Ideal.cos (Z (ix1 r) * ((1 / 2 : ℝ) : EReal)) := by
  simp only [Host.cos, Host.divf, broadcastInDim, constant, Ideal.hostUnary_cos_def, Ideal.hostDivf_def,
    Ideal.ofBits_def, div_two]

/-- The sine of a row's halved angle. -/
theorem rowsin_apply (Z : FVec Ideal S524288 .f32) (h0 : S_.BroadcastsInDim S524288 (![] : Fin 0 → Fin S524288.rank))
    (r : Fin 524288) :
    Host.sin (Host.divf Z (broadcastInDim S524288 ![] h0 (constant S_ .f32 0x40000000#32))) (ix1 r)
      = Ideal.sin (Z (ix1 r) * ((1 / 2 : ℝ) : EReal)) := by
  simp only [Host.sin, Host.divf, broadcastInDim, constant, Ideal.hostUnary_sin_def, Ideal.hostDivf_def,
    Ideal.ofBits_def, div_two]

/-- Entry (l, q) of the weight array as a scalar. -/
theorem qw_apply (W : S2x4.Idx → EReal) (l q : ℕ) (hl : l < 2) (hq : q < 4)
    (hs : S2x4.Slices ![l, q] S1x1) (hc : S1x1.ShapeCasts S_) (j : S_.Idx) :
    shapeCast S_ (extractStridedSlice S1x1 ![l, q] W hs) hc j = W (ix2 ⟨l, hl⟩ ⟨q, hq⟩) := by
  refine (shapeCast_apply _ hc j (ix2 (0 : Fin 1) (0 : Fin 1)) ?_).trans ?_
  · rw [Shape.rowMajor_val_two]
    have := (S_.rowMajor j).isLt
    simp [Shape.numel] at this ⊢
    omega
  · refine extractStridedSlice_apply _ W hs _ _ fun e => ?_
    match e with
    | ⟨0, _⟩ => simp
    | ⟨1, _⟩ => simp

/-- A scalar spread over the whole tensor. -/
theorem sh_apply (w : S_.Idx → EReal)
    (h : S_.BroadcastsInDim S524288x2x2x2 (![] : Fin 0 → Fin S524288x2x2x2.rank)) (i : S524288x2x2x2.Idx) :
    broadcastInDim S524288x2x2x2 ![] h w i = w ix0 := by
  refine broadcastInDim_apply _ h w _ _ fun k => k.elim0

/-- The cosine of a halved shared angle. -/
theorem shcos_apply (z : FVec Ideal S_ .f32) (j : S_.Idx) :
    Host.cos (Host.divf z (constant S_ .f32 0x40000000#32)) j = Ideal.cos (z j * ((1 / 2 : ℝ) : EReal)) := by
  simp only [Host.cos, Host.divf, constant, Ideal.hostUnary_cos_def, Ideal.hostDivf_def, Ideal.ofBits_def, div_two]

/-- The sine of a halved shared angle. -/
theorem shsin_apply (z : FVec Ideal S_ .f32) (j : S_.Idx) :
    Host.sin (Host.divf z (constant S_ .f32 0x40000000#32)) j = Ideal.sin (z j * ((1 / 2 : ℝ) : EReal)) := by
  simp only [Host.sin, Host.divf, constant, Ideal.hostUnary_sin_def, Ideal.hostDivf_def, Ideal.ofBits_def, div_two]

end Cert.RefSide

end
-- ==== Proof.RefCoefs.lean ====
/-
  The cosines and sines the gates use, read at an index: each is the cosine or sine of a halved angle, a row's own
  (a column of the angle array) or a layer's shared one (an entry of the weight array).
-/
import proofs.«150622_j8847632630356_2_alg».proof.Proof.RefState
import proofs.«150622_j8847632630356_2_alg».proof.Proof.RefAngles
import Idealize.ShloMosaic.Lib.ValueIdx

noncomputable section

namespace Cert.RefSide

open Cert.ReferenceIdeal Cert.ReferenceIdeal.Value Idealize.ShloMosaic Idealize.ShloMosaic.TcCoe Idealize.SL.Sem Idealize.ShloMosaic.ValueIdx
open Cert.Circuit

variable (V0 : Valuation τ sig (Elt Ideal))

/-- Column 0 of the angle array. -/
theorem v20_apply (r : Fin 524288) : res_main_v20 V0 (ix1 r) = ang V0 r 0 :=
  col_apply (res_main_v13 V0) 0 (by norm_num) _ _ r

/-- Column 1 of the angle array. -/
theorem v53_apply (r : Fin 524288) : res_main_v53 V0 (ix1 r) = ang V0 r 1 :=
  col_apply (res_main_v13 V0) 1 (by norm_num) _ _ r

/-- Column 2 of the angle array. -/
theorem v86_apply (r : Fin 524288) : res_main_v86 V0 (ix1 r) = ang V0 r 2 :=
  col_apply (res_main_v13 V0) 2 (by norm_num) _ _ r

/-- Column 3 of the angle array. -/
theorem v119_apply (r : Fin 524288) : res_main_v119 V0 (ix1 r) = ang V0 r 3 :=
  col_apply (res_main_v13 V0) 3 (by norm_num) _ _ r

/-- The cosine of row r's halved angle 0, on its three unit axes. -/
theorem v27_apply (r : Fin 524288) : res_main_v27 V0 (ix4 r 0 0 0) = rco V0 r 0 := by
  unfold res_main_v27
  rw [row1_apply, rowcos_apply, v20_apply]
  rfl

/-- The sine of row r's halved angle 0, on its three unit axes. -/
theorem v28_apply (r : Fin 524288) : res_main_v28 V0 (ix4 r 0 0 0) = rsi V0 r 0 := by
  unfold res_main_v28
  rw [row1_apply, rowsin_apply, v20_apply]
  rfl

/-- The cosine of row r's halved angle 1, on its three unit axes. -/
theorem v60_apply (r : Fin 524288) : res_main_v60 V0 (ix4 r 0 0 0) = rco V0 r 1 := by
  unfold res_main_v60
  rw [row1_apply, rowcos_apply, v53_apply]
  rfl

/-- The sine of row r's halved angle 1, on its three unit axes. -/
theorem v61_apply (r : Fin 524288) : res_main_v61 V0 (ix4 r 0 0 0) = rsi V0 r 1 := by
  unfold res_main_v61
  rw [row1_apply, rowsin_apply, v53_apply]
  rfl

/-- The cosine of row r's halved angle 2, on its three unit axes. -/
theorem v93_apply (r : Fin 524288) : res_main_v93 V0 (ix4 r 0 0 0) = rco V0 r 2 := by
  unfold res_main_v93
  rw [row1_apply, rowcos_apply, v86_apply]
  rfl

/-- The sine of row r's halved angle 2, on its three unit axes. -/
theorem v94_apply (r : Fin 524288) : res_main_v94 V0 (ix4 r 0 0 0) = rsi V0 r 2 := by
  unfold res_main_v94
  rw [row1_apply, rowsin_apply, v86_apply]
  rfl

/-- The cosine of row r's halved angle 3, on its three unit axes. -/
theorem v126_apply (r : Fin 524288) : res_main_v126 V0 (ix4 r 0 0 0) = rco V0 r 3 := by
  unfold res_main_v126
  rw [row1_apply, rowcos_apply, v119_apply]
  rfl

/-- The sine of row r's halved angle 3, on its three unit axes. -/
theorem v127_apply (r : Fin 524288) : res_main_v127 V0 (ix4 r 0 0 0) = rsi V0 r 3 := by
  unfold res_main_v127
  rw [row1_apply, rowsin_apply, v119_apply]
  rfl

/-- Entry (0, 0) of the weight array. -/
theorem v150_apply (j : S_.Idx) : res_main_v150 V0 j = wgt V0 0 0 :=
  qw_apply _ 0 0 (by norm_num) (by norm_num) _ _ j

/-- Entry (0, 1) of the weight array. -/
theorem v179_apply (j : S_.Idx) : res_main_v179 V0 j = wgt V0 0 1 :=
  qw_apply _ 0 1 (by norm_num) (by norm_num) _ _ j

/-- Entry (0, 2) of the weight array. -/
theorem v208_apply (j : S_.Idx) : res_main_v208 V0 j = wgt V0 0 2 :=
  qw_apply _ 0 2 (by norm_num) (by norm_num) _ _ j

/-- Entry (0, 3) of the weight array. -/
theorem v237_apply (j : S_.Idx) : res_main_v237 V0 j = wgt V0 0 3 :=
  qw_apply _ 0 3 (by norm_num) (by norm_num) _ _ j

/-- Entry (1, 0) of the weight array. -/
theorem v286_apply (j : S_.Idx) : res_main_v286 V0 j = wgt V0 1 0 :=
  qw_apply _ 1 0 (by norm_num) (by norm_num) _ _ j

/-- Entry (1, 1) of the weight array. -/
theorem v315_apply (j : S_.Idx) : res_main_v315 V0 j = wgt V0 1 1 :=
  qw_apply _ 1 1 (by norm_num) (by norm_num) _ _ j

/-- Entry (1, 2) of the weight array. -/
theorem v344_apply (j : S_.Idx) : res_main_v344 V0 j = wgt V0 1 2 :=
  qw_apply _ 1 2 (by norm_num) (by norm_num) _ _ j

/-- Entry (1, 3) of the weight array. -/
theorem v373_apply (j : S_.Idx) : res_main_v373 V0 j = wgt V0 1 3 :=
  qw_apply _ 1 3 (by norm_num) (by norm_num) _ _ j

/-- The cosine of layer 0's halved angle 0. -/
theorem v152_apply : res_main_v152 V0 ix0 = sco V0 0 0 := by
  unfold res_main_v152
  rw [shcos_apply, v150_apply]
  rfl

/-- The sine of layer 0's halved angle 0. -/
theorem v154_apply : res_main_v154 V0 ix0 = ssi V0 0 0 := by
  unfold res_main_v154
  rw [shsin_apply, v150_apply]
  rfl

/-- The cosine of layer 0's halved angle 1. -/
theorem v181_apply : res_main_v181 V0 ix0 = sco V0 0 1 := by
  unfold res_main_v181
  rw [shcos_apply, v179_apply]
  rfl

/-- The sine of layer 0's halved angle 1. -/
theorem v183_apply : res_main_v183 V0 ix0 = ssi V0 0 1 := by
  unfold res_main_v183
  rw [shsin_apply, v179_apply]
  rfl

/-- The cosine of layer 0's halved angle 2. -/
theorem v210_apply : res_main_v210 V0 ix0 = sco V0 0 2 := by
  unfold res_main_v210
  rw [shcos_apply, v208_apply]
  rfl

/-- The sine of layer 0's halved angle 2. -/
theorem v212_apply : res_main_v212 V0 ix0 = ssi V0 0 2 := by
  unfold res_main_v212
  rw [shsin_apply, v208_apply]
  rfl

/-- The cosine of layer 0's halved angle 3. -/
theorem v239_apply : res_main_v239 V0 ix0 = sco V0 0 3 := by
  unfold res_main_v239
  rw [shcos_apply, v237_apply]
  rfl

/-- The sine of layer 0's halved angle 3. -/
theorem v241_apply : res_main_v241 V0 ix0 = ssi V0 0 3 := by
  unfold res_main_v241
  rw [shsin_apply, v237_apply]
  rfl

/-- The cosine of layer 1's halved angle 0. -/
theorem v288_apply : res_main_v288 V0 ix0 = sco V0 1 0 := by
  unfold res_main_v288
  rw [shcos_apply, v286_apply]
  rfl

/-- The sine of layer 1's halved angle 0. -/
theorem v290_apply : res_main_v290 V0 ix0 = ssi V0 1 0 := by
  unfold res_main_v290
  rw [shsin_apply, v286_apply]
  rfl

/-- The cosine of layer 1's halved angle 1. -/
theorem v317_apply : res_main_v317 V0 ix0 = sco V0 1 1 := by
  unfold res_main_v317
  rw [shcos_apply, v315_apply]
  rfl

/-- The sine of layer 1's halved angle 1. -/
theorem v319_apply : res_main_v319 V0 ix0 = ssi V0 1 1 := by
  unfold res_main_v319
  rw [shsin_apply, v315_apply]
  rfl

/-- The cosine of layer 1's halved angle 2. -/
theorem v346_apply : res_main_v346 V0 ix0 = sco V0 1 2 := by
  unfold res_main_v346
  rw [shcos_apply, v344_apply]
  rfl

/-- The sine of layer 1's halved angle 2. -/
theorem v348_apply : res_main_v348 V0 ix0 = ssi V0 1 2 := by
  unfold res_main_v348
  rw [shsin_apply, v344_apply]
  rfl

/-- The cosine of layer 1's halved angle 3. -/
theorem v375_apply : res_main_v375 V0 ix0 = sco V0 1 3 := by
  unfold res_main_v375
  rw [shcos_apply, v373_apply]
  rfl

/-- The sine of layer 1's halved angle 3. -/
theorem v377_apply : res_main_v377 V0 ix0 = ssi V0 1 3 := by
  unfold res_main_v377
  rw [shsin_apply, v373_apply]
  rfl

end Cert.RefSide

end
-- ==== Proof.RefLayout.lean ====
/-
  The layout operations of the state tensors, read at an index given by its coordinates: a slice of the last
  axis, a new trailing unit axis, the concatenation of two such along the last axis.
-/
import proofs.«150622_j8847632630356_2_alg».proof.ReferenceIdeal
import Idealize.ShloMosaic.Lib.Pipeline.Value
import Idealize.ShloMosaic.Lib.ValueIdx
import proofs.«150622_j8847632630356_2_alg».proof.Proof.Circuit

noncomputable section

namespace Cert.RefSide

open Cert.ReferenceIdeal Idealize.ShloMosaic Idealize.ShloMosaic.ValueIdx

/-- Entry 0 of the last axis, the unit axis dropped. -/
theorem slice0_apply (X : S524288x2x2x2x2.Idx → EReal)
    (hs : S524288x2x2x2x2.Slices ![0, 0, 0, 0, 0] S524288x2x2x2x1) (hc : S524288x2x2x2x1.ShapeCasts S524288x2x2x2)
    (r : Fin 524288) (a b c : Fin 2) :
    shapeCast S524288x2x2x2 (extractStridedSlice S524288x2x2x2x1 ![0, 0, 0, 0, 0] X hs) hc (ix4 r a b c)
      = X (ix5 r a b c 0) := by
  refine (shapeCast_apply _ hc (ix4 r a b c) (ix5 r a b c (0 : Fin 1)) ?_).trans ?_
  · rw [Shape.rowMajor_val_five, Shape.rowMajor_val_four]; simp
  · refine extractStridedSlice_apply _ X hs _ _ fun e => ?_
    match e with
    | ⟨0, _⟩ => simp
    | ⟨1, _⟩ => simp
    | ⟨2, _⟩ => simp
    | ⟨3, _⟩ => simp
    | ⟨4, _⟩ => simp

/-- Entry 1 of the last axis, the unit axis dropped. -/
theorem slice1_apply (X : S524288x2x2x2x2.Idx → EReal)
    (hs : S524288x2x2x2x2.Slices ![0, 0, 0, 0, 1] S524288x2x2x2x1) (hc : S524288x2x2x2x1.ShapeCasts S524288x2x2x2)
    (r : Fin 524288) (a b c : Fin 2) :
    shapeCast S524288x2x2x2 (extractStridedSlice S524288x2x2x2x1 ![0, 0, 0, 0, 1] X hs) hc (ix4 r a b c)
      = X (ix5 r a b c 1) := by
  refine (shapeCast_apply _ hc (ix4 r a b c) (ix5 r a b c (0 : Fin 1)) ?_).trans ?_
  · rw [Shape.rowMajor_val_five, Shape.rowMajor_val_four]; simp
  · refine extractStridedSlice_apply _ X hs _ _ fun e => ?_
    match e with
    | ⟨0, _⟩ => simp
    | ⟨1, _⟩ => simp
    | ⟨2, _⟩ => simp
    | ⟨3, _⟩ => simp
    | ⟨4, _⟩ => simp

/-- A new trailing unit axis. -/
theorem unit_apply (Y : S524288x2x2x2.Idx → EReal)
    (hb : S524288x2x2x2.BroadcastsInDim S524288x2x2x2x1 (![0, 1, 2, 3] : Fin 4 → Fin S524288x2x2x2x1.rank))
    (r : Fin 524288) (a b c : Fin 2) (e : Fin 1) :
    broadcastInDim S524288x2x2x2x1 ![0, 1, 2, 3] hb Y (ix5 r a b c e) = Y (ix4 r a b c) := by
  refine broadcastInDim_apply _ hb Y _ _ fun k => ?_
  match k with
  | ⟨0, _⟩ => simp
  | ⟨1, _⟩ => simp
  | ⟨2, _⟩ => simp
  | ⟨3, _⟩ => simp

/-- Two arrays with a trailing unit axis, concatenated along it: entry 0 reads the first, entry 1 the second. -/
theorem cat_apply (A B : S524288x2x2x2x1.Idx → EReal)
    (h : Shape.Concatenates [S524288x2x2x2x1, S524288x2x2x2x1] S524288x2x2x2x2 4)
    (r : Fin 524288) (a b c d : Fin 2) :
    concatenate S524288x2x2x2x2 4 [⟨S524288x2x2x2x1, A⟩, ⟨S524288x2x2x2x1, B⟩] h (ix5 r a b c d)
      = if d = 0 then A (ix5 r a b c 0) else B (ix5 r a b c 0) := by
  by_cases hd : d = 0
  · subst hd
    rw [if_pos rfl]
    refine concatenate_pair_apply_left 4 A B h _ rfl _ fun k => ?_
    match k with
    | ⟨0, _⟩ => rfl
    | ⟨1, _⟩ => rfl
    | ⟨2, _⟩ => rfl
    | ⟨3, _⟩ => rfl
    | ⟨4, _⟩ => rfl
  · have hd1 : d = 1 := by omega
    subst hd1
    rw [if_neg (by decide)]
    refine concatenate_pair_apply_right 4 A B h _ rfl rfl _ (fun k hk => ?_) ?_
    · match k with
      | ⟨0, _⟩ => rfl
      | ⟨1, _⟩ => rfl
      | ⟨2, _⟩ => rfl
      | ⟨3, _⟩ => rfl
      | ⟨4, _⟩ => exact absurd rfl hk
    · rfl

end Cert.RefSide

end
-- ==== Proof.RefGates.lean ====
/-
  The two gate patterns on a state tensor whose last axis is the rotated (or target) qubit.

  A rotation: with X the tensor, CO and SI the cosine and sine already spread over the leading four axes, the
  result's entry 0 of the last axis is CO·X₀ − SI·X₁ and its entry 1 is SI·X₀ + CO·X₁.
  A controlled NOT with the control on axis 3 and the target on axis 4: where the control is 1 the target is flipped.
-/
import proofs.«150622_j8847632630356_2_alg».proof.Proof.RefLayout

noncomputable section

namespace Cert.RefSide

open Cert.ReferenceIdeal Idealize.ShloMosaic Idealize.ShloMosaic.ValueIdx

/-- The rotation pattern at an index. -/
theorem ry_core (X : FVec Ideal S524288x2x2x2x2 .f32) (CO SI : FVec Ideal S524288x2x2x2 .f32)
    (hs0 : S524288x2x2x2x2.Slices ![0, 0, 0, 0, 0] S524288x2x2x2x1)
    (hs1 : S524288x2x2x2x2.Slices ![0, 0, 0, 0, 1] S524288x2x2x2x1)
    (hc : S524288x2x2x2x1.ShapeCasts S524288x2x2x2)
    (hb : S524288x2x2x2.BroadcastsInDim S524288x2x2x2x1 (![0, 1, 2, 3] : Fin 4 → Fin S524288x2x2x2x1.rank))
    (h : Shape.Concatenates [S524288x2x2x2x1, S524288x2x2x2x1] S524288x2x2x2x2 4)
    (r : Fin 524288) (a b c d : Fin 2) :
    concatenate S524288x2x2x2x2 4
      [⟨S524288x2x2x2x1, (broadcastInDim S524288x2x2x2x1 ![0, 1, 2, 3] hb
          (subf (mulf CO (shapeCast _ (extractStridedSlice S524288x2x2x2x1 ![0, 0, 0, 0, 0] X hs0) hc))
                (mulf SI (shapeCast _ (extractStridedSlice S524288x2x2x2x1 ![0, 0, 0, 0, 1] X hs1) hc))))⟩,
       ⟨S524288x2x2x2x1, (broadcastInDim S524288x2x2x2x1 ![0, 1, 2, 3] hb
          (addf (mulf SI (shapeCast _ (extractStridedSlice S524288x2x2x2x1 ![0, 0, 0, 0, 0] X hs0) hc))
                (mulf CO (shapeCast _ (extractStridedSlice S524288x2x2x2x1 ![0, 0, 0, 0, 1] X hs1) hc))))⟩] h
      (ix5 r a b c d)
    = if d = 0 then Cert.Circuit.rotLo (CO (ix4 r a b c)) (SI (ix4 r a b c)) (X (ix5 r a b c 0)) (X (ix5 r a b c 1))
      else Cert.Circuit.rotHi (CO (ix4 r a b c)) (SI (ix4 r a b c)) (X (ix5 r a b c 0)) (X (ix5 r a b c 1)) := by
  rw [cat_apply, unit_apply, unit_apply, subf_apply, addf_apply, mulf_apply, mulf_apply, mulf_apply, mulf_apply,
    slice0_apply, slice1_apply]
  rfl

end Cert.RefSide

end
-- ==== Proof.RefTranspose.lean ====
/-
  The six axis permutations of the state tensors, read at an index given by its coordinates.
-/
import proofs.«150622_j8847632630356_2_alg».proof.ReferenceIdeal
import Idealize.ShloMosaic.Lib.Pipeline.Value
import Idealize.ShloMosaic.Lib.ValueIdx

noncomputable section

namespace Cert.RefSide

open Cert.ReferenceIdeal Idealize.ShloMosaic Idealize.ShloMosaic.ValueIdx

/-- The permutation [0, 2, 3, 4, 1]: the result's coordinate b is the operand's coordinate on axis perm[b]. -/
theorem tr02341_apply (X : S524288x2x2x2x2.Idx → EReal)
    (h : S524288x2x2x2x2.Transposes [0, 2, 3, 4, 1] S524288x2x2x2x2) (r : Fin 524288) (a b c d : Fin 2) :
    transpose S524288x2x2x2x2 [0, 2, 3, 4, 1] X h (ix5 r a b c d) = X (ix5 r d a b c) := by
  refine transpose_apply _ X h _ _ fun k => ?_
  match k with
  | ⟨0, _⟩ => rfl
  | ⟨1, _⟩ => rfl
  | ⟨2, _⟩ => rfl
  | ⟨3, _⟩ => rfl
  | ⟨4, _⟩ => rfl

/-- The permutation [0, 4, 1, 2, 3]: the result's coordinate b is the operand's coordinate on axis perm[b]. -/
theorem tr04123_apply (X : S524288x2x2x2x2.Idx → EReal)
    (h : S524288x2x2x2x2.Transposes [0, 4, 1, 2, 3] S524288x2x2x2x2) (r : Fin 524288) (a b c d : Fin 2) :
    transpose S524288x2x2x2x2 [0, 4, 1, 2, 3] X h (ix5 r a b c d) = X (ix5 r b c d a) := by
  refine transpose_apply _ X h _ _ fun k => ?_
  match k with
  | ⟨0, _⟩ => rfl
  | ⟨1, _⟩ => rfl
  | ⟨2, _⟩ => rfl
  | ⟨3, _⟩ => rfl
  | ⟨4, _⟩ => rfl

/-- The permutation [0, 1, 3, 4, 2]: the result's coordinate b is the operand's coordinate on axis perm[b]. -/
theorem tr01342_apply (X : S524288x2x2x2x2.Idx → EReal)
    (h : S524288x2x2x2x2.Transposes [0, 1, 3, 4, 2] S524288x2x2x2x2) (r : Fin 524288) (a b c d : Fin 2) :
    transpose S524288x2x2x2x2 [0, 1, 3, 4, 2] X h (ix5 r a b c d) = X (ix5 r a d b c) := by
  refine transpose_apply _ X h _ _ fun k => ?_
  match k with
  | ⟨0, _⟩ => rfl
  | ⟨1, _⟩ => rfl
  | ⟨2, _⟩ => rfl
  | ⟨3, _⟩ => rfl
  | ⟨4, _⟩ => rfl

/-- The permutation [0, 1, 4, 2, 3]: the result's coordinate b is the operand's coordinate on axis perm[b]. -/
theorem tr01423_apply (X : S524288x2x2x2x2.Idx → EReal)
    (h : S524288x2x2x2x2.Transposes [0, 1, 4, 2, 3] S524288x2x2x2x2) (r : Fin 524288) (a b c d : Fin 2) :
    transpose S524288x2x2x2x2 [0, 1, 4, 2, 3] X h (ix5 r a b c d) = X (ix5 r a c d b) := by
  refine transpose_apply _ X h _ _ fun k => ?_
  match k with
  | ⟨0, _⟩ => rfl
  | ⟨1, _⟩ => rfl
  | ⟨2, _⟩ => rfl
  | ⟨3, _⟩ => rfl
  | ⟨4, _⟩ => rfl

/-- The permutation [0, 1, 2, 4, 3]: the result's coordinate b is the operand's coordinate on axis perm[b]. -/
theorem tr01243_apply (X : S524288x2x2x2x2.Idx → EReal)
    (h : S524288x2x2x2x2.Transposes [0, 1, 2, 4, 3] S524288x2x2x2x2) (r : Fin 524288) (a b c d : Fin 2) :
    transpose S524288x2x2x2x2 [0, 1, 2, 4, 3] X h (ix5 r a b c d) = X (ix5 r a b d c) := by
  refine transpose_apply _ X h _ _ fun k => ?_
  match k with
  | ⟨0, _⟩ => rfl
  | ⟨1, _⟩ => rfl
  | ⟨2, _⟩ => rfl
  | ⟨3, _⟩ => rfl
  | ⟨4, _⟩ => rfl

/-- The permutation [0, 3, 4, 1, 2]: the result's coordinate b is the operand's coordinate on axis perm[b]. -/
theorem tr03412_apply (X : S524288x2x2x2x2.Idx → EReal)
    (h : S524288x2x2x2x2.Transposes [0, 3, 4, 1, 2] S524288x2x2x2x2) (r : Fin 524288) (a b c d : Fin 2) :
    transpose S524288x2x2x2x2 [0, 3, 4, 1, 2] X h (ix5 r a b c d) = X (ix5 r c d a b) := by
  refine transpose_apply _ X h _ _ fun k => ?_
  match k with
  | ⟨0, _⟩ => rfl
  | ⟨1, _⟩ => rfl
  | ⟨2, _⟩ => rfl
  | ⟨3, _⟩ => rfl
  | ⟨4, _⟩ => rfl

end Cert.RefSide

end
-- ==== Proof.RefEmbed.lean ====
/-
  The initial state and the four rotations by a row's own angles: after each, the tensor holds the row's state.
-/
import proofs.«150622_j8847632630356_2_alg».proof.Proof.RefInit
import proofs.«150622_j8847632630356_2_alg».proof.Proof.RefCoefs
import proofs.«150622_j8847632630356_2_alg».proof.Proof.RefGates
import proofs.«150622_j8847632630356_2_alg».proof.Proof.RefTranspose
import Idealize.ShloMosaic.Lib.ValueIdx

noncomputable section

namespace Cert.RefSide

open Cert.ReferenceIdeal Cert.ReferenceIdeal.Value Idealize.ShloMosaic Idealize.ShloMosaic.TcCoe Idealize.SL.Sem Idealize.ShloMosaic.ValueIdx
open Cert.Circuit

variable (V0 : Valuation τ sig (Elt Ideal))

/-- The initial tensor, qubit 0 moved to the last axis, holds the basis state 0000 in every row. -/
theorem v29_apply (r : Fin 524288) (a b c d : Fin 2) : res_main_v29 V0 (ix5 r b c d a) = Cert.Circuit.init a b c d := by
  unfold res_main_v29
  rw [tr02341_apply]
  exact init_apply _ _ _ _ _ r a b c d

/-- The tensor after the rotation of qubit 0 holds the row's state, qubits on its axes in the order 0, 2, 3, 1. -/
theorem v62_apply (r : Fin 524288) (a b c d : Fin 2) : res_main_v62 V0 (ix5 r a c d b) = st1 V0 r a b c d := by
  unfold res_main_v62
  rw [tr01342_apply, tr04123_apply, ry_core, v29_apply, v29_apply, row3_apply, row3_apply, v27_apply, v28_apply]
  rfl

/-- The tensor after the rotation of qubit 1 holds the row's state, qubits on its axes in the order 0, 1, 3, 2. -/
theorem v95_apply (r : Fin 524288) (a b c d : Fin 2) : res_main_v95 V0 (ix5 r a b d c) = st2 V0 r a b c d := by
  unfold res_main_v95
  rw [tr01243_apply, tr01423_apply, ry_core, v62_apply, v62_apply, row3_apply, row3_apply, v60_apply, v61_apply]
  rfl

/-- The tensor after the rotation of qubit 2 holds the row's state, qubits on its axes in the order 0, 1, 2, 3. -/
theorem v117_apply (r : Fin 524288) (a b c d : Fin 2) : res_main_v117 V0 (ix5 r a b c d) = st3 V0 r a b c d := by
  unfold res_main_v117
  rw [tr01243_apply, ry_core, v95_apply, v95_apply, row3_apply, row3_apply, v93_apply, v94_apply]
  rfl

/-- The tensor after the rotation of qubit 3 holds the row's state, qubits on its axes in the order 1, 2, 3, 0. -/
theorem v155_apply (r : Fin 524288) (a b c d : Fin 2) : res_main_v155 V0 (ix5 r b c d a) = st4 V0 r a b c d := by
  unfold res_main_v155
  rw [tr02341_apply, ry_core, v117_apply, v117_apply, row3_apply, row3_apply, v126_apply, v127_apply]
  rfl

end Cert.RefSide

end
-- ==== Proof.RefCnot.lean ====
/-
  The layout operations of a controlled NOT, read at an index given by its coordinates: the two unit slices of
  axis 3 (the control), the reversal of axis 4 (the target), their concatenation along axis 3; and the pattern
  they make: where the control is 1 the target is flipped.
-/
import proofs.«150622_j8847632630356_2_alg».proof.ReferenceIdeal
import Idealize.ShloMosaic.Lib.Pipeline.Value
import Idealize.ShloMosaic.Lib.ValueIdx

noncomputable section

namespace Cert.RefSide

open Cert.ReferenceIdeal Idealize.ShloMosaic Idealize.ShloMosaic.ValueIdx

/-- Entry 0 of axis 3, kept as a unit axis. -/
theorem ctl0_apply (X : S524288x2x2x2x2.Idx → EReal)
    (hs : S524288x2x2x2x2.Slices ![0, 0, 0, 0, 0] S524288x2x2x1x2)
    (r : Fin 524288) (a b : Fin 2) (e : Fin 1) (d : Fin 2) :
    extractStridedSlice S524288x2x2x1x2 ![0, 0, 0, 0, 0] X hs (ix5 r a b e d) = X (ix5 r a b 0 d) := by
  refine extractStridedSlice_apply _ X hs _ _ fun k => ?_
  match k with
  | ⟨0, _⟩ => simp
  | ⟨1, _⟩ => simp
  | ⟨2, _⟩ => simp
  | ⟨3, _⟩ => simp
  | ⟨4, _⟩ => simp

/-- Entry 1 of axis 3, kept as a unit axis. -/
theorem ctl1_apply (X : S524288x2x2x2x2.Idx → EReal)
    (hs : S524288x2x2x2x2.Slices ![0, 0, 0, 1, 0] S524288x2x2x1x2)
    (r : Fin 524288) (a b : Fin 2) (e : Fin 1) (d : Fin 2) :
    extractStridedSlice S524288x2x2x1x2 ![0, 0, 0, 1, 0] X hs (ix5 r a b e d) = X (ix5 r a b 1 d) := by
  refine extractStridedSlice_apply _ X hs _ _ fun k => ?_
  match k with
  | ⟨0, _⟩ => simp
  | ⟨1, _⟩ => simp
  | ⟨2, _⟩ => simp
  | ⟨3, _⟩ => simp
  | ⟨4, _⟩ => simp

/-- The last axis reversed. -/
theorem rev_apply (Y : S524288x2x2x1x2.Idx → EReal) (r : Fin 524288) (a b : Fin 2) (e : Fin 1) (d : Fin 2) :
    Host.reverse [4] Y (ix5 r a b e d) = Y (ix5 r a b e d.rev) := by
  unfold Host.reverse
  refine congrArg Y (funext fun k => ?_)
  match k with
  | ⟨0, _⟩ => rfl
  | ⟨1, _⟩ => rfl
  | ⟨2, _⟩ => rfl
  | ⟨3, _⟩ => rfl
  | ⟨4, _⟩ => rfl

/-- Two arrays with a unit axis 3, concatenated along it: entry 0 reads the first, entry 1 the second. -/
theorem cat3_apply (A B : S524288x2x2x1x2.Idx → EReal)
    (h : Shape.Concatenates [S524288x2x2x1x2, S524288x2x2x1x2] S524288x2x2x2x2 3)
    (r : Fin 524288) (a b c d : Fin 2) :
    concatenate S524288x2x2x2x2 3 [⟨S524288x2x2x1x2, A⟩, ⟨S524288x2x2x1x2, B⟩] h (ix5 r a b c d)
      = if c = 0 then A (ix5 r a b 0 d) else B (ix5 r a b 0 d) := by
  by_cases hc : c = 0
  · subst hc
    rw [if_pos rfl]
    refine concatenate_pair_apply_left 3 A B h _ rfl _ fun k => ?_
    match k with
    | ⟨0, _⟩ => rfl
    | ⟨1, _⟩ => rfl
    | ⟨2, _⟩ => rfl
    | ⟨3, _⟩ => rfl
    | ⟨4, _⟩ => rfl
  · have hc1 : c = 1 := by omega
    subst hc1
    rw [if_neg (by decide)]
    refine concatenate_pair_apply_right 3 A B h _ rfl rfl _ (fun k hk => ?_) ?_
    · match k with
      | ⟨0, _⟩ => rfl
      | ⟨1, _⟩ => rfl
      | ⟨2, _⟩ => rfl
      | ⟨3, _⟩ => exact absurd rfl hk
      | ⟨4, _⟩ => rfl
    · rfl

/-- The controlled-NOT pattern at an index: control on axis 3, target on axis 4. -/
theorem cnot_core (X : S524288x2x2x2x2.Idx → EReal)
    (hs0 : S524288x2x2x2x2.Slices ![0, 0, 0, 0, 0] S524288x2x2x1x2)
    (hs1 : S524288x2x2x2x2.Slices ![0, 0, 0, 1, 0] S524288x2x2x1x2)
    (h : Shape.Concatenates [S524288x2x2x1x2, S524288x2x2x1x2] S524288x2x2x2x2 3)
    (r : Fin 524288) (a b c d : Fin 2) :
    concatenate S524288x2x2x2x2 3
      [⟨S524288x2x2x1x2, (extractStridedSlice S524288x2x2x1x2 ![0, 0, 0, 0, 0] X hs0)⟩,
       ⟨S524288x2x2x1x2, (Host.reverse [4] (extractStridedSlice S524288x2x2x1x2 ![0, 0, 0, 1, 0] X hs1))⟩] h
      (ix5 r a b c d)
    = if c = 1 then X (ix5 r a b c d.rev) else X (ix5 r a b c d) := by
  rw [cat3_apply]
  by_cases hc : c = 0
  · subst hc
    rw [if_pos rfl, if_neg (by decide), ctl0_apply]
  · have hc1 : c = 1 := by omega
    subst hc1
    rw [if_neg (by decide), if_pos rfl, rev_apply, ctl1_apply]

end Cert.RefSide

end
-- ==== Proof.RefLayer0.lean ====
/-
  Layer 0: the four rotations by the shared angles and the ring of controlled NOTs; after each gate the tensor
  holds the row's state.
-/
import proofs.«150622_j8847632630356_2_alg».proof.Proof.RefEmbed
import proofs.«150622_j8847632630356_2_alg».proof.Proof.RefCnot
import Idealize.ShloMosaic.Lib.ValueIdx

noncomputable section

namespace Cert.RefSide

open Cert.ReferenceIdeal Cert.ReferenceIdeal.Value Idealize.ShloMosaic Idealize.ShloMosaic.TcCoe Idealize.SL.Sem Idealize.ShloMosaic.ValueIdx
open Cert.Circuit

variable (V0 : Valuation τ sig (Elt Ideal))

/-- The tensor after the rotation of qubit 0 holds the row's state, qubits on its axes in the order 0, 2, 3, 1. -/
theorem v184_apply (r : Fin 524288) (a b c d : Fin 2) : res_main_v184 V0 (ix5 r a c d b) = st5 V0 r a b c d := by
  unfold res_main_v184
  rw [tr01342_apply, tr04123_apply, ry_core, v155_apply, v155_apply, sh_apply, sh_apply, v152_apply, v154_apply]
  rfl

/-- The tensor after the rotation of qubit 1 holds the row's state, qubits on its axes in the order 0, 1, 3, 2. -/
theorem v213_apply (r : Fin 524288) (a b c d : Fin 2) : res_main_v213 V0 (ix5 r a b d c) = st6 V0 r a b c d := by
  unfold res_main_v213
  rw [tr01243_apply, tr01423_apply, ry_core, v184_apply, v184_apply, sh_apply, sh_apply, v181_apply, v183_apply]
  rfl

/-- The tensor after the rotation of qubit 2 holds the row's state, qubits on its axes in the order 0, 1, 2, 3. -/
theorem v235_apply (r : Fin 524288) (a b c d : Fin 2) : res_main_v235 V0 (ix5 r a b c d) = st7 V0 r a b c d := by
  unfold res_main_v235
  rw [tr01243_apply, ry_core, v213_apply, v213_apply, sh_apply, sh_apply, v210_apply, v212_apply]
  rfl

/-- The tensor after the rotation of qubit 3 holds the row's state, qubits on its axes in the order 2, 3, 0, 1. -/
theorem v263_apply (r : Fin 524288) (a b c d : Fin 2) : res_main_v263 V0 (ix5 r c d a b) = st8 V0 r a b c d := by
  unfold res_main_v263
  rw [tr03412_apply, ry_core, v235_apply, v235_apply, sh_apply, sh_apply, v239_apply, v241_apply]
  rfl

/-- The tensor after the controlled NOT 0→1 holds the row's state, qubits on its axes in the order 0, 3, 1, 2. -/
theorem v269_apply (r : Fin 524288) (a b c d : Fin 2) : res_main_v269 V0 (ix5 r a d b c) = st9 V0 r a b c d := by
  unfold res_main_v269
  rw [tr01423_apply, tr03412_apply, cnot_core, v263_apply, v263_apply]
  rfl

/-- The tensor after the controlled NOT 1→2 holds the row's state, qubits on its axes in the order 0, 1, 2, 3. -/
theorem v274_apply (r : Fin 524288) (a b c d : Fin 2) : res_main_v274 V0 (ix5 r a b c d) = st10 V0 r a b c d := by
  unfold res_main_v274
  rw [tr01342_apply, cnot_core, v269_apply, v269_apply]
  rfl

/-- The tensor after the controlled NOT 2→3 holds the row's state, qubits on its axes in the order 1, 2, 3, 0. -/
theorem v279_apply (r : Fin 524288) (a b c d : Fin 2) : res_main_v279 V0 (ix5 r b c d a) = st11 V0 r a b c d := by
  unfold res_main_v279
  rw [tr02341_apply, cnot_core, v274_apply, v274_apply]
  rfl

/-- The tensor after the controlled NOT 3→0 holds the row's state, qubits on its axes in the order 1, 2, 3, 0. -/
theorem v291_apply (r : Fin 524288) (a b c d : Fin 2) : res_main_v291 V0 (ix5 r b c d a) = st12 V0 r a b c d := by
  unfold res_main_v291
  rw [tr02341_apply, tr04123_apply, cnot_core, v279_apply, v279_apply]
  rfl

end Cert.RefSide

end
-- ==== Proof.RefLayer1.lean ====
/-
  Layer 1: the four rotations by the shared angles and the ring of controlled NOTs; after each gate the tensor
  holds the row's state.
-/
import proofs.«150622_j8847632630356_2_alg».proof.Proof.RefLayer0
import Idealize.ShloMosaic.Lib.ValueIdx

noncomputable section

namespace Cert.RefSide

open Cert.ReferenceIdeal Cert.ReferenceIdeal.Value Idealize.ShloMosaic Idealize.ShloMosaic.TcCoe Idealize.SL.Sem Idealize.ShloMosaic.ValueIdx
open Cert.Circuit

variable (V0 : Valuation τ sig (Elt Ideal))

/-- The tensor after the rotation of qubit 0 holds the row's state, qubits on its axes in the order 0, 2, 3, 1. -/
theorem v320_apply (r : Fin 524288) (a b c d : Fin 2) : res_main_v320 V0 (ix5 r a c d b) = st13 V0 r a b c d := by
  unfold res_main_v320
  rw [tr01342_apply, tr04123_apply, ry_core, v291_apply, v291_apply, sh_apply, sh_apply, v288_apply, v290_apply]
  rfl

/-- The tensor after the rotation of qubit 1 holds the row's state, qubits on its axes in the order 0, 1, 3, 2. -/
theorem v349_apply (r : Fin 524288) (a b c d : Fin 2) : res_main_v349 V0 (ix5 r a b d c) = st14 V0 r a b c d := by
  unfold res_main_v349
  rw [tr01243_apply, tr01423_apply, ry_core, v320_apply, v320_apply, sh_apply, sh_apply, v317_apply, v319_apply]
  rfl

/-- The tensor after the rotation of qubit 2 holds the row's state, qubits on its axes in the order 0, 1, 2, 3. -/
theorem v371_apply (r : Fin 524288) (a b c d : Fin 2) : res_main_v371 V0 (ix5 r a b c d) = st15 V0 r a b c d := by
  unfold res_main_v371
  rw [tr01243_apply, ry_core, v349_apply, v349_apply, sh_apply, sh_apply, v346_apply, v348_apply]
  rfl

/-- The tensor after the rotation of qubit 3 holds the row's state, qubits on its axes in the order 2, 3, 0, 1. -/
theorem v399_apply (r : Fin 524288) (a b c d : Fin 2) : res_main_v399 V0 (ix5 r c d a b) = st16 V0 r a b c d := by
  unfold res_main_v399
  rw [tr03412_apply, ry_core, v371_apply, v371_apply, sh_apply, sh_apply, v375_apply, v377_apply]
  rfl

/-- The tensor after the controlled NOT 0→1 holds the row's state, qubits on its axes in the order 0, 3, 1, 2. -/
theorem v405_apply (r : Fin 524288) (a b c d : Fin 2) : res_main_v405 V0 (ix5 r a d b c) = st17 V0 r a b c d := by
  unfold res_main_v405
  rw [tr01423_apply, tr03412_apply, cnot_core, v399_apply, v399_apply]
  rfl

/-- The tensor after the controlled NOT 1→2 holds the row's state, qubits on its axes in the order 0, 1, 2, 3. -/
theorem v410_apply (r : Fin 524288) (a b c d : Fin 2) : res_main_v410 V0 (ix5 r a b c d) = st18 V0 r a b c d := by
  unfold res_main_v410
  rw [tr01342_apply, cnot_core, v405_apply, v405_apply]
  rfl

/-- The tensor after the controlled NOT 2→3 holds the row's state, qubits on its axes in the order 1, 2, 3, 0. -/
theorem v415_apply (r : Fin 524288) (a b c d : Fin 2) : res_main_v415 V0 (ix5 r b c d a) = st19 V0 r a b c d := by
  unfold res_main_v415
  rw [tr02341_apply, cnot_core, v410_apply, v410_apply]
  rfl

/-- The tensor after the controlled NOT 3→0 holds the row's state, qubits on its axes in the order 0, 1, 2, 3. -/
theorem v420_apply (r : Fin 524288) (a b c d : Fin 2) : res_main_v420 V0 (ix5 r a b c d) = st20 V0 r a b c d := by
  unfold res_main_v420
  rw [tr04123_apply, cnot_core, v415_apply, v415_apply]
  rfl

end Cert.RefSide

end
-- ==== Proof.RefMarg.lean ====
/-
  The read-out sums.  The reference sums the squared amplitudes over three of the four qubit axes, keeping the row
  and one qubit: at (r, e) the result is the initial value plus the sum, over the other three bits, of the
  tensor's entries of row r whose kept bit is e.
-/
import proofs.«150622_j8847632630356_2_alg».proof.ReferenceIdeal
import Idealize.ShloMosaic.Lib.IdealHost
import Idealize.ShloMosaic.Lib.ValueIdx

noncomputable section

namespace Cert.RefSide

open Cert.ReferenceIdeal Idealize.ShloMosaic Idealize.ShloMosaic.ValueIdx

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- The reduction at (r, e), for any three reduced axes: when an index (r', a, b, c, d) reduces to (r, e) exactly if
    r' = r and P e a b c d, the result is the initial value plus the sum of the entries of row r that satisfy P. -/
theorem marg_core {axes : List (Fin S524288x2x2x2x2.rank)} (h : S524288x2x2x2x2.ReducesTo axes S524288x2)
    (X : S524288x2x2x2x2.Idx → EReal) (P : Fin 2 → Fin 2 → Fin 2 → Fin 2 → Fin 2 → Prop)
    [∀ e a b c d, Decidable (P e a b c d)]
    (hdrop : ∀ (r' : Fin 524288) (a b c d : Fin 2) (r : Fin 524288) (e : Fin 2),
      h.drop (ix5 r' a b c d) = ix2 r e ↔ r' = r ∧ P e a b c d)
    (init : EReal) (r : Fin 524288) (e : Fin 2) :
    Ideal.hostReduceAdd h X init (ix2 r e)
      = init + ∑ a, ∑ b, ∑ c, ∑ d, if P e a b c d then X (ix5 r a b c d) else 0 := by
  unfold Ideal.hostReduceAdd
  refine congrArg (init + ·) ?_
  rw [Finset.sum_filter, sum_idx5]
  rw [Finset.sum_eq_single r]
  · simp only [hdrop, true_and]
  · intro r' _ hr
    simp [hdrop, hr]
  · intro hr
    exact absurd (Finset.mem_univ r) hr

end Cert.RefSide

end
-- ==== Proof.RefReadout.lean ====
/-
  The read-outs.  Each of the four sums over three qubit axes keeps the row and one qubit; the read-out of that
  qubit is the sum at bit 0 minus the sum at bit 1.  The four read-outs, each with a new unit axis, are concatenated
  along it into the [524288, 4] array.
-/
import proofs.«150622_j8847632630356_2_alg».proof.Proof.RefMarg
import Idealize.ShloMosaic.Lib.Pipeline.Value

noncomputable section

namespace Cert.RefSide

open Cert.ReferenceIdeal Idealize.ShloMosaic Idealize.ShloMosaic.ValueIdx

/-- Summing over axes 2, 3, 4 keeps the row and qubit 0. -/
theorem drop_iff0 (h : S524288x2x2x2x2.ReducesTo [2, 3, 4] S524288x2) (r' : Fin 524288) (a b c d : Fin 2)
    (r : Fin 524288) (e : Fin 2) : h.drop (ix5 r' a b c d) = ix2 r e ↔ r' = r ∧ a = e := by
  have hd : h.drop (ix5 r' a b c d) = ix2 r' a := by
    funext k
    match k with
    | ⟨0, _⟩ => exact Fin.ext rfl
    | ⟨1, _⟩ => exact Fin.ext rfl
  rw [hd]
  constructor
  · intro hh
    refine ⟨?_, ?_⟩
    · exact congrFun hh (⟨0, Nat.two_pos⟩ : Fin 2)
    · exact congrFun hh (⟨1, Nat.one_lt_two⟩ : Fin 2)
  · rintro ⟨rfl, rfl⟩; rfl

/-- Summing over axes 1, 3, 4 keeps the row and qubit 1. -/
theorem drop_iff1 (h : S524288x2x2x2x2.ReducesTo [1, 3, 4] S524288x2) (r' : Fin 524288) (a b c d : Fin 2)
    (r : Fin 524288) (e : Fin 2) : h.drop (ix5 r' a b c d) = ix2 r e ↔ r' = r ∧ b = e := by
  have hd : h.drop (ix5 r' a b c d) = ix2 r' b := by
    funext k
    match k with
    | ⟨0, _⟩ => exact Fin.ext rfl
    | ⟨1, _⟩ => exact Fin.ext rfl
  rw [hd]
  constructor
  · intro hh
    refine ⟨?_, ?_⟩
    · exact congrFun hh (⟨0, Nat.two_pos⟩ : Fin 2)
    · exact congrFun hh (⟨1, Nat.one_lt_two⟩ : Fin 2)
  · rintro ⟨rfl, rfl⟩; rfl

/-- Summing over axes 1, 2, 4 keeps the row and qubit 2. -/
theorem drop_iff2 (h : S524288x2x2x2x2.ReducesTo [1, 2, 4] S524288x2) (r' : Fin 524288) (a b c d : Fin 2)
    (r : Fin 524288) (e : Fin 2) : h.drop (ix5 r' a b c d) = ix2 r e ↔ r' = r ∧ c = e := by
  have hd : h.drop (ix5 r' a b c d) = ix2 r' c := by
    funext k
    match k with
    | ⟨0, _⟩ => exact Fin.ext rfl
    | ⟨1, _⟩ => exact Fin.ext rfl
  rw [hd]
  constructor
  · intro hh
    refine ⟨?_, ?_⟩
    · exact congrFun hh (⟨0, Nat.two_pos⟩ : Fin 2)
    · exact congrFun hh (⟨1, Nat.one_lt_two⟩ : Fin 2)
  · rintro ⟨rfl, rfl⟩; rfl

/-- Summing over axes 1, 2, 3 keeps the row and qubit 3. -/
theorem drop_iff3 (h : S524288x2x2x2x2.ReducesTo [1, 2, 3] S524288x2) (r' : Fin 524288) (a b c d : Fin 2)
    (r : Fin 524288) (e : Fin 2) : h.drop (ix5 r' a b c d) = ix2 r e ↔ r' = r ∧ d = e := by
  have hd : h.drop (ix5 r' a b c d) = ix2 r' d := by
    funext k
    match k with
    | ⟨0, _⟩ => exact Fin.ext rfl
    | ⟨1, _⟩ => exact Fin.ext rfl
  rw [hd]
  constructor
  · intro hh
    refine ⟨?_, ?_⟩
    · exact congrFun hh (⟨0, Nat.two_pos⟩ : Fin 2)
    · exact congrFun hh (⟨1, Nat.one_lt_two⟩ : Fin 2)
  · rintro ⟨rfl, rfl⟩; rfl

/-- The sum that keeps qubit 0, from the zero word. -/
theorem marg0 (X : FVec Ideal S524288x2x2x2x2 .f32) (h : S524288x2x2x2x2.ReducesTo [2, 3, 4] S524288x2)
    (hu : 0 < S_.numel) (r : Fin 524288) (e : Fin 2) :
    Host.reduceAdd X (constant S_ .f32 0x00000000#32) h hu (ix2 r e) = ∑ b, ∑ c, ∑ d, X (ix5 r e b c d) := by
  rw [hostReduceAdd_apply, marg_core h X (fun e a _ _ _ => a = e) (drop_iff0 h), constant_apply,
    Ideal.ofBits_zero_f32, zero_add]
  fin_cases e <;> simp [Fin.sum_univ_two]

/-- The sum that keeps qubit 1, from the zero word. -/
theorem marg1 (X : FVec Ideal S524288x2x2x2x2 .f32) (h : S524288x2x2x2x2.ReducesTo [1, 3, 4] S524288x2)
    (hu : 0 < S_.numel) (r : Fin 524288) (e : Fin 2) :
    Host.reduceAdd X (constant S_ .f32 0x00000000#32) h hu (ix2 r e) = ∑ a, ∑ c, ∑ d, X (ix5 r a e c d) := by
  rw [hostReduceAdd_apply, marg_core h X (fun e _ b _ _ => b = e) (drop_iff1 h), constant_apply,
    Ideal.ofBits_zero_f32, zero_add]
  fin_cases e <;> simp [Fin.sum_univ_two]

/-- The sum that keeps qubit 2, from the zero word. -/
theorem marg2 (X : FVec Ideal S524288x2x2x2x2 .f32) (h : S524288x2x2x2x2.ReducesTo [1, 2, 4] S524288x2)
    (hu : 0 < S_.numel) (r : Fin 524288) (e : Fin 2) :
    Host.reduceAdd X (constant S_ .f32 0x00000000#32) h hu (ix2 r e) = ∑ a, ∑ b, ∑ d, X (ix5 r a b e d) := by
  rw [hostReduceAdd_apply, marg_core h X (fun e _ _ c _ => c = e) (drop_iff2 h), constant_apply,
    Ideal.ofBits_zero_f32, zero_add]
  fin_cases e <;> simp [Fin.sum_univ_two]

/-- The sum that keeps qubit 3, from the zero word. -/
theorem marg3 (X : FVec Ideal S524288x2x2x2x2 .f32) (h : S524288x2x2x2x2.ReducesTo [1, 2, 3] S524288x2)
    (hu : 0 < S_.numel) (r : Fin 524288) (e : Fin 2) :
    Host.reduceAdd X (constant S_ .f32 0x00000000#32) h hu (ix2 r e) = ∑ a, ∑ b, ∑ c, X (ix5 r a b c e) := by
  rw [hostReduceAdd_apply, marg_core h X (fun e _ _ _ d => d = e) (drop_iff3 h), constant_apply,
    Ideal.ofBits_zero_f32, zero_add]
  fin_cases e <;> simp [Fin.sum_univ_two]

/-- Column q of a [524288, 2] array as a vector. -/
theorem col2_apply (W : S524288x2.Idx → EReal) (q : ℕ) (hq : q < 2)
    (hs : S524288x2.Slices ![0, q] S524288x1) (hc : S524288x1.ShapeCasts S524288) (r : Fin 524288) :
    shapeCast S524288 (extractStridedSlice S524288x1 ![0, q] W hs) hc (ix1 r) = W (ix2 r ⟨q, hq⟩) := by
  refine (shapeCast_apply _ hc (ix1 r) (ix2 r (0 : Fin 1)) ?_).trans ?_
  · rw [Shape.rowMajor_val_two, Shape.rowMajor_val_one]; simp
  · refine extractStridedSlice_apply _ W hs _ _ fun e => ?_
    match e with
    | ⟨0, _⟩ => simp
    | ⟨1, _⟩ => simp

/-- A vector over the rows given a trailing unit axis. -/
theorem unit1_apply (Y : S524288.Idx → EReal)
    (h : S524288.BroadcastsInDim S524288x1 (![0] : Fin 1 → Fin S524288x1.rank)) (r : Fin 524288) (e : Fin 1) :
    broadcastInDim S524288x1 ![0] h Y (ix2 r e) = Y (ix1 r) := by
  refine broadcastInDim_apply _ h Y _ _ fun k => ?_
  match k with
  | ⟨0, _⟩ => simp

/-- Four columns concatenated: column 0 reads the first. -/
theorem cat4_apply0 (A0 A1 A2 A3 : S524288x1.Idx → EReal)
    (h : Shape.Concatenates [S524288x1, S524288x1, S524288x1, S524288x1] S524288x4 1) (r : Fin 524288) :
    concatenate S524288x4 1 [⟨S524288x1, A0⟩, ⟨S524288x1, A1⟩, ⟨S524288x1, A2⟩, ⟨S524288x1, A3⟩] h (ix2 r (0 : Fin 4))
      = A0 (ix2 r 0) := by
  refine concatenate_apply_piece (t := S524288x4) 1
    [⟨S524288x1, A0⟩, ⟨S524288x1, A1⟩, ⟨S524288x1, A2⟩, ⟨S524288x1, A3⟩] h _ 0 (by simp) S524288x1 A0 rfl rfl 0 rfl
    (ix2 r 0) (fun b hb => ?_) rfl
  match b with
  | ⟨0, _⟩ => rfl
  | ⟨1, _⟩ => exact absurd rfl hb

/-- Four columns concatenated: column 1 reads the second. -/
theorem cat4_apply1 (A0 A1 A2 A3 : S524288x1.Idx → EReal)
    (h : Shape.Concatenates [S524288x1, S524288x1, S524288x1, S524288x1] S524288x4 1) (r : Fin 524288) :
    concatenate S524288x4 1 [⟨S524288x1, A0⟩, ⟨S524288x1, A1⟩, ⟨S524288x1, A2⟩, ⟨S524288x1, A3⟩] h (ix2 r (1 : Fin 4))
      = A1 (ix2 r 0) := by
  refine concatenate_apply_piece (t := S524288x4) 1
    [⟨S524288x1, A0⟩, ⟨S524288x1, A1⟩, ⟨S524288x1, A2⟩, ⟨S524288x1, A3⟩] h _ 1 (by simp) S524288x1 A1 rfl rfl 1 rfl
    (ix2 r 0) (fun b hb => ?_) rfl
  match b with
  | ⟨0, _⟩ => rfl
  | ⟨1, _⟩ => exact absurd rfl hb

/-- Four columns concatenated: column 2 reads the third. -/
theorem cat4_apply2 (A0 A1 A2 A3 : S524288x1.Idx → EReal)
    (h : Shape.Concatenates [S524288x1, S524288x1, S524288x1, S524288x1] S524288x4 1) (r : Fin 524288) :
    concatenate S524288x4 1 [⟨S524288x1, A0⟩, ⟨S524288x1, A1⟩, ⟨S524288x1, A2⟩, ⟨S524288x1, A3⟩] h (ix2 r (2 : Fin 4))
      = A2 (ix2 r 0) := by
  refine concatenate_apply_piece (t := S524288x4) 1
    [⟨S524288x1, A0⟩, ⟨S524288x1, A1⟩, ⟨S524288x1, A2⟩, ⟨S524288x1, A3⟩] h _ 2 (by simp) S524288x1 A2 rfl rfl 2 rfl
    (ix2 r 0) (fun b hb => ?_) rfl
  match b with
  | ⟨0, _⟩ => rfl
  | ⟨1, _⟩ => exact absurd rfl hb

/-- Four columns concatenated: column 3 reads the fourth. -/
theorem cat4_apply3 (A0 A1 A2 A3 : S524288x1.Idx → EReal)
    (h : Shape.Concatenates [S524288x1, S524288x1, S524288x1, S524288x1] S524288x4 1) (r : Fin 524288) :
    concatenate S524288x4 1 [⟨S524288x1, A0⟩, ⟨S524288x1, A1⟩, ⟨S524288x1, A2⟩, ⟨S524288x1, A3⟩] h (ix2 r (3 : Fin 4))
      = A3 (ix2 r 0) := by
  refine concatenate_apply_piece (t := S524288x4) 1
    [⟨S524288x1, A0⟩, ⟨S524288x1, A1⟩, ⟨S524288x1, A2⟩, ⟨S524288x1, A3⟩] h _ 3 (by simp) S524288x1 A3 rfl rfl 3 rfl
    (ix2 r 0) (fun b hb => ?_) rfl
  match b with
  | ⟨0, _⟩ => rfl
  | ⟨1, _⟩ => exact absurd rfl hb

end Cert.RefSide

end
-- ==== Proof.RefDense.lean ====
/-
  The dense layers read at an index.  A matrix product of an [M, K] by a [K, N] array is, at (i, j), the sum over the
  contracted coordinate k of the products of the entries (i, k) and (k, j); a bias vector spread over the rows reads
  its entry j; the hyperbolic tangent acts entry by entry.
-/
import Idealize.ShloMosaic.Lib.IdealHost
import Idealize.ShloMosaic.Lib.Pipeline.Value
import Idealize.ShloMosaic.Lib.ValueIdx
import proofs.«150622_j8847632630356_2_alg».proof.Proof.Spec

noncomputable section

namespace Cert.RefSide

open Idealize.ShloMosaic Idealize.ShloMosaic.ValueIdx

/-- The plain matrix product at (i, j). -/
theorem dense_apply {M K N : ℕ} (D : DotDims ⟨2, ![M, K]⟩ ⟨2, ![K, N]⟩ ⟨2, ![M, N]⟩) (hD : D = DotDims.plain M K N)
    (lhs : FVec Ideal ⟨2, ![M, K]⟩ .f32) (rhs : FVec Ideal ⟨2, ![K, N]⟩ .f32) (i : Fin M) (j : Fin N) :
    Host.dotGeneral D none lhs rhs (ix2 i j) = ∑ k : Fin K, lhs (ix2 i k) * rhs (ix2 k j) := by
  subst hD
  show FloatOps.dotGeneral (DotDims.plain M K N) none .single lhs rhs (ix2 i j) = _
  rw [Ideal.dotGeneral_apply]
  rw [← Equiv.sum_comp (contrEquiv1 (DotDims.plain M K N) K rfl rfl).symm]
  refine Finset.sum_congr rfl fun k _ => ?_
  congr 2
  · funext a
    match a with
    | ⟨0, _⟩ => exact Fin.ext rfl
    | ⟨1, _⟩ =>
      refine Fin.ext ?_
      rw [DotDims.lhsIdx_val_of_single (DotDims.plain M K N) (cl := (⟨1, Nat.one_lt_two⟩ : Fin 2)) rfl]
      exact contrEquiv1_symm_val (DotDims.plain M K N) K rfl rfl k
  · funext a
    match a with
    | ⟨0, _⟩ =>
      refine Fin.ext ?_
      rw [DotDims.rhsIdx_val_of_single (DotDims.plain M K N) (cr := (⟨0, Nat.two_pos⟩ : Fin 2)) rfl]
      exact contrEquiv1_symm_val (DotDims.plain M K N) K rfl rfl k
    | ⟨1, _⟩ => exact Fin.ext rfl

/-- A bias vector spread over the rows reads its entry j at (i, j). -/
theorem bias_apply {M N : ℕ} (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (i : Fin M) (j : Fin N) :
    broadcastInDim ⟨2, ![M, N]⟩ ![0, 1] h2 (broadcastInDim ⟨2, ![1, N]⟩ ![1] h1 b) (ix2 i j) = b (ix1 j) := by
  refine (broadcastInDim_apply _ h2 _ (ix2 i j) (ix2 (0 : Fin 1) j) fun k => ?_).trans ?_
  · match k with
    | ⟨0, _⟩ => simp
    | ⟨1, _⟩ =>
      show j.val = if N = 1 then 0 else j.val
      split
      · have := j.isLt; omega
      · rfl
  · refine broadcastInDim_apply _ h1 _ _ _ fun k => ?_
    match k with
    | ⟨0, _⟩ =>
      show j.val = if N = 1 then 0 else j.val
      split
      · have := j.isLt; omega
      · rfl

/-- The hyperbolic tangent acts entry by entry. -/
theorem tanh_apply {s : Shape} (x : FVec Ideal s .f32) (i : s.Idx) : Host.tanh x i = Ideal.tanh (x i) := rfl

end Cert.RefSide

end
-- ==== Proof.RefDenseLayer.lean ====
/-
  A dense layer as a function of the index: the matrix product plus the bias, with or without the hyperbolic
  tangent, is at (i, j) the sum over k of input (i, k) times weight (k, j), plus bias j.
-/
import proofs.«150622_j8847632630356_2_alg».proof.Proof.RefDense

noncomputable section

namespace Cert.RefSide

open Idealize.ShloMosaic Idealize.ShloMosaic.ValueIdx

/-- A dense layer followed by the hyperbolic tangent. -/
theorem layer_tanh {M K N : ℕ} (D : DotDims ⟨2, ![M, K]⟩ ⟨2, ![K, N]⟩ ⟨2, ![M, N]⟩) (hD : D = DotDims.plain M K N)
    (E : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    Host.tanh (addf (Host.dotGeneral D none E w)
        (broadcastInDim ⟨2, ![M, N]⟩ ![0, 1] h2 (broadcastInDim ⟨2, ![1, N]⟩ ![1] h1 b)))
      = fun i => Ideal.tanh ((∑ k : Fin K, E (ix2 (i 0) k) * w (ix2 k (i 1))) + b (ix1 (i 1))) := by
  funext i
  obtain ⟨r, j, rfl⟩ : ∃ (r : Fin M) (j : Fin N), i = ix2 r j := ⟨i 0, i 1, eq_ix2 i⟩
  rw [tanh_apply, addf_apply, dense_apply D hD, bias_apply]
  rfl

/-- A dense layer. -/
theorem layer_lin {M K N : ℕ} (D : DotDims ⟨2, ![M, K]⟩ ⟨2, ![K, N]⟩ ⟨2, ![M, N]⟩) (hD : D = DotDims.plain M K N)
    (E : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral D none E w)
        (broadcastInDim ⟨2, ![M, N]⟩ ![0, 1] h2 (broadcastInDim ⟨2, ![1, N]⟩ ![1] h1 b))
      = fun i => (∑ k : Fin K, E (ix2 (i 0) k) * w (ix2 k (i 1))) + b (ix1 (i 1)) := by
  funext i
  obtain ⟨r, j, rfl⟩ : ∃ (r : Fin M) (j : Fin N), i = ix2 r j := ⟨i 0, i 1, eq_ix2 i⟩
  rw [addf_apply, dense_apply D hD, bias_apply]
  rfl

end Cert.RefSide

end
-- ==== Proof.RefQout.lean ====
/-
  The read-out array of the reference: entry (r, q) is the circuit's read-out of qubit q at row r's final state,
  which is the specification's read-out of the row's angles and the shared angles.
-/
import proofs.«150622_j8847632630356_2_alg».proof.Proof.RefLayer1
import proofs.«150622_j8847632630356_2_alg».proof.Proof.RefReadout
import proofs.«150622_j8847632630356_2_alg».proof.Proof.RefDenseLayer
import proofs.«150622_j8847632630356_2_alg».proof.Proof.Spec
import Idealize.ShloMosaic.Lib.ValueIdx

noncomputable section

namespace Cert.RefSide

open Cert.ReferenceIdeal Cert.ReferenceIdeal.Gen Cert.ReferenceIdeal.Value Idealize.ShloMosaic Idealize.ShloMosaic.TcCoe Idealize.SL.Sem Idealize.ShloMosaic.ValueIdx
open Cert.Circuit

variable (V0 : Valuation τ sig (Elt Ideal))

/-- The squared amplitudes. -/
theorem v421_apply (r : Fin 524288) (a b c d : Fin 2) :
    res_main_v421 V0 (ix5 r a b c d) = sq (st20 V0 r) a b c d := by
  unfold res_main_v421
  rw [mulf_apply, v420_apply]
  rfl

/-- The sum of the squared amplitudes with qubit 0 at e. -/
theorem v422_apply (r : Fin 524288) (e : Fin 2) :
    res_main_v422 V0 (ix2 r e) = ∑ b, ∑ c, ∑ d, sq (st20 V0 r) e b c d := by
  unfold res_main_v422
  rw [marg0]
  simp only [v421_apply]

/-- The sum of the squared amplitudes with qubit 1 at e. -/
theorem v428_apply (r : Fin 524288) (e : Fin 2) :
    res_main_v428 V0 (ix2 r e) = ∑ a, ∑ c, ∑ d, sq (st20 V0 r) a e c d := by
  unfold res_main_v428
  rw [marg1]
  simp only [v421_apply]

/-- The sum of the squared amplitudes with qubit 2 at e. -/
theorem v434_apply (r : Fin 524288) (e : Fin 2) :
    res_main_v434 V0 (ix2 r e) = ∑ a, ∑ b, ∑ d, sq (st20 V0 r) a b e d := by
  unfold res_main_v434
  rw [marg2]
  simp only [v421_apply]

/-- The sum of the squared amplitudes with qubit 3 at e. -/
theorem v440_apply (r : Fin 524288) (e : Fin 2) :
    res_main_v440 V0 (ix2 r e) = ∑ a, ∑ b, ∑ c, sq (st20 V0 r) a b c e := by
  unfold res_main_v440
  rw [marg3]
  simp only [v421_apply]

/-- The read-out array [524288, 4]: the four differences of sums, side by side. -/
def qoutT : FVec Ideal S524288x4 .f32 :=
  concatenate S524288x4 1 [⟨S524288x1, (broadcastInDim S524288x1 ![0] bcast_S524288_S524288x1_0 (subf (shapeCast _ (extractStridedSlice S524288x1 ![0, 0] (res_main_v422 V0) slices_S524288x2_S524288x1_0_0) shapeCasts_S524288x1_S524288) (shapeCast _ (extractStridedSlice S524288x1 ![0, 1] (res_main_v422 V0) slices_S524288x2_S524288x1_0_1) shapeCasts_S524288x1_S524288)))⟩, ⟨S524288x1, (broadcastInDim S524288x1 ![0] bcast_S524288_S524288x1_0 (subf (shapeCast _ (extractStridedSlice S524288x1 ![0, 0] (res_main_v428 V0) slices_S524288x2_S524288x1_0_0) shapeCasts_S524288x1_S524288) (shapeCast _ (extractStridedSlice S524288x1 ![0, 1] (res_main_v428 V0) slices_S524288x2_S524288x1_0_1) shapeCasts_S524288x1_S524288)))⟩, ⟨S524288x1, (broadcastInDim S524288x1 ![0] bcast_S524288_S524288x1_0 (subf (shapeCast _ (extractStridedSlice S524288x1 ![0, 0] (res_main_v434 V0) slices_S524288x2_S524288x1_0_0) shapeCasts_S524288x1_S524288) (shapeCast _ (extractStridedSlice S524288x1 ![0, 1] (res_main_v434 V0) slices_S524288x2_S524288x1_0_1) shapeCasts_S524288x1_S524288)))⟩, ⟨S524288x1, (broadcastInDim S524288x1 ![0] bcast_S524288_S524288x1_0 (subf (shapeCast _ (extractStridedSlice S524288x1 ![0, 0] (res_main_v440 V0) slices_S524288x2_S524288x1_0_0) shapeCasts_S524288x1_S524288) (shapeCast _ (extractStridedSlice S524288x1 ![0, 1] (res_main_v440 V0) slices_S524288x2_S524288x1_0_1) shapeCasts_S524288x1_S524288)))⟩] concatenates_S524288x1_S524288x1_S524288x1_S524288x1_S524288x4_d1

/-- Column 0 of the read-out array is the read-out of qubit 0. -/
theorem qoutT_apply0 (r : Fin 524288) : qoutT V0 (ix2 r (0 : Fin 4)) = readout (sq (st20 V0 r)) 0 := by
  unfold qoutT
  rw [cat4_apply0, unit1_apply, subf_apply, col2_apply _ 0 (by norm_num), col2_apply _ 1 (by norm_num), v422_apply, v422_apply]
  rfl

/-- Column 1 of the read-out array is the read-out of qubit 1. -/
theorem qoutT_apply1 (r : Fin 524288) : qoutT V0 (ix2 r (1 : Fin 4)) = readout (sq (st20 V0 r)) 1 := by
  unfold qoutT
  rw [cat4_apply1, unit1_apply, subf_apply, col2_apply _ 0 (by norm_num), col2_apply _ 1 (by norm_num), v428_apply, v428_apply]
  rfl

/-- Column 2 of the read-out array is the read-out of qubit 2. -/
theorem qoutT_apply2 (r : Fin 524288) : qoutT V0 (ix2 r (2 : Fin 4)) = readout (sq (st20 V0 r)) 2 := by
  unfold qoutT
  rw [cat4_apply2, unit1_apply, subf_apply, col2_apply _ 0 (by norm_num), col2_apply _ 1 (by norm_num), v434_apply, v434_apply]
  rfl

/-- Column 3 of the read-out array is the read-out of qubit 3. -/
theorem qoutT_apply3 (r : Fin 524288) : qoutT V0 (ix2 r (3 : Fin 4)) = readout (sq (st20 V0 r)) 3 := by
  unfold qoutT
  rw [cat4_apply3, unit1_apply, subf_apply, col2_apply _ 0 (by norm_num), col2_apply _ 1 (by norm_num), v440_apply, v440_apply]
  rfl

/-- Entry (r, q) of the read-out array is the read-out of qubit q at row r's final state. -/
theorem qoutT_apply (r : Fin 524288) (q : Fin 4) : qoutT V0 (ix2 r q) = readout (sq (st20 V0 r)) q := by
  match q with
  | ⟨0, _⟩ => exact qoutT_apply0 V0 r
  | ⟨1, _⟩ => exact qoutT_apply1 V0 r
  | ⟨2, _⟩ => exact qoutT_apply2 V0 r
  | ⟨3, _⟩ => exact qoutT_apply3 V0 r

/-- The reference's angles are the specification's. -/
theorem ang_eq (r : Fin 524288) (q : Fin 4) :
    ang V0 r q = Cert.Spec.angle (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) r q := by
  unfold ang res_main_v13
  rw [layer_tanh _ (by rfl), layer_tanh _ (by rfl), layer_lin _ (by rfl)]
  rfl

/-- The read-out array is the specification's read-outs. -/
theorem qoutT_eq : qoutT V0 = fun j => Cert.Spec.qout (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (j 0) (j 1) := by
  funext j
  obtain ⟨r, q, rfl⟩ : ∃ (r : Fin 524288) (q : Fin 4), j = ix2 r q := ⟨j 0, j 1, eq_ix2 j⟩
  rw [qoutT_apply]
  show Cert.Circuit.out (ang V0 r) (wgt V0) q = _
  rw [show ang V0 r = fun q' => Cert.Spec.angle (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) r q' from funext (ang_eq V0 r)]
  rfl

end Cert.RefSide

end
-- ==== Proof.RefRun.lean ====
/-
  The reference's run: every execution ends with the result array at the specification's function of the twelve
  argument arrays, the arguments unchanged.  The result is the last two dense layers applied to the read-out array.
-/
import proofs.«150622_j8847632630356_2_alg».proof.Proof.RefQout
import Idealize.ShloMosaic.Lib.ValueIdx

noncomputable section

namespace Cert.RefSide

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx
open Cert.Circuit

/-- The reference's result term is the specification's function of the argument arrays. -/
theorem result_eq (V0 : Valuation τ sig (Elt Ideal)) :
    addf (Host.dotGeneral (φ₁ := .f32) (φ₂ := .f32) dot_S524288x32_S32x4_S524288x4_1_0_0_1_n_n none (Host.tanh (addf (Host.dotGeneral (φ₁ := .f32) (φ₂ := .f32) dot_S524288x4_S4x32_S524288x32_1_0_0_1_n_n none (qoutT V0) (V0 (Proc.devRef .tc main_arg8) : FVec Ideal S4x32 .f32)) (broadcastInDim S524288x32 ![0, 1] bcast_S1x32_S524288x32_0_1 (broadcastInDim S1x32 ![1] bcast_S32_S1x32_1 (V0 (Proc.devRef .tc main_arg9) : FVec Ideal S32 .f32))))) (V0 (Proc.devRef .tc main_arg10) : FVec Ideal S32x4 .f32)) (broadcastInDim S524288x4 ![0, 1] bcast_S1x4_S524288x4_0_1 (broadcastInDim S1x4 ![1] bcast_S4_S1x4_1 (V0 (Proc.devRef .tc main_arg11) : FVec Ideal S4 .f32)))
      = Cert.Spec.G (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [qoutT_eq, layer_tanh _ (by rfl), layer_lin _ (by rfl)]
  rfl

set_option maxRecDepth 8192 in
/-- On every device, from any memory with zero counters: every weakly fair execution of the reference terminates with
    the result at the specification's function of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v459)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (result_eq (launchContents m c)), (h c).2⟩)
    (Cert.ReferenceIdeal.Value.run (F := Ideal) m ρ)

end Cert.RefSide

end
-- ==== Proof.Bridge.lean ====
/-
  The two idealized programs end with equal results.

  From memories that agree on the twelve arguments, the idealized kernel ends with its result at the specification of
  its arguments (Proof/KernValue.lean) and the idealized reference with its result at the specification of its own
  (Proof/RefRun.lean); the arguments agree, so the two results are one array.
-/
import proofs.«150622_j8847632630356_2_alg».proof.Defs
import proofs.«150622_j8847632630356_2_alg».proof.Proof.KernValue
import proofs.«150622_j8847632630356_2_alg».proof.Proof.RefRun
import proofs.«150622_j8847632630356_2_alg».proof.Proof.Gen.Pre_finite_inputs

noncomputable section

namespace Cert.Bridge

open Idealize.ShloMosaic Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernValue.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

end Cert.Bridge

end
-- ==== Proof.lean ====
/-
  The kernel and its reference both compute, for each row of the batch, two tanh layers, four angles, the
  read-outs of a simulated four-qubit circuit of those angles, one more tanh layer and a final affine map
  (Proof/Spec.lean states the common function, Proof/Circuit.lean the circuit).  On the extended reals the two
  programs differ only in the order in which sums are taken, in the order of the factors of the products inside the
  matrix products, and in writing "half of θ" as θ · ½ or as θ / 2; no step uses finiteness of the inputs.
  The three frames are the generated runs; the idealization rewrote nothing, so its claim is `True`.
-/
import proofs.«150622_j8847632630356_2_alg».proof.Defs
import proofs.«150622_j8847632630356_2_alg».proof.Proof.Gen.Kernel
import proofs.«150622_j8847632630356_2_alg».proof.Proof.Gen.Kernel.Skeleton
import proofs.«150622_j8847632630356_2_alg».proof.Proof.Gen.Kernel.Loops
import proofs.«150622_j8847632630356_2_alg».proof.Proof.Gen.Kernel.Launch
import proofs.«150622_j8847632630356_2_alg».proof.Proof.Gen.Kernel.Points
import proofs.«150622_j8847632630356_2_alg».proof.Proof.KernelFrame
import proofs.«150622_j8847632630356_2_alg».proof.Proof.Bridge
import proofs.«150622_j8847632630356_2_alg».proof.Proof.Gen.KernelIdeal
import proofs.«150622_j8847632630356_2_alg».proof.Proof.Gen.KernelIdeal.Skeleton
import proofs.«150622_j8847632630356_2_alg».proof.Proof.Gen.KernelIdeal.Loops
import proofs.«150622_j8847632630356_2_alg».proof.Proof.Gen.KernelIdeal.Launch
import proofs.«150622_j8847632630356_2_alg».proof.Proof.Gen.KernelIdeal.Points
import proofs.«150622_j8847632630356_2_alg».proof.Proof.KernelIdealFrame
import proofs.«150622_j8847632630356_2_alg».proof.Proof.Gen.ReferenceIdeal
import proofs.«150622_j8847632630356_2_alg».proof.Proof.Gen.ReferenceIdeal.Run
import proofs.«150622_j8847632630356_2_alg».proof.Proof.Gen.Pre_finite_inputs
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel (hKernel := Cert.Kernel.Gen.facts) (hPre_finite_inputs := Cert.Pre_finite_inputs.Gen.facts) :=
  fun m ρ _ => Cert.Kernel.GenP.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
